-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3200000 : Shape := ⟨2, ![4, 3200000]⟩
abbrev S1x2x800000 : Shape := ⟨3, ![1, 2, 800000]⟩
abbrev S64x64 : Shape := ⟨2, ![64, 64]⟩
abbrev S64 : Shape := ⟨1, ![64]⟩
abbrev S_ : Shape := ⟨0, ![]⟩

class Facts : Prop where
  bcast_S_S4x3200000 : S_.BroadcastsInDim S4x3200000 (![] : Fin 0 → Fin S4x3200000.rank)
  reducesTo_S4x3200000_S_d0_1 : S4x3200000.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part3 {F : FTy → Type} [FloatOps F] (main_arg12 : FVec F S64x64 .f32) (main_arg13 : FVec F S_ .f32) (main_v46 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v46 main_v50
  let main_v52 : FVec F S64x64 .f32 := Host.absf main_arg12
  let main_cst_20 : FVec F S_ .f32 := constant S_ .f32 0x7F800000#32
  let main_v53 : FVec F S64x64 .f32 := broadcastInDim S64x64 ![] bcast_S_S64x64 main_cst_20
  let main_v54 : IVec S64x64 1 := cmpf .olt main_v52 main_v53
  let main_c_21 : IVec S_ 1 := constantI S_ 1 1#1
  let main_v55 : IVec S_ 1 := (fun x v => Host.reduce IntOp.andi x v reducesTo_S64x64_S_d0_1 h_S_) main_v54 main_c_21
  let main_v56 : IVec S_ 1 := andi main_v51 main_v55
  let main_v57 : FVec F S_ .f32 := Host.absf main_arg13
  let main_cst_22 : FVec F S_ .f32 := constant S_ .f32 0x7F800000#32
  let main_v58 : IVec S_ 1 := cmpf .olt main_v57 main_cst_22
  let main_c_23 : IVec S_ 1 := constantI S_ 1 1#1
  let main_v59 : IVec S_ 1 := (fun x v => Host.reduce IntOp.andi x v reducesTo_S_S_d h_S_) main_v58 main_c_23
  let main_v60 : IVec S_ 1 := andi main_v56 main_v59
  main_v60

def fn_part2 {F : FTy → Type} [FloatOps F] (main_arg9 : FVec F S_ .f32) (main_arg10 : FVec F S64x64 .f32) (main_arg11 : FVec F S64 .f32) (main_arg12 : FVec F S64x64 .f32) (main_arg13 : FVec F S_ .f32) (main_v32 : IVec S_ 1) (main_v33 : FVec F S64x64 .f32) : IVec S_ 1 :=
  let main_cst_12 : FVec F S_ .f32 := constant S_ .f32 0x7F800000#32
  let main_v34 : FVec F S64x64 .f32 := broadcastInDim S64x64 ![] bcast_S_S64x64 main_cst_12
  let main_v35 : IVec S64x64 1 := cmpf .olt main_v33 main_v34
  let main_c_13 : IVec S_ 1 := constantI S_ 1 1#1
  let main_v36 : IVec S_ 1 := (fun x v => Host.reduce IntOp.andi x v reducesTo_S64x64_S_d0_1 h_S_) main_v35 main_c_13
  let main_v37 : IVec S_ 1 := andi main_v32 main_v36
  let main_v38 : FVec F S_ .f32 := Host.absf main_arg9
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  let main_v42 : FVec F S64x64 .f32 := Host.absf main_arg10
  let main_cst_16 : FVec F S_ .f32 := constant S_ .f32 0x7F800000#32
  let main_v43 : FVec F S64x64 .f32 := broadcastInDim S64x64 ![] bcast_S_S64x64 main_cst_16
  let main_v44 : IVec S64x64 1 := cmpf .olt main_v42 main_v43
  let main_c_17 : IVec S_ 1 := constantI S_ 1 1#1
  let main_v45 : IVec S_ 1 := (fun x v => Host.reduce IntOp.andi x v reducesTo_S64x64_S_d0_1 h_S_) main_v44 main_c_17
  let main_v46 : IVec S_ 1 := andi main_v41 main_v45
  let main_v47 : FVec F S64 .f32 := Host.absf main_arg11
  let main_cst_18 : FVec F S_ .f32 := constant S_ .f32 0x7F800000#32
  let main_v48 : FVec F S64 .f32 := broadcastInDim S64 ![] bcast_S_S64 main_cst_18
  let main_v49 : IVec S64 1 := cmpf .olt main_v47 main_v48
  let main_c_19 : IVec S_ 1 := constantI S_ 1 1#1
  fn_part3 (F := F) main_arg12 main_arg13 main_v46 main_v49 main_c_19

def fn_part1 {F : FTy → Type} [FloatOps F] (main_arg5 : FVec F S_ .f32) (main_arg6 : FVec F S64x64 .f32) (main_arg7 : FVec F S64 .f32) (main_arg8 : FVec F S64x64 .f32) (main_arg9 : FVec F S_ .f32) (main_arg10 : FVec F S64x64 .f32) (main_arg11 : FVec F S64 .f32) (main_arg12 : FVec F S64x64 .f32) (main_arg13 : FVec F S_ .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S64x64 .f32 := Host.absf main_arg6
  let main_cst_8 : FVec F S_ .f32 := constant S_ .f32 0x7F800000#32
  let main_v24 : FVec F S64x64 .f32 := broadcastInDim S64x64 ![] bcast_S_S64x64 main_cst_8
  let main_v25 : IVec S64x64 1 := cmpf .olt main_v23 main_v24
  let main_c_9 : IVec S_ 1 := constantI S_ 1 1#1
  let main_v26 : IVec S_ 1 := (fun x v => Host.reduce IntOp.andi x v reducesTo_S64x64_S_d0_1 h_S_) main_v25 main_c_9
  let main_v27 : IVec S_ 1 := andi main_v22 main_v26
  let main_v28 : FVec F S64 .f32 := Host.absf main_arg7
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S64x64 .f32 := Host.absf main_arg8
  fn_part2 (F := F) main_arg9 main_arg10 main_arg11 main_arg12 main_arg13 main_v32 main_v33

def fn {F : FTy → Type} [FloatOps F] (main_arg0 : FVec F S4x3200000 .f32) (main_arg1 : IVec S1x2x800000 32) (main_arg2 : FVec F S64x64 .f32) (main_arg3 : FVec F S64 .f32) (main_arg4 : FVec F S64x64 .f32) (main_arg5 : FVec F S_ .f32) (main_arg6 : FVec F S64x64 .f32) (main_arg7 : FVec F S64 .f32) (main_arg8 : FVec F S64x64 .f32) (main_arg9 : FVec F S_ .f32) (main_arg10 : FVec F S64x64 .f32) (main_arg11 : FVec F S64 .f32) (main_arg12 : FVec F S64x64 .f32) (main_arg13 : FVec F S_ .f32) : IVec S_ 1 :=
  let main_v0 : FVec F S4x3200000 .f32 := Host.absf main_arg0
  let main_cst : FVec F S_ .f32 := constant S_ .f32 0x7F800000#32
  let main_v1 : FVec F S4x3200000 .f32 := broadcastInDim S4x3200000 ![] bcast_S_S4x3200000 main_cst
  let main_v2 : IVec S4x3200000 1 := cmpf .olt main_v0 main_v1
  let main_c : IVec S_ 1 := constantI S_ 1 1#1
  let main_v3 : IVec S_ 1 := (fun x v => Host.reduce IntOp.andi x v reducesTo_S4x3200000_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S4x3200000 : Shape := ⟨2, ![4, 3200000]⟩
abbrev S1x2x800000 : Shape := ⟨3, ![1, 2, 800000]⟩
abbrev S64x64 : Shape := ⟨2, ![64, 64]⟩
abbrev S64 : Shape := ⟨1, ![64]⟩
abbrev S_ : Shape := ⟨0, ![]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S800000x1 : Shape := ⟨2, ![800000, 1]⟩
abbrev S4x50000x64 : Shape := ⟨3, ![4, 50000, 64]⟩
abbrev S1 : Shape := ⟨1, ![1]⟩
abbrev S1x1 : Shape := ⟨2, ![1, 1]⟩
abbrev S4x800000x64 : Shape := ⟨3, ![4, 800000, 64]⟩
abbrev S1x50000x1 : Shape := ⟨3, ![1, 50000, 1]⟩
abbrev S200000x64 : Shape := ⟨2, ![200000, 64]⟩
abbrev S1x64 : Shape := ⟨2, ![1, 64]⟩
abbrev S8000x64 : Shape := ⟨2, ![8000, 64]⟩

abbrev nBuf : Space → Nat
  | .hbm => 179
  | .vmem => 30
  | .smem => 0
  | _ => 0

abbrev hbmTy0_0 (i : Nat) : BufTy := match i % 128 with
  | 0 => ⟨S4x3200000, .f32⟩
  | 1 => ⟨S1x2x800000, .i32⟩
  | 2 => ⟨S64x64, .f32⟩
  | 3 => ⟨S64, .f32⟩
  | 4 => ⟨S64x64, .f32⟩
  | 5 => ⟨S_, .f32⟩
  | 6 => ⟨S64x64, .f32⟩
  | 7 => ⟨S64, .f32⟩
  | 8 => ⟨S64x64, .f32⟩
  | 9 => ⟨S_, .f32⟩
  | 10 => ⟨S64x64, .f32⟩
  | 11 => ⟨S64, .f32⟩
  | 12 => ⟨S64x64, .f32⟩
  | 13 => ⟨S_, .f32⟩
  | 14 => ⟨S2x800000, .i32⟩
  | 15 => ⟨S1x800000, .i32⟩
  | 16 => ⟨S800000, .i32⟩
  | 17 => ⟨S1x800000, .i32⟩
  | 18 => ⟨S800000, .i32⟩
  | 19 => ⟨S_, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S_, .f32⟩
  | 30 => ⟨S800000, .f32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S4x50000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S4x800000x64, .f32⟩
  | 62 => ⟨S4x800000x64, .i1⟩
  | 63 => ⟨S_, .f32⟩
  | 64 => ⟨S4x800000x64, .f32⟩
  | 65 => ⟨S4x800000x64, .f32⟩
  | 66 => ⟨S_, .f32⟩
  | 67 => ⟨S4x50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S4x50000x64, .f32⟩
  | 77 => ⟨S1x50000x1, .f32⟩
  | 78 => ⟨S4x50000x64, .f32⟩
  | 79 => ⟨S4x50000x64, .f32⟩
  | 80 => ⟨S200000x64, .f32⟩
  | 81 => ⟨S200000x64, .f32⟩
  | 82 => ⟨S64x64, .f32⟩
  | 83 => ⟨S64x64, .f32⟩
  | 84 => ⟨S1x64, .f32⟩
  | 85 => ⟨S1x1, .f32⟩
  | 86 => ⟨S200000x64, .f32⟩
  | 87 => ⟨S4x50000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S1, .i32⟩
  | 97 => ⟨S_, .i32⟩
  | 98 => ⟨S800000x1, .i32⟩
  | 99 => ⟨S800000x1, .i1⟩
  | 100 => ⟨S1x1, .i32⟩
  | 101 => ⟨S800000x1, .i32⟩
  | 102 => ⟨S800000x1, .i1⟩
  | 103 => ⟨S800000x1, .i1⟩
  | 104 => ⟨S_, .i1⟩
  | 105 => ⟨S800000, .i1⟩
  | 106 => ⟨S4x800000x64, .f32⟩
  | 107 => ⟨S4x800000x64, .i1⟩
  | 108 => ⟨S_, .f32⟩
  | 109 => ⟨S4x800000x64, .f32⟩
  | 110 => ⟨S4x800000x64, .f32⟩
  | 111 => ⟨S_, .f32⟩
  | 112 => ⟨S4x50000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S4x50000x64, .f32⟩
  | 122 => ⟨S1x50000x1, .f32⟩
  | 123 => ⟨S4x50000x64, .f32⟩
  | 124 => ⟨S4x50000x64, .f32⟩
  | 125 => ⟨S200000x64, .f32⟩
  | 126 => ⟨S200000x64, .f32⟩
  | 127 => ⟨S64x64, .f32⟩
  | _ => ⟨S4x3200000, .f32⟩

abbrev hbmTy0_1 (i : Nat) : BufTy := match i % 128 with
  | 0 => ⟨S64x64, .f32⟩
  | 1 => ⟨S1x64, .f32⟩
  | 2 => ⟨S1x1, .f32⟩
  | 3 => ⟨S200000x64, .f32⟩
  | 4 => ⟨S4x50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S1, .i32⟩
  | 14 => ⟨S_, .i32⟩
  | 15 => ⟨S800000x1, .i32⟩
  | 16 => ⟨S800000x1, .i1⟩
  | 17 => ⟨S1x1, .i32⟩
  | 18 => ⟨S800000x1, .i32⟩
  | 19 => ⟨S800000x1, .i1⟩
  | 20 => ⟨S800000x1, .i1⟩
  | 21 => ⟨S_, .i1⟩
  | 22 => ⟨S800000, .i1⟩
  | 23 => ⟨S4x800000x64, .f32⟩
  | 24 => ⟨S4x800000x64, .i1⟩
  | 25 => ⟨S_, .f32⟩
  | 26 => ⟨S4x800000x64, .f32⟩
  | 27 => ⟨S4x800000x64, .f32⟩
  | 28 => ⟨S_, .f32⟩
  | 29 => ⟨S4x50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S4x50000x64, .f32⟩
  | 39 => ⟨S1x50000x1, .f32⟩
  | 40 => ⟨S4x50000x64, .f32⟩
  | 41 => ⟨S4x50000x64, .f32⟩
  | 42 => ⟨S200000x64, .f32⟩
  | 43 => ⟨S200000x64, .f32⟩
  | 44 => ⟨S64x64, .f32⟩
  | 45 => ⟨S64x64, .f32⟩
  | 46 => ⟨S1x64, .f32⟩
  | 47 => ⟨S1x1, .f32⟩
  | 48 => ⟨S200000x64, .f32⟩
  | 49 => ⟨S4x50000x64, .f32⟩
  | 50 => ⟨S4x3200000, .f32⟩
  | _ => ⟨S4x3200000, .f32⟩

abbrev hbmTy (i : Nat) : BufTy := match i / 128 with
  | 0 => hbmTy0_0 i
  | 1 => hbmTy0_1 i
  | _ => ⟨S4x3200000, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x1, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S64x64, .f32⟩
  | .local _ .vmem, ⟨15, _⟩ => ⟨S64x64, .f32⟩
  | .local _ .vmem, ⟨16, _⟩ => ⟨S1x64, .f32⟩
  | .local _ .vmem, ⟨17, _⟩ => ⟨S1x1, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S1x1, .f32⟩
  | .local _ .vmem, ⟨28, _⟩ => ⟨S8000x64, .f32⟩
  | .local _ .vmem, ⟨29, _⟩ => ⟨S8000x64, .f32⟩
  | _, _ => ⟨S4x3200000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_v19 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v20 : Ref sig .tc := ⟨.hbm, 65, rfl⟩
abbrev main_cst_5 : Ref sig .tc := ⟨.hbm, 66, rfl⟩
abbrev main_v21 : Ref sig .tc := ⟨.hbm, 67, rfl⟩
abbrev main_c_6 : Ref sig .tc := ⟨.hbm, 68, rfl⟩
abbrev main_v22 : Ref sig .tc := ⟨.hbm, 69, rfl⟩
abbrev main_v23 : Ref sig .tc := ⟨.hbm, 70, rfl⟩
abbrev main_c_7 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v40 : Ref sig .tc := ⟨.hbm, 110, rfl⟩
abbrev main_cst_8 : Ref sig .tc := ⟨.hbm, 111, rfl⟩
abbrev main_v41 : Ref sig .tc := ⟨.hbm, 112, rfl⟩
abbrev main_c_9 : Ref sig .tc := ⟨.hbm, 113, rfl⟩
abbrev main_v42 : Ref sig .tc := ⟨.hbm, 114, rfl⟩
abbrev main_v43 : Ref sig .tc := ⟨.hbm, 115, rfl⟩
abbrev main_c_10 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_call3_c : Ref sig .tc := ⟨.hbm, 133, rfl⟩
abbrev main_call3_v0 : Ref sig .tc := ⟨.hbm, 134, rfl⟩
abbrev main_call3_v1 : Ref sig .tc := ⟨.hbm, 135, rfl⟩
abbrev main_call3_c_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_c_1 : Ref sig .tc := ⟨.hbm, 141, rfl⟩
abbrev main_call3_c_2 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_3 : Ref sig .tc := ⟨.hbm, 149, rfl⟩
abbrev main_call3_v12 : Ref sig .tc := ⟨.hbm, 150, rfl⟩
abbrev main_call3_v13 : Ref sig .tc := ⟨.hbm, 151, rfl⟩
abbrev main_call3_v14 : Ref sig .tc := ⟨.hbm, 152, rfl⟩
abbrev main_call3_cst : Ref sig .tc := ⟨.hbm, 153, rfl⟩
abbrev main_call3_v15 : Ref sig .tc := ⟨.hbm, 154, rfl⟩
abbrev main_v60 : Ref sig .tc := ⟨.hbm, 155, rfl⟩
abbrev main_cst_11 : Ref sig .tc := ⟨.hbm, 156, rfl⟩
abbrev main_v61 : Ref sig .tc := ⟨.hbm, 157, rfl⟩
abbrev main_c_12 : Ref sig .tc := ⟨.hbm, 158, rfl⟩
abbrev main_v62 : Ref sig .tc := ⟨.hbm, 159, rfl⟩
abbrev main_v63 : Ref sig .tc := ⟨.hbm, 160, rfl⟩
abbrev main_c_13 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S1x2x800000_S2x800000 : S1x2x800000.ShapeCasts S2x800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S4x3200000_S4x50000x64 : S4x3200000.ShapeCasts S4x50000x64
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S4x800000x64_1 : S800000.BroadcastsInDim S4x800000x64 (![1] : Fin 1 → Fin S4x800000x64.rank)
  bcast_S_S4x800000x64 : S_.BroadcastsInDim S4x800000x64 (![] : Fin 0 → Fin S4x800000x64.rank)
  bcast_S_S4x50000x64 : S_.BroadcastsInDim S4x50000x64 (![] : Fin 0 → Fin S4x50000x64.rank)
  bcast_S50000_S1x50000x1_1 : S50000.BroadcastsInDim S1x50000x1 (![1] : Fin 1 → Fin S1x50000x1.rank)
  bcast_S1x50000x1_S4x50000x64_0_1_2 : S1x50000x1.BroadcastsInDim S4x50000x64 (![0, 1, 2] : Fin 3 → Fin S4x50000x64.rank)
  shapeCasts_S4x50000x64_S200000x64 : S4x50000x64.ShapeCasts S200000x64
  transposes_S64x64_S64x64_1_0 : S64x64.Transposes [1, 0] S64x64
  shapeCasts_S64_S1x64 : S64.ShapeCasts S1x64
  shapeCasts_S_S1x1 : S_.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S8000x64 : S1x64.Broadcasts S8000x64
  broadcasts_S1x1_S8000x64 : S1x1.Broadcasts S8000x64
  shapeCasts_S200000x64_S4x50000x64 : S200000x64.ShapeCasts S4x50000x64
  shapeCasts_S4x50000x64_S4x3200000 : S4x50000x64.ShapeCasts S4x3200000
  scatter_S50000_S800000x1_S800000_n_0_0_1_wf : ScatterDims.WF S50000 S800000x1 S800000 [] [0] [0] 1
  gather_S4x50000x64_S800000x1_S4x800000x64_02_1_n_n_1_1_4164_wf : GatherDims.WF S4x50000x64 S800000x1 S4x800000x64 [0, 2] [1] [] [1] [] 1 ![4, 1, 64]
  scatter_S4x50000x64_S800000x1_S4x800000x64_02_1_1_1_wf : ScatterDims.WF S4x50000x64 S800000x1 S4x800000x64 [0, 2] [1] [1] 1
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S200000x64.size a
  hwx0_0 : ∀ i : grid0.Coords, EltTy.bits .f32 = 32 ∨ (Rect.block (s := S200000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S200000x64.size a
  hwx0_1 : ∀ i : grid0.Coords, EltTy.bits .f32 = 32 ∨ (Rect.block (s := S200000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S200000x64.size a
  hwx0_6 : ∀ i : grid0.Coords, EltTy.bits .f32 = 32 ∨ (Rect.block (s := S200000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S200000x64.size a
  hwx1_0 : ∀ i : grid1.Coords, EltTy.bits .f32 = 32 ∨ (Rect.block (s := S200000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S200000x64.size a
  hwx1_1 : ∀ i : grid1.Coords, EltTy.bits .f32 = 32 ∨ (Rect.block (s := S200000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S200000x64.size a
  hwx1_6 : ∀ i : grid1.Coords, EltTy.bits .f32 = 32 ∨ (Rect.block (s := S200000x64) S8000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S200000x64.size a
  hwx2_0 : ∀ i : grid2.Coords, EltTy.bits .f32 = 32 ∨ (Rect.block (s := S200000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S200000x64.size a
  hwx2_1 : ∀ i : grid2.Coords, EltTy.bits .f32 = 32 ∨ (Rect.block (s := S200000x64) S8000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x64.size a ≤ S200000x64.size a
  hwx2_6 : ∀ i : grid2.Coords, EltTy.bits .f32 = 32 ∨ (Rect.block (s := S200000x64) S8000x64.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S4x50000x64_S800000x1_S4x800000x64_02_1_1_1 : ScatterDims S4x50000x64 S800000x1 S4x800000x64 where
  updateWindowDims := [0, 2]
  insertedWindowDims := [1]
  scatterDimsToOperandDims := [1]
  indexVectorDim := 1
  wf := scatter_S4x50000x64_S800000x1_S4x800000x64_02_1_1_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_v32) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v52) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v72) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S8000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x3200000 : Shape := ⟨2, ![4, 3200000]⟩
abbrev S1x2x800000 : Shape := ⟨3, ![1, 2, 800000]⟩
abbrev S64x64 : Shape := ⟨2, ![64, 64]⟩
abbrev S64 : Shape := ⟨1, ![64]⟩
abbrev S_ : Shape := ⟨0, ![]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S800000x1 : Shape := ⟨2, ![800000, 1]⟩
abbrev S4x50000x64 : Shape := ⟨3, ![4, 50000, 64]⟩
abbrev S1 : Shape := ⟨1, ![1]⟩
abbrev S1x1 : Shape := ⟨2, ![1, 1]⟩
abbrev S4x800000x64 : Shape := ⟨3, ![4, 800000, 64]⟩
abbrev S1x50000x1 : Shape := ⟨3, ![1, 50000, 1]⟩
abbrev S1x1x64 : Shape := ⟨3, ![1, 1, 64]⟩

abbrev nBuf : Space → Nat
  | .hbm => 191
  | .vmem => 0
  | .smem => 0
  | _ => 0

abbrev hbmTy0_0 (i : Nat) : BufTy := match i % 128 with
  | 0 => ⟨S4x3200000, .f32⟩
  | 1 => ⟨S1x2x800000, .i32⟩
  | 2 => ⟨S64x64, .f32⟩
  | 3 => ⟨S64, .f32⟩
  | 4 => ⟨S64x64, .f32⟩
  | 5 => ⟨S_, .f32⟩
  | 6 => ⟨S64x64, .f32⟩
  | 7 => ⟨S64, .f32⟩
  | 8 => ⟨S64x64, .f32⟩
  | 9 => ⟨S_, .f32⟩
  | 10 => ⟨S64x64, .f32⟩
  | 11 => ⟨S64, .f32⟩
  | 12 => ⟨S64x64, .f32⟩
  | 13 => ⟨S_, .f32⟩
  | 14 => ⟨S2x800000, .i32⟩
  | 15 => ⟨S1x800000, .i32⟩
  | 16 => ⟨S800000, .i32⟩
  | 17 => ⟨S1x800000, .i32⟩
  | 18 => ⟨S800000, .i32⟩
  | 19 => ⟨S_, .f32⟩
  | 20 => ⟨S50000, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S_, .f32⟩
  | 30 => ⟨S800000, .f32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S4x50000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S1, .i32⟩
  | 52 => ⟨S_, .i32⟩
  | 53 => ⟨S800000x1, .i32⟩
  | 54 => ⟨S800000x1, .i1⟩
  | 55 => ⟨S1x1, .i32⟩
  | 56 => ⟨S800000x1, .i32⟩
  | 57 => ⟨S800000x1, .i1⟩
  | 58 => ⟨S800000x1, .i1⟩
  | 59 => ⟨S_, .i1⟩
  | 60 => ⟨S800000, .i1⟩
  | 61 => ⟨S4x800000x64, .f32⟩
  | 62 => ⟨S4x800000x64, .i1⟩
  | 63 => ⟨S_, .f32⟩
  | 64 => ⟨S4x800000x64, .f32⟩
  | 65 => ⟨S4x800000x64, .f32⟩
  | 66 => ⟨S_, .f32⟩
  | 67 => ⟨S4x50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S4x50000x64, .f32⟩
  | 77 => ⟨S1x50000x1, .f32⟩
  | 78 => ⟨S4x50000x64, .f32⟩
  | 79 => ⟨S4x50000x64, .f32⟩
  | 80 => ⟨S4x50000x64, .f32⟩
  | 81 => ⟨S1x1x64, .f32⟩
  | 82 => ⟨S4x50000x64, .f32⟩
  | 83 => ⟨S4x50000x64, .f32⟩
  | 84 => ⟨S4x50000x64, .f32⟩
  | 85 => ⟨S4x50000x64, .f32⟩
  | 86 => ⟨S_, .f32⟩
  | 87 => ⟨S4x50000x64, .f32⟩
  | 88 => ⟨S4x50000x64, .i1⟩
  | 89 => ⟨S4x50000x64, .f32⟩
  | 90 => ⟨S4x50000x64, .f32⟩
  | 91 => ⟨S4x50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S1, .i32⟩
  | 101 => ⟨S_, .i32⟩
  | 102 => ⟨S800000x1, .i32⟩
  | 103 => ⟨S800000x1, .i1⟩
  | 104 => ⟨S1x1, .i32⟩
  | 105 => ⟨S800000x1, .i32⟩
  | 106 => ⟨S800000x1, .i1⟩
  | 107 => ⟨S800000x1, .i1⟩
  | 108 => ⟨S_, .i1⟩
  | 109 => ⟨S800000, .i1⟩
  | 110 => ⟨S4x800000x64, .f32⟩
  | 111 => ⟨S4x800000x64, .i1⟩
  | 112 => ⟨S_, .f32⟩
  | 113 => ⟨S4x800000x64, .f32⟩
  | 114 => ⟨S4x800000x64, .f32⟩
  | 115 => ⟨S_, .f32⟩
  | 116 => ⟨S4x50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S4x50000x64, .f32⟩
  | 126 => ⟨S1x50000x1, .f32⟩
  | 127 => ⟨S4x50000x64, .f32⟩
  | _ => ⟨S4x3200000, .f32⟩

abbrev hbmTy0_1 (i : Nat) : BufTy := match i % 128 with
  | 0 => ⟨S4x50000x64, .f32⟩
  | 1 => ⟨S4x50000x64, .f32⟩
  | 2 => ⟨S1x1x64, .f32⟩
  | 3 => ⟨S4x50000x64, .f32⟩
  | 4 => ⟨S4x50000x64, .f32⟩
  | 5 => ⟨S4x50000x64, .f32⟩
  | 6 => ⟨S4x50000x64, .f32⟩
  | 7 => ⟨S_, .f32⟩
  | 8 => ⟨S4x50000x64, .f32⟩
  | 9 => ⟨S4x50000x64, .i1⟩
  | 10 => ⟨S4x50000x64, .f32⟩
  | 11 => ⟨S4x50000x64, .f32⟩
  | 12 => ⟨S4x50000x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S4x800000x64, .f32⟩
  | 32 => ⟨S4x800000x64, .i1⟩
  | 33 => ⟨S_, .f32⟩
  | 34 => ⟨S4x800000x64, .f32⟩
  | 35 => ⟨S4x800000x64, .f32⟩
  | 36 => ⟨S_, .f32⟩
  | 37 => ⟨S4x50000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S4x50000x64, .f32⟩
  | 47 => ⟨S1x50000x1, .f32⟩
  | 48 => ⟨S4x50000x64, .f32⟩
  | 49 => ⟨S4x50000x64, .f32⟩
  | 50 => ⟨S4x50000x64, .f32⟩
  | 51 => ⟨S1x1x64, .f32⟩
  | 52 => ⟨S4x50000x64, .f32⟩
  | 53 => ⟨S4x50000x64, .f32⟩
  | 54 => ⟨S4x50000x64, .f32⟩
  | 55 => ⟨S4x50000x64, .f32⟩
  | 56 => ⟨S_, .f32⟩
  | 57 => ⟨S4x50000x64, .f32⟩
  | 58 => ⟨S4x50000x64, .i1⟩
  | 59 => ⟨S4x50000x64, .f32⟩
  | 60 => ⟨S4x50000x64, .f32⟩
  | 61 => ⟨S4x50000x64, .f32⟩
  | 62 => ⟨S4x3200000, .f32⟩
  | _ => ⟨S4x3200000, .f32⟩

abbrev hbmTy (i : Nat) : BufTy := match i / 128 with
  | 0 => hbmTy0_0 i
  | 1 => hbmTy0_1 i
  | _ => ⟨S4x3200000, .f32⟩

abbrev bufTy : (tb : Table) → Fin (tcTables nBuf tb) → BufTy
  | .hbm, ⟨i, _⟩ => hbmTy i
  | _, _ => ⟨S4x3200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_v18 : Ref sig .tc := ⟨.hbm, 41, rfl⟩
abbrev main_v19 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v20 : Ref sig .tc := ⟨.hbm, 65, rfl⟩
abbrev main_cst_5 : Ref sig .tc := ⟨.hbm, 66, rfl⟩
abbrev main_v21 : Ref sig .tc := ⟨.hbm, 67, rfl⟩
abbrev main_c_6 : Ref sig .tc := ⟨.hbm, 68, rfl⟩
abbrev main_v22 : Ref sig .tc := ⟨.hbm, 69, rfl⟩
abbrev main_v23 : Ref sig .tc := ⟨.hbm, 70, rfl⟩
abbrev main_c_7 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v43 : Ref sig .tc := ⟨.hbm, 114, rfl⟩
abbrev main_cst_9 : Ref sig .tc := ⟨.hbm, 115, rfl⟩
abbrev main_v44 : Ref sig .tc := ⟨.hbm, 116, rfl⟩
abbrev main_c_10 : Ref sig .tc := ⟨.hbm, 117, rfl⟩
abbrev main_v45 : Ref sig .tc := ⟨.hbm, 118, rfl⟩
abbrev main_v46 : Ref sig .tc := ⟨.hbm, 119, rfl⟩
abbrev main_c_11 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_cst_12 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v66 : Ref sig .tc := ⟨.hbm, 163, rfl⟩
abbrev main_cst_13 : Ref sig .tc := ⟨.hbm, 164, rfl⟩
abbrev main_v67 : Ref sig .tc := ⟨.hbm, 165, rfl⟩
abbrev main_c_14 : Ref sig .tc := ⟨.hbm, 166, rfl⟩
abbrev main_v68 : Ref sig .tc := ⟨.hbm, 167, rfl⟩
abbrev main_v69 : Ref sig .tc := ⟨.hbm, 168, rfl⟩
abbrev main_c_15 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_cst_16 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩

abbrev nD : Nat := 1
abbrev τ : Topo := Topo.v7x

variable {F : FTy → Type} [FloatOps F]

class Facts₀ : Prop where
  shapeCasts_S1x2x800000_S2x800000 : S1x2x800000.ShapeCasts S2x800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S4x3200000_S4x50000x64 : S4x3200000.ShapeCasts S4x50000x64
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S4x800000x64_1 : S800000.BroadcastsInDim S4x800000x64 (![1] : Fin 1 → Fin S4x800000x64.rank)
  bcast_S_S4x800000x64 : S_.BroadcastsInDim S4x800000x64 (![] : Fin 0 → Fin S4x800000x64.rank)
  bcast_S_S4x50000x64 : S_.BroadcastsInDim S4x50000x64 (![] : Fin 0 → Fin S4x50000x64.rank)
  bcast_S50000_S1x50000x1_1 : S50000.BroadcastsInDim S1x50000x1 (![1] : Fin 1 → Fin S1x50000x1.rank)
  bcast_S1x50000x1_S4x50000x64_0_1_2 : S1x50000x1.BroadcastsInDim S4x50000x64 (![0, 1, 2] : Fin 3 → Fin S4x50000x64.rank)
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  shapeCasts_S4x50000x64_S4x3200000 : S4x50000x64.ShapeCasts S4x3200000
  scatter_S50000_S800000x1_S800000_n_0_0_1_wf : ScatterDims.WF S50000 S800000x1 S800000 [] [0] [0] 1
  gather_S4x50000x64_S800000x1_S4x800000x64_02_1_n_n_1_1_4164_wf : GatherDims.WF S4x50000x64 S800000x1 S4x800000x64 [0, 2] [1] [] [1] [] 1 ![4, 1, 64]
  scatter_S4x50000x64_S800000x1_S4x800000x64_02_1_1_1_wf : ScatterDims.WF S4x50000x64 S800000x1 S4x800000x64 [0, 2] [1] [1] 1
  dot_S4x50000x64_S64x64_S4x50000x64_2_1_01_0_n_n_wf : DotDims.WF S4x50000x64 S64x64 S4x50000x64 [2] [1] [0, 1] [0] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S4x50000x64_S800000x1_S4x800000x64_02_1_n_n_1_1_4164 : GatherDims S4x50000x64 S800000x1 S4x800000x64 where
  offsetDims := [0, 2]
  collapsedSliceDims := [1]
  operandBatchingDims := []
  startIndicesBatchingDims := []
  startIndexMap := [1]
  indexVectorDim := 1
  sliceSizes := ![4, 1, 64]
  wf := gather_S4x50000x64_S800000x1_S4x800000x64_02_1_n_n_1_1_4164_wf
def scatter_S4x50000x64_S800000x1_S4x800000x64_02_1_1_1 : ScatterDims S4x50000x64 S800000x1 S4x800000x64 where
  updateWindowDims := [0, 2]
  insertedWindowDims := [1]
  scatterDimsToOperandDims := [1]
  indexVectorDim := 1
  wf := scatter_S4x50000x64_S800000x1_S4x800000x64_02_1_1_1_wf
def dot_S4x50000x64_S64x64_S4x50000x64_2_1_01_0_n_n : DotDims S4x50000x64 S64x64 S4x50000x64 where
  lhsContracting := [2]
  rhsContracting := [1]
  lhsNonContracting := [0, 1]
  rhsNonContracting := [0]
  lhsBatch := []
  rhsBatch := []
  wf := dot_S4x50000x64_S64x64_S4x50000x64_2_1_01_0_n_n_wf

class Facts : Prop extends Facts₀ where

variable [Facts]
-- ==== Proof.KernelRun.lean ====
/-
  The idealized kernel's run, with the contents of EVERY buffer at the end named.

  @main is fifteen segments in a row: stretches of host operations, and between them the three launches of the
  SAGE layer kernel.  The contents of a core's unscoped buffers at each segment boundary are a fold from the launch
  memory (`W0` … `W15` of the generated frame module): a host stretch applies its operations to the contents it is
  entered with, and a launch replaces its seven arrays by what its write-backs leave and keeps every other buffer.
  Run through the library's launch theorem for a program of several regions, every weakly fair execution terminates,
  faults nothing, and ends with every unscoped buffer of every core at `W15`.  Read at the result buffer that is the
  program's value; read at an argument's buffer it is the launch contents, because no segment writes an argument.
-/
import proofs.«162317_j38147899523429_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when @main starts: its unscoped buffers at the launch contents, its generator register, and
    nothing owed. -/
abbrev start (c : Dev nD) : sProp 𝕄 :=
  iprop(StableHlo.held (c : Thread nD τ) (Pipeline.ucRefs τ sig) (W0 m ρ c) ∗ R c)

/-- The reading of a final memory: every unscoped buffer of core `c` at the last boundary's contents. -/
abbrev endsAt (c : Dev nD) (s : MemSt nD τ sig (Elt F)) : Prop :=
  ∀ b ∈ Pipeline.ucRefs τ sig, s.mem (((c : Thread nD τ)).1, b) = W15 m ρ c b

set_option backward.isDefEq.respectTransparency.types false in
/-- Every weakly fair execution of @main terminates, faulting nothing, and ends with every unscoped buffer of every
    core at the last segment boundary's contents.  The segments chain because each one's exit contents are by name
    the next one's entry contents; the first state is dealt by the launch; the last is read against the final memory
    buffer by buffer. -/
theorem run_all : θ_run defs (onTc (τ := τ) (main (F := F))) ⟨m, fun _ => 0, ρ⟩ (fun r => ∀ c : Dev nD, endsAt m ρ c r.2) :=
  Pipeline.θ_run_regions_kit (pcfgs (F := F)) adm (pdats m ρ) () cellOf_inj emb₁ defs₀ 𝒱₀ L lv m ρ main (segs m ρ)
    -- @main is the run of its segments
    (fun c Q => by rw [main_run m ρ c])
    -- each of the three pipelines is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' own; no core needs a ghost resource of its own
    (hu₀ := by
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    (T₀ := start m ρ) (Tₙ := Tₙ m ρ)
    -- fourteen boundaries where exit and entry contents are one name, then the last state regrouped
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hheld, Hreg, Howes⟩
        isplitr [Howes]
        · isplitl [Hheld]
          · iexact Hheld
          · iexact Hreg
        · iexact Howes⟩)
    -- the launch deals every core its buffers at the launch memory, its register, and an empty debt
    (hinit := by
      refine Pipeline.initEach L lv fun c => ?_
      rw [show unscopedBufs c (fun b => m ((c : Thread nD τ).loc b))
            = StableHlo.held (c : Thread nD τ) (Pipeline.ucRefs τ sig) (W0 m ρ c) from Pipeline.unscopedBufs_held c (W0 m ρ c)]
      iintro ⟨⟨Hheld, -, Howes, -, Hreg, -⟩, -⟩
      imodintro
      isplitl [Hheld]
      · iexact Hheld
      isplitl [Hreg]
      · iexists _
        iexact Hreg
      · iexists ∅
        iexact Howes)
    (QY := endsAt m ρ)
    -- holding a buffer whole at some contents beside the state interpretation says the memory has those contents
    (hfin := fun c s' => by
      iintro ⟨⟨Hheld, -⟩, Hstate⟩
      unfold StableHlo.held
      imodintro
      iapply (pointsTo_read_all (Pipeline.ucRefs τ sig) (fun b => (((c : Thread nD τ)).1, b)) (W15 m ρ c) s')
      isplitl [Hheld] <;> iassumption)
    (hQ := fun _ h => h)

/-- The result buffer ends at the last boundary's contents, and the fourteen argument arrays end as launched. -/
theorem run_result : θ_run defs (onTc (τ := τ) (main (F := F))) ⟨m, fun _ => 0, ρ⟩ (fun r => ∀ c : Dev nD,
      r.2.mem ((c.tc : Thread nD τ).loc main_v80) = W15 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v80 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c)⟩) (run_all m ρ)

end Cert.KernelIdeal.Hand

end
-- ==== Proof.Prelu.lean ====
/-
  The parametric rectifier on the extended reals, as both programs compute it at one element: the value `s` itself
  where `s ≥ 0` (an ordered comparison against the zero word), and `α · s` elsewhere.
-/
import Idealize.ShloMosaic.PureOps.Ideal

noncomputable section

namespace Cert.Spec

open Idealize.ShloMosaic

/-- `s` where `s ≥ 0`, else `α · s`: one element of `select (s ≥ 0) s (α · s)`. -/
def preluI (α s : EReal) : EReal :=
  Scalar.select (FloatOps.cmpf (F := Ideal) (φ := .f32) .oge s (FloatOps.ofBits (F := Ideal) .f32 0x00000000#32)) s (α * s)

end Cert.Spec

end
-- ==== Proof.LayerSpec.lean ====
/-
  One SAGE layer's value at one entry, on the extended reals.  For a row `r` of the node features and an output
  feature `o`: the aggregated features of the row against column `o` of the first weight matrix, plus the bias at
  `o`, plus the row's own features against column `o` of the second weight matrix — added in that order — and then
  the parametric rectifier with slope `a`.  Stated for matrices of any number of rows, so that it reads both one
  block of 8000 rows and the whole array of 200000 rows.
-/
import proofs.«162317_j38147899523429_1_alg».proof.Proof.Prelu
import Idealize.ShloMosaic.Lib.ValueIdx

noncomputable section

namespace Cert.Spec

open Idealize.ShloMosaic Idealize.ShloMosaic.ValueIdx

/-- Entry `(r, o)` of the layer: `prelu a ((∑ f, mean[r,f]·Wl[f,o] + bl[0,o]) + ∑ f, h[r,f]·Wr[f,o])`, the weight
    matrices given feature-major (`[f, o]`), the bias as a `[1, 64]` row and the slope as a `[1, 1]` cell. -/
def layerAt {R : Nat} (mean h : (⟨2, ![R, 64]⟩ : Shape).Idx → EReal) (WlT WrT : (⟨2, ![64, 64]⟩ : Shape).Idx → EReal)
    (bl : (⟨2, ![1, 64]⟩ : Shape).Idx → EReal) (a : (⟨2, ![1, 1]⟩ : Shape).Idx → EReal) (r : Fin R) (o : Fin 64) : EReal :=
  preluI (a (ix2 (0 : Fin 1) (0 : Fin 1)))
    (((∑ f : Fin 64, mean (ix2 r f) * WlT (ix2 f o)) + bl (ix2 (0 : Fin 1) o)) + ∑ f : Fin 64, h (ix2 r f) * WrT (ix2 f o))

/-- The layer as a whole matrix: entry `i` is `layerAt` at `i`'s two coordinates. -/
def layerMat {R : Nat} (mean h : (⟨2, ![R, 64]⟩ : Shape).Idx → EReal) (WlT WrT : (⟨2, ![64, 64]⟩ : Shape).Idx → EReal)
    (bl : (⟨2, ![1, 64]⟩ : Shape).Idx → EReal) (a : (⟨2, ![1, 1]⟩ : Shape).Idx → EReal) : (⟨2, ![R, 64]⟩ : Shape).Idx → EReal :=
  fun i => layerAt mean h WlT WrT bl a (i 0) (i 1)

theorem layerMat_apply {R : Nat} (mean h : (⟨2, ![R, 64]⟩ : Shape).Idx → EReal) (WlT WrT : (⟨2, ![64, 64]⟩ : Shape).Idx → EReal)
    (bl : (⟨2, ![1, 64]⟩ : Shape).Idx → EReal) (a : (⟨2, ![1, 1]⟩ : Shape).Idx → EReal) (r : Fin R) (o : Fin 64) :
    layerMat mean h WlT WrT bl a (ix2 r o) = layerAt mean h WlT WrT bl a r o := rfl

end Cert.Spec

end
-- ==== Proof.LibDot.lean ====
/-
  A plain matrix product `[M, K] × [K, N]` on the host, read at an index over the extended reals: entry `(n, j)` is
  `∑ k, H[n,k] · W[k,j]` — no rounding and no order of summation left in it.
-/
import Idealize.ShloMosaic.Lib.ValueIdx
import Idealize.ShloMosaic.PureOps.Ideal.Laws

noncomputable section

namespace Cert.Dot

open Idealize.ShloMosaic Idealize.ShloMosaic.ValueIdx

variable {M K N : Nat}

theorem lhs0 (i : (⟨2, ![M, N]⟩ : Shape).Idx) (q : (DotDims.plain M K N).contr.Idx) : ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl
theorem lhs1 (i : (⟨2, ![M, N]⟩ : Shape).Idx) (q : (DotDims.plain M K N).contr.Idx) : ((DotDims.plain M K N).lhsIdx i q 1).val = (q ⟨0, Nat.one_pos⟩).val :=
  (DotDims.plain M K N).lhsIdx_val_of_single rfl i q
theorem rhs0 (i : (⟨2, ![M, N]⟩ : Shape).Idx) (q : (DotDims.plain M K N).contr.Idx) : ((DotDims.plain M K N).rhsIdx i q 0).val = (q ⟨0, Nat.one_pos⟩).val :=
  (DotDims.plain M K N).rhsIdx_val_of_single rfl i q
theorem rhs1 (i : (⟨2, ![M, N]⟩ : Shape).Idx) (q : (DotDims.plain M K N).contr.Idx) : ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

/-- THE PRODUCT AT `(n, j)`: row `n` of the left operand against column `j` of the right one. -/
theorem plainDot_apply {φ₁ φ₂ : FTy} (H : FVec Ideal ⟨2, ![M, K]⟩ φ₁) (W : FVec Ideal ⟨2, ![K, N]⟩ φ₂) (n : Fin M) (j : Fin N) :
    Host.dotGeneral (F := Ideal) (DotDims.plain M K N) none H W (ix2 n j) = ∑ k : Fin K, H (ix2 n k) * W (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact lhs0 _ _
    | ⟨1, _⟩ => exact (lhs1 _ _).trans hk)
  have er : (DotDims.plain M K N).rhsIdx (ix2 n j) ((contrEquiv1 (DotDims.plain M K N) K rfl rfl).symm k) = ix2 k j := funext fun a => Fin.ext (by
    match a with
    | ⟨0, _⟩ => exact (rhs0 _ _).trans hk
    | ⟨1, _⟩ => exact rhs1 _ _)
  rw [el, er]

end Cert.Dot

end
-- ==== Proof.LibMxuDot.lean ====
/-
  A matrix-unit product into the zero accumulator, read at an index over the extended reals. Two arrangements: the
  plain one, `[M, K] × [K, N]`, whose entry `(n, j)` is `∑ k, A[n,k] · B[k,j]`; and the one that contracts the ROW axis
  of both operands, `[K, M] × [K, N]`, whose entry `(e, f)` is `∑ o, A[o,e] · B[o,f]`.
-/
import Idealize.ShloMosaic.Lib.ValueIdx
import Idealize.ShloMosaic.PureOps.Ideal.Laws
import proofs.«162317_j38147899523429_1_alg».proof.Proof.LibDot

noncomputable section

namespace Cert.KBodyDot

open Idealize.ShloMosaic Idealize.ShloMosaic.ValueIdx

variable {M K N : Nat}

/-- THE PLAIN PRODUCT AT `(n, j)`, for any record of dimension numbers that is the plain one. -/
theorem plainMatmul_apply {φ₁ φ₂ : FTy} (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂) (n : Fin M) (j : Fin N) :
    matmul D prec A B (constant (F := Ideal) ⟨2, ![M, N]⟩ .f32 0x00000000#32) (ix2 n j) = ∑ k : Fin K, A (ix2 n k) * B (ix2 k j) := by
  subst hD
  refine (Ideal.matmul_constant_zero_apply (DotDims.plain M K N) prec A B (ix2 n j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact Cert.Dot.lhs0 _ _
    | ⟨1, _⟩ => exact (Cert.Dot.lhs1 _ _).trans hk)
  have er : (DotDims.plain M K N).rhsIdx (ix2 n j) ((contrEquiv1 (DotDims.plain M K N) K rfl rfl).symm k) = ix2 k j := funext fun a => Fin.ext (by
    match a with
    | ⟨0, _⟩ => exact (Cert.Dot.rhs0 _ _).trans hk
    | ⟨1, _⟩ => exact Cert.Dot.rhs1 _ _)
  rw [el, er]

/-- The dimension numbers that contract axis 0 of both operands: `[K, M]` by `[K, N]` gives `[M, N]`. -/
def rowsDot (M K N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section
variable (wf : DotDims.WF ⟨2, ![K, M]⟩ ⟨2, ![K, N]⟩ ⟨2, ![M, N]⟩ [0] [0] [1] [1] [] [])

theorem rlhs0 (i : (⟨2, ![M, N]⟩ : Shape).Idx) (q : (rowsDot M K N wf).contr.Idx) : ((rowsDot M K N wf).lhsIdx i q 0).val = (q ⟨0, Nat.one_pos⟩).val :=
  (rowsDot M K N wf).lhsIdx_val_of_single rfl i q
theorem rlhs1 (i : (⟨2, ![M, N]⟩ : Shape).Idx) (q : (rowsDot M K N wf).contr.Idx) : ((rowsDot M K N wf).lhsIdx i q 1).val = (i 0).val := by
  unfold DotDims.lhsIdx
  rw [dif_neg (show ¬(1 : Fin 2) ∈ (rowsDot M K N wf).lhsBatch from List.not_mem_nil), dif_pos (show (1 : Fin 2) ∈ (rowsDot M K N wf).lhsNonContracting from List.mem_singleton.mpr rfl)]
  rfl
theorem rrhs0 (i : (⟨2, ![M, N]⟩ : Shape).Idx) (q : (rowsDot M K N wf).contr.Idx) : ((rowsDot M K N wf).rhsIdx i q 0).val = (q ⟨0, Nat.one_pos⟩).val :=
  (rowsDot M K N wf).rhsIdx_val_of_single rfl i q
theorem rrhs1 (i : (⟨2, ![M, N]⟩ : Shape).Idx) (q : (rowsDot M K N wf).contr.Idx) : ((rowsDot M K N wf).rhsIdx i q 1).val = (i 1).val := by
  unfold DotDims.rhsIdx
  rw [dif_neg (show ¬(1 : Fin 2) ∈ (rowsDot M K N wf).rhsBatch from List.not_mem_nil), dif_pos (show (1 : Fin 2) ∈ (rowsDot M K N wf).rhsNonContracting from List.mem_singleton.mpr rfl)]
  rfl

/-- THE ROW-CONTRACTED PRODUCT AT `(e, f)`: column `e` of the left operand against column `f` of the right one. -/
theorem rowsMatmul_apply {φ₁ φ₂ : FTy} (D : DotDims ⟨2, ![K, M]⟩ ⟨2, ![K, N]⟩ ⟨2, ![M, N]⟩) (hD : D = rowsDot M K N wf)
    (prec : Option ContractPrecision) (A : FVec Ideal ⟨2, ![K, M]⟩ φ₁) (B : FVec Ideal ⟨2, ![K, N]⟩ φ₂) (e : Fin M) (f : Fin N) :
    matmul D prec A B (constant (F := Ideal) ⟨2, ![M, N]⟩ .f32 0x00000000#32) (ix2 e f) = ∑ o : Fin K, A (ix2 o e) * B (ix2 o f) := by
  subst hD
  refine (Ideal.matmul_constant_zero_apply (rowsDot M K N wf) prec A B (ix2 e f)).trans ?_
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 e f) ((contrEquiv1 (rowsDot M K N wf) K rfl rfl).symm k) = ix2 k e := funext fun a => Fin.ext (by
    match a with
    | ⟨0, _⟩ => exact (rlhs0 wf _ _).trans hk
    | ⟨1, _⟩ => exact rlhs1 wf _ _)
  have er : (rowsDot M K N wf).rhsIdx (ix2 e f) ((contrEquiv1 (rowsDot M K N wf) K rfl rfl).symm k) = ix2 k f := funext fun a => Fin.ext (by
    match a with
    | ⟨0, _⟩ => exact (rrhs0 wf _ _).trans hk
    | ⟨1, _⟩ => exact rrhs1 wf _ _)
  rw [el, er]

end

end Cert.KBodyDot

end
-- ==== Proof.KernelPayload.lean ====
/-
  The kernel body's stored value at an index, on the extended reals.  The body loads a block of 8000 rows of the
  aggregated features and of the node features, the two 64×64 weight matrices (feature-major), the bias row and the
  slope cell; narrows the four matrices to bf16 (the identity on extended reals); forms the two matrix products into
  zero accumulators; adds the bias row to the first and then the second product; and selects the sum where it is
  ≥ 0 and the slope times the sum elsewhere.  At `(r, o)` that is the layer's entry `Spec.layerAt` of the loaded blocks.
-/
import proofs.«162317_j38147899523429_1_alg».proof.Proof.Gen.KernelIdeal.Skeleton
import proofs.«162317_j38147899523429_1_alg».proof.Proof.LayerSpec
import proofs.«162317_j38147899523429_1_alg».proof.Proof.LibMxuDot
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.Spec

/-- A `[1, 64]` row spread over 8000 rows reads, at `(r, o)`, the row at `o`. -/
theorem rowSpread_apply (v : S1x64.Idx → EReal) (h : S1x64.Broadcasts S8000x64) (r : Fin 8000) (o : Fin 64) :
    broadcastTo S8000x64 v h (ix2 r o) = v (ix2 (0 : Fin 1) o) := by
  refine broadcastTo_apply v h (ix2 r o) (ix2 (0 : Fin 1) o) fun ax => ?_
  match ax with
  | ⟨0, _⟩ => rfl
  | ⟨1, _⟩ => rfl

/-- A `[1, 1]` cell spread over the whole block reads the cell everywhere. -/
theorem cellSpread_apply (v : S1x1.Idx → EReal) (h : S1x1.Broadcasts S8000x64) (r : Fin 8000) (o : Fin 64) :
    broadcastTo S8000x64 v h (ix2 r o) = v (ix2 (0 : Fin 1) (0 : Fin 1)) := by
  refine broadcastTo_apply v h (ix2 r o) (ix2 (0 : Fin 1) (0 : Fin 1)) fun ax => ?_
  match ax with
  | ⟨0, _⟩ => rfl
  | ⟨1, _⟩ => rfl

/-- The kernel's matrix product is the plain one: rows against columns, no batch axis. -/
theorem dot_plain : dot_S8000x64_S64x64_S8000x64_1_0_0_1_n_n = DotDims.plain 8000 64 64 := rfl

/-- THE PAYLOAD AT `(r, o)`: the layer's entry of the loaded blocks. -/
theorem pay_apply (v0 v3 : Vec Ideal S8000x64 .f32) (v6 v9 : Vec Ideal S64x64 .f32) (v12 : Vec Ideal S1x64 .f32)
    (v14 : Vec Ideal S1x1 .f32) (r : Fin 8000) (o : Fin 64) :
    k0_pay1 (F := Ideal) v0 v3 v6 v9 v12 v14 (ix2 r o) = layerAt (R := 8000) v0 v3 v6 v9 v12 v14 r o := by
  unfold k0_pay1 layerAt preluI
  simp only [select_apply, cmpf_apply, mulf_apply, addf_apply, broadcast_apply, shapeCast_self, rowSpread_apply,
    cellSpread_apply]
  rw [Cert.KBodyDot.plainMatmul_apply _ dot_plain, Cert.KBodyDot.plainMatmul_apply _ dot_plain]
  rfl

/-- The second and third launches run the same body: their payloads are the first one's, term for term. -/
theorem pay1_apply (v0 v3 : Vec Ideal S8000x64 .f32) (v6 v9 : Vec Ideal S64x64 .f32) (v12 : Vec Ideal S1x64 .f32)
    (v14 : Vec Ideal S1x1 .f32) (r : Fin 8000) (o : Fin 64) :
    k1_pay1 (F := Ideal) v0 v3 v6 v9 v12 v14 (ix2 r o) = layerAt (R := 8000) v0 v3 v6 v9 v12 v14 r o :=
  (show k1_pay1 (F := Ideal) v0 v3 v6 v9 v12 v14 (ix2 r o) = k0_pay1 (F := Ideal) v0 v3 v6 v9 v12 v14 (ix2 r o) from rfl).trans
    (pay_apply v0 v3 v6 v9 v12 v14 r o)
theorem pay2_apply (v0 v3 : Vec Ideal S8000x64 .f32) (v6 v9 : Vec Ideal S64x64 .f32) (v12 : Vec Ideal S1x64 .f32)
    (v14 : Vec Ideal S1x1 .f32) (r : Fin 8000) (o : Fin 64) :
    k2_pay1 (F := Ideal) v0 v3 v6 v9 v12 v14 (ix2 r o) = layerAt (R := 8000) v0 v3 v6 v9 v12 v14 r o :=
  (show k2_pay1 (F := Ideal) v0 v3 v6 v9 v12 v14 (ix2 r o) = k0_pay1 (F := Ideal) v0 v3 v6 v9 v12 v14 (ix2 r o) from rfl).trans
    (pay_apply v0 v3 v6 v9 v12 v14 r o)

end Cert.KernelIdeal.Hand

end
-- ==== Proof.Region0.lean ====
/-
  What launch 0 of the layer kernel leaves in its output array, as ONE function of the arrays it finds.

  The grid has 25 points.  Point `t` stages rows `8000·t … 8000·t + 7999` of the aggregated features and of the node
  features, the whole of the two weight matrices, the bias row and the slope cell, and writes the body's value back to
  the same rows of the output.  So what point `t` writes back is block `t` of the layer matrix `Spec.layerMat` of the
  whole arrays; row `r` of the output lies in block `r / 8000`, so the blocks cover the array, and the array ends at
  the layer matrix.
-/
import proofs.«162317_j38147899523429_1_alg».proof.Proof.Gen.KernelIdeal.Frame
import proofs.«162317_j38147899523429_1_alg».proof.Proof.KernelPayload
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin0 : (![0, 0] : Fin 2 → Nat) = fun _ => 0 := funext fun a => by fin_cases a <;> rfl

/-- The printed index maps, decided over the 25 grid points: the two row-blocked inputs and the output are at block
    `(t, 0)`, the four resident operands at block `(0, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem pt_lt0 (t : Fin cfg0.N) : t.val < 25 := by
  have h := t.isLt
  have hN : cfg0.N = 25 := N_0
  omega

/-- The layer matrix of the arrays launch 0 finds. -/
abbrev G0 (c : Dev nD) : S200000x64.Idx → EReal :=
  layerMat (R := 200000) (V c main_v32) (V c main_v33) (V c main_v34) (V c main_v35) (V c main_v36) (V c main_v37)

/-- Row `p` of point `t`'s block of the aggregated features is row `8000·t + p` of the array. -/
theorem blk0_0 (c : Dev nD) (t : Fin cfg0.N) (p : Fin 8000) (f : Fin 64) (hp : t.val * 8000 + p.val < 200000) :
    iblk0 V c 0 t (ix2 p f) = (V c main_v32 : S200000x64.Idx → EReal) (ix2 ⟨t.val * 8000 + p.val, hp⟩ f) := by
  show (V c main_v32 : S200000x64.Idx → EReal) (((cfg0.win 0).blk t).view.emb (ix2 p f)) = _
  refine congrArg _ (funext fun a => Fin.ext ?_)
  obtain ⟨e0, e1, -⟩ := idx0 t
  match a with
  | ⟨0, _⟩ => show win0_0.index t (0 : Fin 2) * 8000 + 1 * p.val = t.val * 8000 + p.val; omega
  | ⟨1, _⟩ => show win0_0.index t (1 : Fin 2) * 64 + 1 * f.val = f.val; omega

/-- The same for the node features. -/
theorem blk0_1 (c : Dev nD) (t : Fin cfg0.N) (p : Fin 8000) (f : Fin 64) (hp : t.val * 8000 + p.val < 200000) :
    iblk0 V c 1 t (ix2 p f) = (V c main_v33 : S200000x64.Idx → EReal) (ix2 ⟨t.val * 8000 + p.val, hp⟩ f) := by
  show (V c main_v33 : S200000x64.Idx → EReal) (((cfg0.win 1).blk t).view.emb (ix2 p f)) = _
  refine congrArg _ (funext fun a => Fin.ext ?_)
  obtain ⟨-, -, e0, e1, -⟩ := idx0 t
  match a with
  | ⟨0, _⟩ => show win0_1.index t (0 : Fin 2) * 8000 + 1 * p.val = t.val * 8000 + p.val; omega
  | ⟨1, _⟩ => show win0_1.index t (1 : Fin 2) * 64 + 1 * f.val = f.val; omega

/-- A resident operand's block is the whole operand, at every point. -/
theorem blk0_2 (c : Dev nD) (t : Fin cfg0.N) : iblk0 V c 2 t = (V c main_v34 : S64x64.Idx → EReal) := by
  funext j
  show (V c main_v34 : S64x64.Idx → EReal) (((cfg0.win 2).blk t).view.emb j) = _
  refine congrArg _ (funext fun a => Fin.ext ?_)
  obtain ⟨-, -, -, -, e0, e1, -⟩ := idx0 t
  match a with
  | ⟨0, _⟩ => show win0_2.index t (0 : Fin 2) * 64 + 1 * (j 0).val = (j 0).val; omega
  | ⟨1, _⟩ => show win0_2.index t (1 : Fin 2) * 64 + 1 * (j 1).val = (j 1).val; omega
theorem blk0_3 (c : Dev nD) (t : Fin cfg0.N) : iblk0 V c 3 t = (V c main_v35 : S64x64.Idx → EReal) := by
  funext j
  show (V c main_v35 : S64x64.Idx → EReal) (((cfg0.win 3).blk t).view.emb j) = _
  refine congrArg _ (funext fun a => Fin.ext ?_)
  obtain ⟨-, -, -, -, -, -, e0, e1, -⟩ := idx0 t
  match a with
  | ⟨0, _⟩ => show win0_3.index t (0 : Fin 2) * 64 + 1 * (j 0).val = (j 0).val; omega
  | ⟨1, _⟩ => show win0_3.index t (1 : Fin 2) * 64 + 1 * (j 1).val = (j 1).val; omega
theorem blk0_4 (c : Dev nD) (t : Fin cfg0.N) : iblk0 V c 4 t = (V c main_v36 : S1x64.Idx → EReal) := by
  funext j
  show (V c main_v36 : S1x64.Idx → EReal) (((cfg0.win 4).blk t).view.emb j) = _
  refine congrArg _ (funext fun a => Fin.ext ?_)
  obtain ⟨-, -, -, -, -, -, -, -, e0, e1, -⟩ := idx0 t
  match a with
  | ⟨0, _⟩ => show win0_4.index t (0 : Fin 2) * 1 + 1 * (j 0).val = (j 0).val; omega
  | ⟨1, _⟩ => show win0_4.index t (1 : Fin 2) * 64 + 1 * (j 1).val = (j 1).val; omega
theorem blk0_5 (c : Dev nD) (t : Fin cfg0.N) : iblk0 V c 5 t = (V c main_v37 : S1x1.Idx → EReal) := by
  funext j
  show (V c main_v37 : S1x1.Idx → EReal) (((cfg0.win 5).blk t).view.emb j) = _
  refine congrArg _ (funext fun a => Fin.ext ?_)
  obtain ⟨-, -, -, -, -, -, -, -, -, -, e0, e1, -⟩ := idx0 t
  match a with
  | ⟨0, _⟩ => show win0_5.index t (0 : Fin 2) * 1 + 1 * (j 0).val = (j 0).val; omega
  | ⟨1, _⟩ => show win0_5.index t (1 : Fin 2) * 1 + 1 * (j 1).val = (j 1).val; omega

/-- Entry `(p, q)` of point `t`'s output block is entry `(8000·t + p, q)` of the output array. -/
theorem emb0_6 (t : Fin cfg0.N) (p : Fin 8000) (q : Fin 64) (hp : t.val * 8000 + p.val < 200000) :
    ((cfg0.win 6).blk t).view.emb (ix2 p q) = (ix2 ⟨t.val * 8000 + p.val, hp⟩ q : S200000x64.Idx) := by
  funext a
  apply Fin.ext
  obtain ⟨-, -, -, -, -, -, -, -, -, -, -, -, e0, e1⟩ := idx0 t
  match a with
  | ⟨0, _⟩ => show win0_6.index t (0 : Fin 2) * 8000 + 1 * p.val = t.val * 8000 + p.val; omega
  | ⟨1, _⟩ => show win0_6.index t (1 : Fin 2) * 64 + 1 * q.val = q.val; omega

/-- WHAT POINT `t` WRITES BACK is block `t` of the layer matrix of the arrays the launch finds. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero origin0]
  simp only [View.ld_unit_zero (S := S8000x64) origin0, View.ld_unit_zero (S := S64x64) origin0,
    View.ld_unit_zero (S := S1x64) origin0, View.ld_unit_zero (S := S1x1) origin0]
  funext j
  obtain ⟨p, q, rfl⟩ : ∃ (p : Fin 8000) (q : Fin 64), j = ix2 p q := ⟨j 0, j 1, eq_ix2 j⟩
  have ht := pt_lt0 t
  have hp : t.val * 8000 + p.val < 200000 := by have := p.isLt; omega
  show k0_pay1 (F := Ideal) (iblk0 V c 0 t) (iblk0 V c 1 t) (iblk0 V c 2 t) (iblk0 V c 3 t) (iblk0 V c 4 t) (iblk0 V c 5 t) (ix2 p q)
    = G0 V c (((cfg0.win 6).blk t).view.emb (ix2 p q))
  rw [emb0_6 t p q hp]
  refine (pay_apply (iblk0 V c 0 t) (iblk0 V c 1 t) (iblk0 V c 2 t) (iblk0 V c 3 t) (iblk0 V c 4 t) (iblk0 V c 5 t) p q).trans ?_
  rw [blk0_2 V c t, blk0_3 V c t, blk0_4 V c t, blk0_5 V c t]
  show layerAt (R := 8000) (iblk0 V c 0 t) (iblk0 V c 1 t) _ _ _ _ p q = layerAt (R := 200000) _ _ _ _ _ _ ⟨t.val * 8000 + p.val, hp⟩ q
  unfold layerAt
  simp only [blk0_0 V c t p _ hp, blk0_1 V c t p _ hp]

/-- An index of the output array is in point `t`'s block iff each coordinate is in the block's range on its axis. -/
theorem mem_blk0 (t : Fin cfg0.N) (i : S200000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v38).slice (win0_6.rect t)).set ↔ _
  rw [View.set_slice_whole, Rect.mem_set_unit]
  exact Iff.rfl

/-- Every index of the output array is in some flushing point's block: row `r` is in block `r / 8000`. -/
theorem cover0 (i : S200000x64.Idx) :
    ∃ t : Fin cfg0.N, (cfg0.win 6).flush t = true ∧ i ∈ ((cfg0.win 6).blk t).view.set := by
  have hi0 : (i 0).val < 200000 := (i 0).isLt
  have hi1 : (i 1).val < 64 := (i 1).isLt
  have hN : cfg0.N = 25 := N_0
  let t : Fin cfg0.N := ⟨(i 0).val / 8000, by omega⟩
  refine ⟨t, flush0_6 t, ?_⟩
  rw [mem_blk0]
  obtain ⟨-, -, -, -, -, -, -, -, -, -, -, -, e0, e1⟩ := idx0 t
  have ht : t.val = (i 0).val / 8000 := rfl
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 64 ≤ (i 1).val ∧ (i 1).val < win0_6.index t (1 : Fin 2) * 64 + 64; omega

/-- THE OUTPUT ARRAY after launch 0: the layer matrix of the arrays the launch finds. -/
theorem final0 (c : Dev nD) : (dat0 (F := Ideal) V c).arrAt 6 cfg0.N = G0 V c :=
  (dat0 (F := Ideal) V c).arrAt_eq_of_cover 6 (G0 V c) (fun t _ => flushed0_eq V c t) (cover0)

end Cert.KernelIdeal.Hand

end
-- ==== Proof.Region1.lean ====
/-
  What launch 1 of the layer kernel leaves in its output array, as ONE function of the arrays it finds.

  The grid has 25 points.  Point `t` stages rows `8000·t … 8000·t + 7999` of the aggregated features and of the node
  features, the whole of the two weight matrices, the bias row and the slope cell, and writes the body's value back to
  the same rows of the output.  So what point `t` writes back is block `t` of the layer matrix `Spec.layerMat` of the
  whole arrays; row `r` of the output lies in block `r / 8000`, so the blocks cover the array, and the array ends at
  the layer matrix.
-/
import proofs.«162317_j38147899523429_1_alg».proof.Proof.Gen.KernelIdeal.Frame
import proofs.«162317_j38147899523429_1_alg».proof.Proof.KernelPayload
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin1 : (![0, 0] : Fin 2 → Nat) = fun _ => 0 := funext fun a => by fin_cases a <;> rfl

/-- The printed index maps, decided over the 25 grid points: the two row-blocked inputs and the output are at block
    `(t, 0)`, the four resident operands at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem pt_lt1 (t : Fin cfg1.N) : t.val < 25 := by
  have h := t.isLt
  have hN : cfg1.N = 25 := N_1
  omega

/-- The layer matrix of the arrays launch 1 finds. -/
abbrev G1 (c : Dev nD) : S200000x64.Idx → EReal :=
  layerMat (R := 200000) (V c main_v52) (V c main_v53) (V c main_v54) (V c main_v55) (V c main_v56) (V c main_v57)

/-- Row `p` of point `t`'s block of the aggregated features is row `8000·t + p` of the array. -/
theorem blk1_0 (c : Dev nD) (t : Fin cfg1.N) (p : Fin 8000) (f : Fin 64) (hp : t.val * 8000 + p.val < 200000) :
    iblk1 V c 0 t (ix2 p f) = (V c main_v52 : S200000x64.Idx → EReal) (ix2 ⟨t.val * 8000 + p.val, hp⟩ f) := by
  show (V c main_v52 : S200000x64.Idx → EReal) (((cfg1.win 0).blk t).view.emb (ix2 p f)) = _
  refine congrArg _ (funext fun a => Fin.ext ?_)
  obtain ⟨e0, e1, -⟩ := idx1 t
  match a with
  | ⟨0, _⟩ => show win1_0.index t (0 : Fin 2) * 8000 + 1 * p.val = t.val * 8000 + p.val; omega
  | ⟨1, _⟩ => show win1_0.index t (1 : Fin 2) * 64 + 1 * f.val = f.val; omega

/-- The same for the node features. -/
theorem blk1_1 (c : Dev nD) (t : Fin cfg1.N) (p : Fin 8000) (f : Fin 64) (hp : t.val * 8000 + p.val < 200000) :
    iblk1 V c 1 t (ix2 p f) = (V c main_v53 : S200000x64.Idx → EReal) (ix2 ⟨t.val * 8000 + p.val, hp⟩ f) := by
  show (V c main_v53 : S200000x64.Idx → EReal) (((cfg1.win 1).blk t).view.emb (ix2 p f)) = _
  refine congrArg _ (funext fun a => Fin.ext ?_)
  obtain ⟨-, -, e0, e1, -⟩ := idx1 t
  match a with
  | ⟨0, _⟩ => show win1_1.index t (0 : Fin 2) * 8000 + 1 * p.val = t.val * 8000 + p.val; omega
  | ⟨1, _⟩ => show win1_1.index t (1 : Fin 2) * 64 + 1 * f.val = f.val; omega

/-- A resident operand's block is the whole operand, at every point. -/
theorem blk1_2 (c : Dev nD) (t : Fin cfg1.N) : iblk1 V c 2 t = (V c main_v54 : S64x64.Idx → EReal) := by
  funext j
  show (V c main_v54 : S64x64.Idx → EReal) (((cfg1.win 2).blk t).view.emb j) = _
  refine congrArg _ (funext fun a => Fin.ext ?_)
  obtain ⟨-, -, -, -, e0, e1, -⟩ := idx1 t
  match a with
  | ⟨0, _⟩ => show win1_2.index t (0 : Fin 2) * 64 + 1 * (j 0).val = (j 0).val; omega
  | ⟨1, _⟩ => show win1_2.index t (1 : Fin 2) * 64 + 1 * (j 1).val = (j 1).val; omega
theorem blk1_3 (c : Dev nD) (t : Fin cfg1.N) : iblk1 V c 3 t = (V c main_v55 : S64x64.Idx → EReal) := by
  funext j
  show (V c main_v55 : S64x64.Idx → EReal) (((cfg1.win 3).blk t).view.emb j) = _
  refine congrArg _ (funext fun a => Fin.ext ?_)
  obtain ⟨-, -, -, -, -, -, e0, e1, -⟩ := idx1 t
  match a with
  | ⟨0, _⟩ => show win1_3.index t (0 : Fin 2) * 64 + 1 * (j 0).val = (j 0).val; omega
  | ⟨1, _⟩ => show win1_3.index t (1 : Fin 2) * 64 + 1 * (j 1).val = (j 1).val; omega
theorem blk1_4 (c : Dev nD) (t : Fin cfg1.N) : iblk1 V c 4 t = (V c main_v56 : S1x64.Idx → EReal) := by
  funext j
  show (V c main_v56 : S1x64.Idx → EReal) (((cfg1.win 4).blk t).view.emb j) = _
  refine congrArg _ (funext fun a => Fin.ext ?_)
  obtain ⟨-, -, -, -, -, -, -, -, e0, e1, -⟩ := idx1 t
  match a with
  | ⟨0, _⟩ => show win1_4.index t (0 : Fin 2) * 1 + 1 * (j 0).val = (j 0).val; omega
  | ⟨1, _⟩ => show win1_4.index t (1 : Fin 2) * 64 + 1 * (j 1).val = (j 1).val; omega
theorem blk1_5 (c : Dev nD) (t : Fin cfg1.N) : iblk1 V c 5 t = (V c main_v57 : S1x1.Idx → EReal) := by
  funext j
  show (V c main_v57 : S1x1.Idx → EReal) (((cfg1.win 5).blk t).view.emb j) = _
  refine congrArg _ (funext fun a => Fin.ext ?_)
  obtain ⟨-, -, -, -, -, -, -, -, -, -, e0, e1, -⟩ := idx1 t
  match a with
  | ⟨0, _⟩ => show win1_5.index t (0 : Fin 2) * 1 + 1 * (j 0).val = (j 0).val; omega
  | ⟨1, _⟩ => show win1_5.index t (1 : Fin 2) * 1 + 1 * (j 1).val = (j 1).val; omega

/-- Entry `(p, q)` of point `t`'s output block is entry `(8000·t + p, q)` of the output array. -/
theorem emb1_6 (t : Fin cfg1.N) (p : Fin 8000) (q : Fin 64) (hp : t.val * 8000 + p.val < 200000) :
    ((cfg1.win 6).blk t).view.emb (ix2 p q) = (ix2 ⟨t.val * 8000 + p.val, hp⟩ q : S200000x64.Idx) := by
  funext a
  apply Fin.ext
  obtain ⟨-, -, -, -, -, -, -, -, -, -, -, -, e0, e1⟩ := idx1 t
  match a with
  | ⟨0, _⟩ => show win1_6.index t (0 : Fin 2) * 8000 + 1 * p.val = t.val * 8000 + p.val; omega
  | ⟨1, _⟩ => show win1_6.index t (1 : Fin 2) * 64 + 1 * q.val = q.val; omega

/-- WHAT POINT `t` WRITES BACK is block `t` of the layer matrix of the arrays the launch finds. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero origin1]
  simp only [View.ld_unit_zero (S := S8000x64) origin1, View.ld_unit_zero (S := S64x64) origin1,
    View.ld_unit_zero (S := S1x64) origin1, View.ld_unit_zero (S := S1x1) origin1]
  funext j
  obtain ⟨p, q, rfl⟩ : ∃ (p : Fin 8000) (q : Fin 64), j = ix2 p q := ⟨j 0, j 1, eq_ix2 j⟩
  have ht := pt_lt1 t
  have hp : t.val * 8000 + p.val < 200000 := by have := p.isLt; omega
  show k1_pay1 (F := Ideal) (iblk1 V c 0 t) (iblk1 V c 1 t) (iblk1 V c 2 t) (iblk1 V c 3 t) (iblk1 V c 4 t) (iblk1 V c 5 t) (ix2 p q)
    = G1 V c (((cfg1.win 6).blk t).view.emb (ix2 p q))
  rw [emb1_6 t p q hp]
  refine (pay1_apply (iblk1 V c 0 t) (iblk1 V c 1 t) (iblk1 V c 2 t) (iblk1 V c 3 t) (iblk1 V c 4 t) (iblk1 V c 5 t) p q).trans ?_
  rw [blk1_2 V c t, blk1_3 V c t, blk1_4 V c t, blk1_5 V c t]
  show layerAt (R := 8000) (iblk1 V c 0 t) (iblk1 V c 1 t) _ _ _ _ p q = layerAt (R := 200000) _ _ _ _ _ _ ⟨t.val * 8000 + p.val, hp⟩ q
  unfold layerAt
  simp only [blk1_0 V c t p _ hp, blk1_1 V c t p _ hp]

/-- An index of the output array is in point `t`'s block iff each coordinate is in the block's range on its axis. -/
theorem mem_blk1 (t : Fin cfg1.N) (i : S200000x64.Idx) :
    i ∈ ((cfg1.win 6).blk t).view.set ↔ ∀ a : Fin 2, win1_6.index t a * S8000x64.size a ≤ (i a).val ∧ (i a).val < win1_6.index t a * S8000x64.size a + S8000x64.size a := by
  show i ∈ ((View.whole main_v58).slice (win1_6.rect t)).set ↔ _
  rw [View.set_slice_whole, Rect.mem_set_unit]
  exact Iff.rfl

/-- Every index of the output array is in some flushing point's block: row `r` is in block `r / 8000`. -/
theorem cover1 (i : S200000x64.Idx) :
    ∃ t : Fin cfg1.N, (cfg1.win 6).flush t = true ∧ i ∈ ((cfg1.win 6).blk t).view.set := by
  have hi0 : (i 0).val < 200000 := (i 0).isLt
  have hi1 : (i 1).val < 64 := (i 1).isLt
  have hN : cfg1.N = 25 := N_1
  let t : Fin cfg1.N := ⟨(i 0).val / 8000, by omega⟩
  refine ⟨t, flush1_6 t, ?_⟩
  rw [mem_blk1]
  obtain ⟨-, -, -, -, -, -, -, -, -, -, -, -, e0, e1⟩ := idx1 t
  have ht : t.val = (i 0).val / 8000 := rfl
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 64 ≤ (i 1).val ∧ (i 1).val < win1_6.index t (1 : Fin 2) * 64 + 64; omega

/-- THE OUTPUT ARRAY after launch 1: the layer matrix of the arrays the launch finds. -/
theorem final1 (c : Dev nD) : (dat1 (F := Ideal) V c).arrAt 6 cfg1.N = G1 V c :=
  (dat1 (F := Ideal) V c).arrAt_eq_of_cover 6 (G1 V c) (fun t _ => flushed1_eq V c t) (cover1)

end Cert.KernelIdeal.Hand

end
-- ==== Proof.Region2.lean ====
/-
  What launch 2 of the layer kernel leaves in its output array, as ONE function of the arrays it finds.

  The grid has 25 points.  Point `t` stages rows `8000·t … 8000·t + 7999` of the aggregated features and of the node
  features, the whole of the two weight matrices, the bias row and the slope cell, and writes the body's value back to
  the same rows of the output.  So what point `t` writes back is block `t` of the layer matrix `Spec.layerMat` of the
  whole arrays; row `r` of the output lies in block `r / 8000`, so the blocks cover the array, and the array ends at
  the layer matrix.
-/
import proofs.«162317_j38147899523429_1_alg».proof.Proof.Gen.KernelIdeal.Frame
import proofs.«162317_j38147899523429_1_alg».proof.Proof.KernelPayload
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin2 : (![0, 0] : Fin 2 → Nat) = fun _ => 0 := funext fun a => by fin_cases a <;> rfl

/-- The printed index maps, decided over the 25 grid points: the two row-blocked inputs and the output are at block
    `(t, 0)`, the four resident operands at block `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem pt_lt2 (t : Fin cfg2.N) : t.val < 25 := by
  have h := t.isLt
  have hN : cfg2.N = 25 := N_2
  omega

/-- The layer matrix of the arrays launch 2 finds. -/
abbrev G2 (c : Dev nD) : S200000x64.Idx → EReal :=
  layerMat (R := 200000) (V c main_v72) (V c main_v73) (V c main_v74) (V c main_v75) (V c main_v76) (V c main_v77)

/-- Row `p` of point `t`'s block of the aggregated features is row `8000·t + p` of the array. -/
theorem blk2_0 (c : Dev nD) (t : Fin cfg2.N) (p : Fin 8000) (f : Fin 64) (hp : t.val * 8000 + p.val < 200000) :
    iblk2 V c 0 t (ix2 p f) = (V c main_v72 : S200000x64.Idx → EReal) (ix2 ⟨t.val * 8000 + p.val, hp⟩ f) := by
  show (V c main_v72 : S200000x64.Idx → EReal) (((cfg2.win 0).blk t).view.emb (ix2 p f)) = _
  refine congrArg _ (funext fun a => Fin.ext ?_)
  obtain ⟨e0, e1, -⟩ := idx2 t
  match a with
  | ⟨0, _⟩ => show win2_0.index t (0 : Fin 2) * 8000 + 1 * p.val = t.val * 8000 + p.val; omega
  | ⟨1, _⟩ => show win2_0.index t (1 : Fin 2) * 64 + 1 * f.val = f.val; omega

/-- The same for the node features. -/
theorem blk2_1 (c : Dev nD) (t : Fin cfg2.N) (p : Fin 8000) (f : Fin 64) (hp : t.val * 8000 + p.val < 200000) :
    iblk2 V c 1 t (ix2 p f) = (V c main_v73 : S200000x64.Idx → EReal) (ix2 ⟨t.val * 8000 + p.val, hp⟩ f) := by
  show (V c main_v73 : S200000x64.Idx → EReal) (((cfg2.win 1).blk t).view.emb (ix2 p f)) = _
  refine congrArg _ (funext fun a => Fin.ext ?_)
  obtain ⟨-, -, e0, e1, -⟩ := idx2 t
  match a with
  | ⟨0, _⟩ => show win2_1.index t (0 : Fin 2) * 8000 + 1 * p.val = t.val * 8000 + p.val; omega
  | ⟨1, _⟩ => show win2_1.index t (1 : Fin 2) * 64 + 1 * f.val = f.val; omega

/-- A resident operand's block is the whole operand, at every point. -/
theorem blk2_2 (c : Dev nD) (t : Fin cfg2.N) : iblk2 V c 2 t = (V c main_v74 : S64x64.Idx → EReal) := by
  funext j
  show (V c main_v74 : S64x64.Idx → EReal) (((cfg2.win 2).blk t).view.emb j) = _
  refine congrArg _ (funext fun a => Fin.ext ?_)
  obtain ⟨-, -, -, -, e0, e1, -⟩ := idx2 t
  match a with
  | ⟨0, _⟩ => show win2_2.index t (0 : Fin 2) * 64 + 1 * (j 0).val = (j 0).val; omega
  | ⟨1, _⟩ => show win2_2.index t (1 : Fin 2) * 64 + 1 * (j 1).val = (j 1).val; omega
theorem blk2_3 (c : Dev nD) (t : Fin cfg2.N) : iblk2 V c 3 t = (V c main_v75 : S64x64.Idx → EReal) := by
  funext j
  show (V c main_v75 : S64x64.Idx → EReal) (((cfg2.win 3).blk t).view.emb j) = _
  refine congrArg _ (funext fun a => Fin.ext ?_)
  obtain ⟨-, -, -, -, -, -, e0, e1, -⟩ := idx2 t
  match a with
  | ⟨0, _⟩ => show win2_3.index t (0 : Fin 2) * 64 + 1 * (j 0).val = (j 0).val; omega
  | ⟨1, _⟩ => show win2_3.index t (1 : Fin 2) * 64 + 1 * (j 1).val = (j 1).val; omega
theorem blk2_4 (c : Dev nD) (t : Fin cfg2.N) : iblk2 V c 4 t = (V c main_v76 : S1x64.Idx → EReal) := by
  funext j
  show (V c main_v76 : S1x64.Idx → EReal) (((cfg2.win 4).blk t).view.emb j) = _
  refine congrArg _ (funext fun a => Fin.ext ?_)
  obtain ⟨-, -, -, -, -, -, -, -, e0, e1, -⟩ := idx2 t
  match a with
  | ⟨0, _⟩ => show win2_4.index t (0 : Fin 2) * 1 + 1 * (j 0).val = (j 0).val; omega
  | ⟨1, _⟩ => show win2_4.index t (1 : Fin 2) * 64 + 1 * (j 1).val = (j 1).val; omega
theorem blk2_5 (c : Dev nD) (t : Fin cfg2.N) : iblk2 V c 5 t = (V c main_v77 : S1x1.Idx → EReal) := by
  funext j
  show (V c main_v77 : S1x1.Idx → EReal) (((cfg2.win 5).blk t).view.emb j) = _
  refine congrArg _ (funext fun a => Fin.ext ?_)
  obtain ⟨-, -, -, -, -, -, -, -, -, -, e0, e1, -⟩ := idx2 t
  match a with
  | ⟨0, _⟩ => show win2_5.index t (0 : Fin 2) * 1 + 1 * (j 0).val = (j 0).val; omega
  | ⟨1, _⟩ => show win2_5.index t (1 : Fin 2) * 1 + 1 * (j 1).val = (j 1).val; omega

/-- Entry `(p, q)` of point `t`'s output block is entry `(8000·t + p, q)` of the output array. -/
theorem emb2_6 (t : Fin cfg2.N) (p : Fin 8000) (q : Fin 64) (hp : t.val * 8000 + p.val < 200000) :
    ((cfg2.win 6).blk t).view.emb (ix2 p q) = (ix2 ⟨t.val * 8000 + p.val, hp⟩ q : S200000x64.Idx) := by
  funext a
  apply Fin.ext
  obtain ⟨-, -, -, -, -, -, -, -, -, -, -, -, e0, e1⟩ := idx2 t
  match a with
  | ⟨0, _⟩ => show win2_6.index t (0 : Fin 2) * 8000 + 1 * p.val = t.val * 8000 + p.val; omega
  | ⟨1, _⟩ => show win2_6.index t (1 : Fin 2) * 64 + 1 * q.val = q.val; omega

/-- WHAT POINT `t` WRITES BACK is block `t` of the layer matrix of the arrays the launch finds. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero origin2]
  simp only [View.ld_unit_zero (S := S8000x64) origin2, View.ld_unit_zero (S := S64x64) origin2,
    View.ld_unit_zero (S := S1x64) origin2, View.ld_unit_zero (S := S1x1) origin2]
  funext j
  obtain ⟨p, q, rfl⟩ : ∃ (p : Fin 8000) (q : Fin 64), j = ix2 p q := ⟨j 0, j 1, eq_ix2 j⟩
  have ht := pt_lt2 t
  have hp : t.val * 8000 + p.val < 200000 := by have := p.isLt; omega
  show k2_pay1 (F := Ideal) (iblk2 V c 0 t) (iblk2 V c 1 t) (iblk2 V c 2 t) (iblk2 V c 3 t) (iblk2 V c 4 t) (iblk2 V c 5 t) (ix2 p q)
    = G2 V c (((cfg2.win 6).blk t).view.emb (ix2 p q))
  rw [emb2_6 t p q hp]
  refine (pay2_apply (iblk2 V c 0 t) (iblk2 V c 1 t) (iblk2 V c 2 t) (iblk2 V c 3 t) (iblk2 V c 4 t) (iblk2 V c 5 t) p q).trans ?_
  rw [blk2_2 V c t, blk2_3 V c t, blk2_4 V c t, blk2_5 V c t]
  show layerAt (R := 8000) (iblk2 V c 0 t) (iblk2 V c 1 t) _ _ _ _ p q = layerAt (R := 200000) _ _ _ _ _ _ ⟨t.val * 8000 + p.val, hp⟩ q
  unfold layerAt
  simp only [blk2_0 V c t p _ hp, blk2_1 V c t p _ hp]

/-- An index of the output array is in point `t`'s block iff each coordinate is in the block's range on its axis. -/
theorem mem_blk2 (t : Fin cfg2.N) (i : S200000x64.Idx) :
    i ∈ ((cfg2.win 6).blk t).view.set ↔ ∀ a : Fin 2, win2_6.index t a * S8000x64.size a ≤ (i a).val ∧ (i a).val < win2_6.index t a * S8000x64.size a + S8000x64.size a := by
  show i ∈ ((View.whole main_v78).slice (win2_6.rect t)).set ↔ _
  rw [View.set_slice_whole, Rect.mem_set_unit]
  exact Iff.rfl

/-- Every index of the output array is in some flushing point's block: row `r` is in block `r / 8000`. -/
theorem cover2 (i : S200000x64.Idx) :
    ∃ t : Fin cfg2.N, (cfg2.win 6).flush t = true ∧ i ∈ ((cfg2.win 6).blk t).view.set := by
  have hi0 : (i 0).val < 200000 := (i 0).isLt
  have hi1 : (i 1).val < 64 := (i 1).isLt
  have hN : cfg2.N = 25 := N_2
  let t : Fin cfg2.N := ⟨(i 0).val / 8000, by omega⟩
  refine ⟨t, flush2_6 t, ?_⟩
  rw [mem_blk2]
  obtain ⟨-, -, -, -, -, -, -, -, -, -, -, -, e0, e1⟩ := idx2 t
  have ht : t.val = (i 0).val / 8000 := rfl
  intro a
  match a with
  | ⟨0, _⟩ => show win2_6.index t (0 : Fin 2) * 8000 ≤ (i 0).val ∧ (i 0).val < win2_6.index t (0 : Fin 2) * 8000 + 8000; omega
  | ⟨1, _⟩ => show win2_6.index t (1 : Fin 2) * 64 ≤ (i 1).val ∧ (i 1).val < win2_6.index t (1 : Fin 2) * 64 + 64; omega

/-- THE OUTPUT ARRAY after launch 2: the layer matrix of the arrays the launch finds. -/
theorem final2 (c : Dev nD) : (dat2 (F := Ideal) V c).arrAt 6 cfg2.N = G2 V c :=
  (dat2 (F := Ideal) V c).arrAt_eq_of_cover 6 (G2 V c) (fun t _ => flushed2_eq V c t) (cover2)

end Cert.KernelIdeal.Hand

end
-- ==== Proof.KernelAgg.lean ====
/-
  The host operations around the three launches, as functions.

  From the edge list `[1, 2, 800000]`: row 0 is every edge's source node, row 1 its destination node.  A node index
  below zero is wrapped by adding 50000.  The degree of a node is the number of edges that end in it (a scatter-add of
  ones at the destinations), and its inverse is `1 / degree` where the degree is positive and `0` elsewhere.  One
  aggregation of node features `h` (`[4, 50000, 64]`) gathers, for every edge, the feature rows of its source node (an
  index outside `0 … 49999` selects the quiet-NaN word instead), scatter-adds them into zeros at the destination
  nodes, and scales node `n`'s sum by the inverse degree of `n`.  A layer is launched on that mean and on `h`, both
  flattened to `[200000, 64]`, on the two weight matrices transposed, on the bias as a `[1, 64]` row and the slope as a
  `[1, 1]` cell, and its `[200000, 64]` result is read back as `[4, 50000, 64]`.
-/
import proofs.«162317_j38147899523429_1_alg».proof.Proof.Gen.KernelIdeal
import proofs.«162317_j38147899523429_1_alg».proof.Proof.LayerSpec

noncomputable section

namespace Cert.KernelIdeal.Hand

open Idealize.ShloMosaic Cert.KernelIdeal Cert.Spec
open Cert.KernelIdeal.Facts₀ Cert.KernelIdeal.Facts

variable {F : FTy → Type} [FloatOps F]

/-- The contents of a buffer of shape `S` and element type `e`: a function of the shape's indices. -/
abbrev Cv (F : FTy → Type) (S : Shape) (e : EltTy) : Type := (⟨S, e⟩ : BufTy).Contents (Elt F)

/-- Row 0 of the edge list: the source node of every edge. -/
def srcK (ei : Cv F S1x2x800000 .i32) : Cv F S800000 .i32 :=
  shapeCast S800000 (extractStridedSlice S1x800000 ![0, 0] (shapeCast S2x800000 ei shapeCasts_S1x2x800000_S2x800000)
    slices_S2x800000_S1x800000_0_0) shapeCasts_S1x800000_S800000

/-- Row 1 of the edge list: the destination node of every edge. -/
def dstK (ei : Cv F S1x2x800000 .i32) : Cv F S800000 .i32 :=
  shapeCast S800000 (extractStridedSlice S1x800000 ![1, 0] (shapeCast S2x800000 ei shapeCasts_S1x2x800000_S2x800000)
    slices_S2x800000_S1x800000_1_0) shapeCasts_S1x800000_S800000

/-- Node indices as an `[800000, 1]` column, an index below zero wrapped by adding 50000. -/
def colK (ix : Cv F S800000 .i32) : Cv F S800000x1 .i32 :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- The degree of every node: ones scatter-added at the destinations. -/
def degK (dst : Cv F S800000 .i32) : Cv F S50000 .f32 :=
  Host.scatterAdd scatter_S50000_S800000x1_S800000_n_0_0_1
    (broadcastInDim S50000 ![] bcast_S_S50000 (constant S_ .f32 0x00000000#32)) (colK dst)
    (broadcastInDim S800000 ![] bcast_S_S800000 (constant S_ .f32 0x3F800000#32))

/-- Which nodes have a positive degree. -/
def degPosK (dst : Cv F S800000 .i32) : Cv F S50000 .i1 :=
  cmpf .ogt (degK dst) (broadcastInDim S50000 ![] bcast_S_S50000 (constant S_ .f32 0x00000000#32))

/-- `1 / degree`, node by node (whatever the division gives at degree zero). -/
def degRecipK (dst : Cv F S800000 .i32) : Cv F S50000 .f32 :=
  Host.divf (broadcastInDim S50000 ![] bcast_S_S50000 (constant S_ .f32 0x3F800000#32)) (degK dst)

/-- The scalar zero. -/
def zeroK : Cv F S_ .f32 := constant S_ .f32 0x00000000#32

/-- Select `a` where `p` holds and the scalar `z`, spread over the nodes, elsewhere. -/
def whereK (p : Cv F S50000 .i1) (a : Cv F S50000 .f32) (z : Cv F S_ .f32) : Cv F S50000 .f32 :=
  select p a (broadcastInDim S50000 ![] bcast_S_S50000 (id z))

/-- `1 / degree` where the degree is positive, `0` elsewhere. -/
def degInvK (dst : Cv F S800000 .i32) : Cv F S50000 .f32 := whereK (degPosK dst) (degRecipK dst) zeroK

/-- Is the (wrapped) source index of an edge inside `0 … 49999`? -/
def inRangeK (src : Cv F S800000 .i32) : Cv F S800000 .i1 :=
  Host.reduce IntOp.andi
    (andi (cmpi .sge (colK src) (broadcastInDim S800000x1 ![] bcast_S_S800000x1 (constantI S_ 32 0#32)))
      (cmpi .sle (colK src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The feature rows of every edge's source node; the quiet-NaN word where the index is out of range. -/
def takeK (h : Cv F S4x50000x64 .f32) (src : Cv F S800000 .i32) : Cv F S4x800000x64 .f32 :=
  select (broadcastInDim S4x800000x64 ![1] bcast_S800000_S4x800000x64_1 (inRangeK src))
    (Host.gather gather_S4x50000x64_S800000x1_S4x800000x64_02_1_n_n_1_1_4164 h (colK src))
    (broadcastInDim S4x800000x64 ![] bcast_S_S4x800000x64 (constant S_ .f32 0x7FC00000#32))

/-- The gathered rows scatter-added at the destinations, node `n`'s sum scaled by the inverse degree of `n`. -/
def aggT (tk : Cv F S4x800000x64 .f32) (dst : Cv F S800000 .i32) (dinv : Cv F S50000 .f32) : Cv F S4x50000x64 .f32 :=
  mulf (Host.scatterAdd scatter_S4x50000x64_S800000x1_S4x800000x64_02_1_1_1
      (broadcastInDim S4x50000x64 ![] bcast_S_S4x50000x64 (constant S_ .f32 0x00000000#32)) (colK dst) tk)
    (broadcastInDim S4x50000x64 ![0, 1, 2] bcast_S1x50000x1_S4x50000x64_0_1_2
      (broadcastInDim S1x50000x1 ![1] bcast_S50000_S1x50000x1_1 dinv))

/-- The mean aggregation of node features: gather at the sources, then scatter-add and scale. -/
def aggK' (h : Cv F S4x50000x64 .f32) (src dst : Cv F S800000 .i32) (dinv : Cv F S50000 .f32) : Cv F S4x50000x64 .f32 :=
  aggT (takeK h src) dst dinv

/-- The same from the edge list. -/
def aggK (h : Cv F S4x50000x64 .f32) (ei : Cv F S1x2x800000 .i32) : Cv F S4x50000x64 .f32 :=
  aggK' h (srcK ei) (dstK ei) (degInvK (dstK ei))

/-- Node features flattened to rows: `[4, 50000, 64]` as `[200000, 64]`. -/
def flatK (h : Cv F S4x50000x64 .f32) : Cv F S200000x64 .f32 := shapeCast S200000x64 h shapeCasts_S4x50000x64_S200000x64
/-- Rows read back as node features: `[200000, 64]` as `[4, 50000, 64]`. -/
def unflatK (g : Cv F S200000x64 .f32) : Cv F S4x50000x64 .f32 := shapeCast S4x50000x64 g shapeCasts_S200000x64_S4x50000x64
/-- A weight matrix transposed: output-major `[o, f]` to feature-major `[f, o]`. -/
def wTK (W : Cv F S64x64 .f32) : Cv F S64x64 .f32 := transpose S64x64 [1, 0] W transposes_S64x64_S64x64_1_0
/-- The bias as a `[1, 64]` row. -/
def rowK (bl : Cv F S64 .f32) : Cv F S1x64 .f32 := shapeCast S1x64 bl shapeCasts_S64_S1x64
/-- The slope as a `[1, 1]` cell. -/
def cellK (a : Cv F S_ .f32) : Cv F S1x1 .f32 := shapeCast S1x1 a shapeCasts_S_S1x1
/-- The input `[4, 3200000]` read as node features. -/
def featK (x : Cv F S4x3200000 .f32) : Cv F S4x50000x64 .f32 := shapeCast S4x50000x64 x shapeCasts_S4x3200000_S4x50000x64
/-- Node features written out as `[4, 3200000]`. -/
def unfeatK (h : Cv F S4x50000x64 .f32) : Cv F S4x3200000 .f32 := shapeCast S4x3200000 h shapeCasts_S4x50000x64_S4x3200000

/-! ## One layer, and the three in a row, on the extended reals -/

/-- What one launch leaves in its `[200000, 64]` output: the layer matrix of the flattened mean aggregation and
    features, the transposed weights, the bias row and the slope cell. -/
def launchK (h : Cv Ideal S4x50000x64 .f32) (src dst : Cv Ideal S800000 .i32) (dinv : Cv Ideal S50000 .f32)
    (Wl : Cv Ideal S64x64 .f32) (bl : Cv Ideal S64 .f32) (Wr : Cv Ideal S64x64 .f32) (a : Cv Ideal S_ .f32) : S200000x64.Idx → EReal :=
  layerMat (R := 200000) (flatK (aggK' h src dst dinv)) (flatK h) (wTK Wl) (wTK Wr) (rowK bl) (cellK a)

/-- One layer on node features: aggregate, launch, read the rows back as node features. -/
def stepK (h : Cv Ideal S4x50000x64 .f32) (ei : Cv Ideal S1x2x800000 .i32)
    (Wl : Cv Ideal S64x64 .f32) (bl : Cv Ideal S64 .f32) (Wr : Cv Ideal S64x64 .f32) (a : Cv Ideal S_ .f32) : Cv Ideal S4x50000x64 .f32 :=
  unflatK (launchK h (srcK ei) (dstK ei) (degInvK (dstK ei)) Wl bl Wr a)

/-- The whole program: three layers on the input read as node features, written out as `[4, 3200000]`. -/
def netK (x : Cv Ideal S4x3200000 .f32) (ei : Cv Ideal S1x2x800000 .i32)
    (Wl0 : Cv Ideal S64x64 .f32) (bl0 : Cv Ideal S64 .f32) (Wr0 : Cv Ideal S64x64 .f32) (a0 : Cv Ideal S_ .f32)
    (Wl1 : Cv Ideal S64x64 .f32) (bl1 : Cv Ideal S64 .f32) (Wr1 : Cv Ideal S64x64 .f32) (a1 : Cv Ideal S_ .f32)
    (Wl2 : Cv Ideal S64x64 .f32) (bl2 : Cv Ideal S64 .f32) (Wr2 : Cv Ideal S64x64 .f32) (a2 : Cv Ideal S_ .f32) : Cv Ideal S4x3200000 .f32 :=
  unfeatK (stepK (stepK (stepK (featK x) ei Wl0 bl0 Wr0 a0) ei Wl1 bl1 Wr1 a1) ei Wl2 bl2 Wr2 a2)

end Cert.KernelIdeal.Hand

end
-- ==== Proof.LibTRef.lean ====
/-
  A typed reference to a buffer carries a value of the reference's stated type to the buffer's own contents type and
  back along the equation of the two types. Carrying there and back is the identity, whatever the buffer is: the
  statement needs no knowledge of the program's buffer table.
-/
import Idealize.ShloMosaic.Lib.StableHlo

namespace Cert.TRefLemmas

open Idealize.ShloMosaic Idealize.ShloMosaic.StableHlo

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

end Cert.TRefLemmas
-- ==== Proof.KernelStretch.lean ====
/-
  Each stretch of host operations of the idealized kernel, read at the buffers later segments use, from ANY contents
  `W` it is entered with: the result is the stretch's operations applied to `W`'s contents at the buffers the stretch
  reads.  Stated over an arbitrary `W` so that the operands are opaque: nothing here looks inside a gather, a
  scatter-add or a reduction.
-/
import proofs.«162317_j38147899523429_1_alg».proof.Proof.Gen.KernelIdeal.Launch
import proofs.«162317_j38147899523429_1_alg».proof.Proof.KernelAgg
import proofs.«162317_j38147899523429_1_alg».proof.Proof.LibTRef
import Idealize.ShloMosaic.Lib.StableHlo.Run

set_option maxRecDepth 16384
set_option maxHeartbeats 1000000

noncomputable section

namespace Cert.KernelIdeal.Hand

open Idealize.ShloMosaic Idealize.ShloMosaic.StableHlo
open Cert.KernelIdeal Cert.KernelIdeal.Gen

variable (W : Valuation τ sig (Elt Ideal))

/-- Apply every operation's result equation in one pass and compare. -/
macro "stretch_read" : tactic =>
  `(tactic| (dsimp only [hostOps0, hostOps0_1, hostOps0_2, hostOps0_3, hostOps0_4, hostOps1, hostOps1_1, hostOps1_2, hostOps2, hostOps2_1, hostOps2_2, hostOps3]; after_results_simp; try rfl))

/-! ## Before the first launch -/

theorem s0_v2 : after (hostOps0 (F := Ideal)) W (Proc.devRef .tc main_v2) = srcK (W (Proc.devRef .tc main_arg1)) := by stretch_read
theorem s0_v4 : after (hostOps0 (F := Ideal)) W (Proc.devRef .tc main_v4) = dstK (W (Proc.devRef .tc main_arg1)) := by stretch_read
theorem s0_v15 : after (hostOps0 (F := Ideal)) W (Proc.devRef .tc main_v15) = degPosK (dstK (W (Proc.devRef .tc main_arg1))) := by stretch_read
theorem s0_v17 : after (hostOps0 (F := Ideal)) W (Proc.devRef .tc main_v17) = degRecipK (dstK (W (Proc.devRef .tc main_arg1))) := by stretch_read
theorem s0_cst4 : after (hostOps0 (F := Ideal)) W (Proc.devRef .tc main_cst_4) = zeroK := by stretch_read
theorem s01_v18 : after (hostOps0_1 (F := Ideal)) W (Proc.devRef .tc main_v18)
    = whereK (W (Proc.devRef .tc main_v15)) (W (Proc.devRef .tc main_v17)) (W (Proc.devRef .tc main_cst_4)) := by stretch_read
theorem s02_v19 : after (hostOps0_2 (F := Ideal)) W (Proc.devRef .tc main_v19) = featK (W (Proc.devRef .tc main_arg0)) := by stretch_read

/-! ## The three gathers -/

/-- The gather's stretch names its buffers through typed references; a value carried to a buffer's own contents type
    and back, or along the equation of two equal types, is the value. -/
theorem t0 : after (hostOps0_3 (F := Ideal)) W (Proc.devRef .tc main_v20) = takeK (W (Proc.devRef .tc main_v19)) (W (Proc.devRef .tc main_v2)) := by
  dsimp only [hostOps0_3]
  after_results_simp
  simp only [Cert.TRefLemmas.ofBuf_toBuf]
  have e2 : ∀ u : main_v2.ty.Contents (Elt Ideal), (TRef.of main_v2 : TRef sig ⟨S800000, .i32⟩).ofBuf u = u := fun _ => rfl
  have ei : ∀ u : main_v19.ty.Contents (Elt Ideal), (TRef.of main_v19 : TRef sig ⟨S4x50000x64, .f32⟩).ofBuf u = u := fun _ => rfl
  have eo : ∀ v : (⟨S4x800000x64, .f32⟩ : BufTy).Contents (Elt Ideal), (TRef.of main_v20 : TRef sig ⟨S4x800000x64, .f32⟩).toBuf v = v := fun _ => rfl
  rw [eo]
  simp only [e2, ei]
  rfl
/-- The gather's stretch names its buffers through typed references; a value carried to a buffer's own contents type
    and back, or along the equation of two equal types, is the value. -/
theorem t1 : after (hostOps1_1 (F := Ideal)) W (Proc.devRef .tc main_v40) = takeK (W (Proc.devRef .tc main_v39)) (W (Proc.devRef .tc main_v2)) := by
  dsimp only [hostOps1_1]
  after_results_simp
  simp only [Cert.TRefLemmas.ofBuf_toBuf]
  have e2 : ∀ u : main_v2.ty.Contents (Elt Ideal), (TRef.of main_v2 : TRef sig ⟨S800000, .i32⟩).ofBuf u = u := fun _ => rfl
  have ei : ∀ u : main_v39.ty.Contents (Elt Ideal), (TRef.of main_v39 : TRef sig ⟨S4x50000x64, .f32⟩).ofBuf u = u := fun _ => rfl
  have eo : ∀ v : (⟨S4x800000x64, .f32⟩ : BufTy).Contents (Elt Ideal), (TRef.of main_v40 : TRef sig ⟨S4x800000x64, .f32⟩).toBuf v = v := fun _ => rfl
  rw [eo]
  simp only [e2, ei]
  rfl
/-- The gather's stretch names its buffers through typed references; a value carried to a buffer's own contents type
    and back, or along the equation of two equal types, is the value. -/
theorem t2 : after (hostOps2_1 (F := Ideal)) W (Proc.devRef .tc main_v60) = takeK (W (Proc.devRef .tc main_v59)) (W (Proc.devRef .tc main_v2)) := by
  dsimp only [hostOps2_1]
  after_results_simp
  simp only [Cert.TRefLemmas.ofBuf_toBuf]
  have e2 : ∀ u : main_v2.ty.Contents (Elt Ideal), (TRef.of main_v2 : TRef sig ⟨S800000, .i32⟩).ofBuf u = u := fun _ => rfl
  have ei : ∀ u : main_v59.ty.Contents (Elt Ideal), (TRef.of main_v59 : TRef sig ⟨S4x50000x64, .f32⟩).ofBuf u = u := fun _ => rfl
  have eo : ∀ v : (⟨S4x800000x64, .f32⟩ : BufTy).Contents (Elt Ideal), (TRef.of main_v60 : TRef sig ⟨S4x800000x64, .f32⟩).toBuf v = v := fun _ => rfl
  rw [eo]
  simp only [e2, ei]
  rfl

/-! ## The stretch that writes a launch's six arrays -/

theorem p0_0 : after (hostOps0_4 (F := Ideal)) W (Proc.devRef .tc main_v32) = flatK (aggT (W (Proc.devRef .tc main_v20)) (W (Proc.devRef .tc main_v4)) (W (Proc.devRef .tc main_v18))) := by stretch_read
theorem p0_1 : after (hostOps0_4 (F := Ideal)) W (Proc.devRef .tc main_v33) = flatK (W (Proc.devRef .tc main_v19)) := by stretch_read
theorem p0_2 : after (hostOps0_4 (F := Ideal)) W (Proc.devRef .tc main_v34) = wTK (W (Proc.devRef .tc main_arg2)) := by stretch_read
theorem p0_3 : after (hostOps0_4 (F := Ideal)) W (Proc.devRef .tc main_v35) = wTK (W (Proc.devRef .tc main_arg4)) := by stretch_read
theorem p0_4 : after (hostOps0_4 (F := Ideal)) W (Proc.devRef .tc main_v36) = rowK (W (Proc.devRef .tc main_arg3)) := by stretch_read
theorem p0_5 : after (hostOps0_4 (F := Ideal)) W (Proc.devRef .tc main_v37) = cellK (W (Proc.devRef .tc main_arg5)) := by stretch_read

theorem p1_0 : after (hostOps1_2 (F := Ideal)) W (Proc.devRef .tc main_v52) = flatK (aggT (W (Proc.devRef .tc main_v40)) (W (Proc.devRef .tc main_v4)) (W (Proc.devRef .tc main_v18))) := by stretch_read
theorem p1_1 : after (hostOps1_2 (F := Ideal)) W (Proc.devRef .tc main_v53) = flatK (W (Proc.devRef .tc main_v39)) := by stretch_read
theorem p1_2 : after (hostOps1_2 (F := Ideal)) W (Proc.devRef .tc main_v54) = wTK (W (Proc.devRef .tc main_arg6)) := by stretch_read
theorem p1_3 : after (hostOps1_2 (F := Ideal)) W (Proc.devRef .tc main_v55) = wTK (W (Proc.devRef .tc main_arg8)) := by stretch_read
theorem p1_4 : after (hostOps1_2 (F := Ideal)) W (Proc.devRef .tc main_v56) = rowK (W (Proc.devRef .tc main_arg7)) := by stretch_read
theorem p1_5 : after (hostOps1_2 (F := Ideal)) W (Proc.devRef .tc main_v57) = cellK (W (Proc.devRef .tc main_arg9)) := by stretch_read

theorem p2_0 : after (hostOps2_2 (F := Ideal)) W (Proc.devRef .tc main_v72) = flatK (aggT (W (Proc.devRef .tc main_v60)) (W (Proc.devRef .tc main_v4)) (W (Proc.devRef .tc main_v18))) := by stretch_read
theorem p2_1 : after (hostOps2_2 (F := Ideal)) W (Proc.devRef .tc main_v73) = flatK (W (Proc.devRef .tc main_v59)) := by stretch_read
theorem p2_2 : after (hostOps2_2 (F := Ideal)) W (Proc.devRef .tc main_v74) = wTK (W (Proc.devRef .tc main_arg10)) := by stretch_read
theorem p2_3 : after (hostOps2_2 (F := Ideal)) W (Proc.devRef .tc main_v75) = wTK (W (Proc.devRef .tc main_arg12)) := by stretch_read
theorem p2_4 : after (hostOps2_2 (F := Ideal)) W (Proc.devRef .tc main_v76) = rowK (W (Proc.devRef .tc main_arg11)) := by stretch_read
theorem p2_5 : after (hostOps2_2 (F := Ideal)) W (Proc.devRef .tc main_v77) = cellK (W (Proc.devRef .tc main_arg13)) := by stretch_read

/-! ## A launch's rows read back as node features, and the result written out -/

theorem r1 : after (hostOps1 (F := Ideal)) W (Proc.devRef .tc main_v39) = unflatK (W (Proc.devRef .tc main_v38)) := by stretch_read
theorem r2 : after (hostOps2 (F := Ideal)) W (Proc.devRef .tc main_v59) = unflatK (W (Proc.devRef .tc main_v58)) := by stretch_read
theorem r3 : after (hostOps3 (F := Ideal)) W (Proc.devRef .tc main_v80) = unfeatK (unflatK (W (Proc.devRef .tc main_v78))) := by stretch_read

end Cert.KernelIdeal.Hand

end
-- ==== Proof.KernelValue.lean ====
/-
  The idealized kernel's value: the contents of the result buffer at the last segment boundary, unwound to the
  launch memory.

  Reading backwards.  The last stretch reads the third launch's output back as node features and writes them out.  A
  launch's output array holds the layer matrix of the six arrays the launch finds (the three region modules).  Those six
  arrays are written by the host stretch before the launch: the mean aggregation of the current features flattened to
  rows, the features flattened to rows, the two weight matrices transposed, the bias as a row, the slope as a cell.
  The stretch reads the gathered rows (the stretch before it), the current features (the previous launch's output read
  back, or the input), the source and destination nodes and the inverse degrees (computed once, before the first
  launch, from the edge list) and the layer's weight arguments.  None of those is written by any launch or by any later
  stretch, so each is carried forward, boundary by boundary, from where it was computed.
-/
import proofs.«162317_j38147899523429_1_alg».proof.Proof.Gen.KernelIdeal.Frame
import proofs.«162317_j38147899523429_1_alg».proof.Proof.Region0
import proofs.«162317_j38147899523429_1_alg».proof.Proof.Region1
import proofs.«162317_j38147899523429_1_alg».proof.Proof.Region2
import proofs.«162317_j38147899523429_1_alg».proof.Proof.KernelAgg
import proofs.«162317_j38147899523429_1_alg».proof.Proof.KernelStretch
import Idealize.ShloMosaic.Lib.StableHlo.Run

set_option maxRecDepth 16384
set_option maxHeartbeats 1000000

noncomputable section

namespace Cert.KernelIdeal.Hand

open Idealize.ShloMosaic Idealize.ShloMosaic.TcCoe Idealize.ShloMosaic.StableHlo
open Idealize.SL Idealize.SL.Sem
open Cert.KernelIdeal Cert.KernelIdeal.Gen Cert.Spec

variable (m : (ℓ : Loc nD τ sig) → Buf (Elt Ideal) ℓ) (ρ : Dev nD → PrngReg) (c : Dev nD)

set_option quotPrecheck false in
local notation "⟪" b "⟫" => m ((c : Thread nD τ).loc b)

/-- No operation of a literal stretch writes a given buffer: each operation writes one buffer, another one. -/
macro "nw_side" : tactic =>
  `(tactic| (refine List.forall_iff_forall_mem.mp ?_; simp only [hostOps0, hostOps0_1, hostOps0_2, hostOps0_3, hostOps0_4, hostOps1, hostOps1_1, hostOps1_2, hostOps2, hostOps2_1, hostOps2_2, hostOps3, List.Forall, StableHlo.nullary_writes, StableHlo.unary_writes, StableHlo.binary_writes, StableHlo.ternary_writes, StableHlo.quaternary_writes, StableHlo.reshape_writes, StableHlo.binaryIndexed_writes, Finset.mem_singleton]; (repeat' apply And.intro); all_goals exact StableHlo.devRef_ne_of_ne (by decide)))

/-! ## Before the first launch -/

theorem a1_v2 : W1 m ρ c (Proc.devRef .tc main_v2) = srcK ⟪main_arg1⟫ := by
  show after (hostOps0 (F := Ideal)) (W0 m ρ c) (Proc.devRef .tc main_v2) = _
  rw [s0_v2]; all_goals rfl
theorem a1_v4 : W1 m ρ c (Proc.devRef .tc main_v4) = dstK ⟪main_arg1⟫ := by
  show after (hostOps0 (F := Ideal)) (W0 m ρ c) (Proc.devRef .tc main_v4) = _
  rw [s0_v4]; all_goals rfl
theorem a1_v15 : W1 m ρ c (Proc.devRef .tc main_v15) = degPosK (dstK ⟪main_arg1⟫) := by
  show after (hostOps0 (F := Ideal)) (W0 m ρ c) (Proc.devRef .tc main_v15) = _
  rw [s0_v15]; all_goals rfl
theorem a1_v17 : W1 m ρ c (Proc.devRef .tc main_v17) = degRecipK (dstK ⟪main_arg1⟫) := by
  show after (hostOps0 (F := Ideal)) (W0 m ρ c) (Proc.devRef .tc main_v17) = _
  rw [s0_v17]; all_goals rfl
theorem a1_cst_4 : W1 m ρ c (Proc.devRef .tc main_cst_4) = zeroK := by
  show after (hostOps0 (F := Ideal)) (W0 m ρ c) (Proc.devRef .tc main_cst_4) = _
  rw [s0_cst4]
theorem a2_v18 : W2 m ρ c (Proc.devRef .tc main_v18) = degInvK (dstK ⟪main_arg1⟫) := by
  show after (hostOps0_1 (F := Ideal)) (W1 m ρ c) (Proc.devRef .tc main_v18) = _
  rw [s01_v18, a1_v15, a1_v17, a1_cst_4]; all_goals rfl
theorem a2_arg0 : W2 m ρ c (Proc.devRef .tc main_arg0) = ⟪main_arg0⟫ :=
  ((StableHlo.after_of_forall_not_mem (b := Proc.devRef .tc main_arg0) (hostOps0_1 (F := Ideal)) (W1 m ρ c) (by nw_side) : W2 m ρ c (Proc.devRef .tc main_arg0) = W1 m ρ c (Proc.devRef .tc main_arg0))).trans (((StableHlo.after_of_forall_not_mem (b := Proc.devRef .tc main_arg0) (hostOps0 (F := Ideal)) (W0 m ρ c) (by nw_side) : W1 m ρ c (Proc.devRef .tc main_arg0) = W0 m ρ c (Proc.devRef .tc main_arg0))).trans ((rfl : W0 m ρ c (Proc.devRef .tc main_arg0) = ⟪main_arg0⟫)))
theorem a3_v19 : W3 m ρ c (Proc.devRef .tc main_v19) = featK ⟪main_arg0⟫ := by
  show after (hostOps0_2 (F := Ideal)) (W2 m ρ c) (Proc.devRef .tc main_v19) = _
  rw [s02_v19, a2_arg0]
theorem a3_v2 : W3 m ρ c (Proc.devRef .tc main_v2) = srcK ⟪main_arg1⟫ :=
  ((StableHlo.after_of_forall_not_mem (b := Proc.devRef .tc main_v2) (hostOps0_2 (F := Ideal)) (W2 m ρ c) (by nw_side) : W3 m ρ c (Proc.devRef .tc main_v2) = W2 m ρ c (Proc.devRef .tc main_v2))).trans (((StableHlo.after_of_forall_not_mem (b := Proc.devRef .tc main_v2) (hostOps0_1 (F := Ideal)) (W1 m ρ c) (by nw_side) : W2 m ρ c (Proc.devRef .tc main_v2) = W1 m ρ c (Proc.devRef .tc main_v2))).trans (a1_v2 m ρ c))
theorem a4_v20 : W4 m ρ c (Proc.devRef .tc main_v20) = takeK (featK ⟪main_arg0⟫) (srcK ⟪main_arg1⟫) := by
  show after (hostOps0_3 (F := Ideal)) (W3 m ρ c) (Proc.devRef .tc main_v20) = _
  rw [t0, a3_v19, a3_v2]
theorem a4_v4 : W4 m ρ c (Proc.devRef .tc main_v4) = dstK ⟪main_arg1⟫ :=
  ((StableHlo.after_of_forall_not_mem (b := Proc.devRef .tc main_v4) (hostOps0_3 (F := Ideal)) (W3 m ρ c) (by nw_side) : W4 m ρ c (Proc.devRef .tc main_v4) = W3 m ρ c (Proc.devRef .tc main_v4))).trans (((StableHlo.after_of_forall_not_mem (b := Proc.devRef .tc main_v4) (hostOps0_2 (F := Ideal)) (W2 m ρ c) (by nw_side) : W3 m ρ c (Proc.devRef .tc main_v4) = W2 m ρ c (Proc.devRef .tc main_v4))).trans (((StableHlo.after_of_forall_not_mem (b := Proc.devRef .tc main_v4) (hostOps0_1 (F := Ideal)) (W1 m ρ c) (by nw_side) : W2 m ρ c (Proc.devRef .tc main_v4) = W1 m ρ c (Proc.devRef .tc main_v4))).trans (a1_v4 m ρ c)))
theorem a4_v18 : W4 m ρ c (Proc.devRef .tc main_v18) = degInvK (dstK ⟪main_arg1⟫) :=
  ((StableHlo.after_of_forall_not_mem (b := Proc.devRef .tc main_v18) (hostOps0_3 (F := Ideal)) (W3 m ρ c) (by nw_side) : W4 m ρ c (Proc.devRef .tc main_v18) = W3 m ρ c (Proc.devRef .tc main_v18))).trans (((StableHlo.after_of_forall_not_mem (b := Proc.devRef .tc main_v18) (hostOps0_2 (F := Ideal)) (W2 m ρ c) (by nw_side) : W3 m ρ c (Proc.devRef .tc main_v18) = W2 m ρ c (Proc.devRef .tc main_v18))).trans (a2_v18 m ρ c))
theorem a4_v19 : W4 m ρ c (Proc.devRef .tc main_v19) = featK ⟪main_arg0⟫ :=
  ((StableHlo.after_of_forall_not_mem (b := Proc.devRef .tc main_v19) (hostOps0_3 (F := Ideal)) (W3 m ρ c) (by nw_side) : W4 m ρ c (Proc.devRef .tc main_v19) = W3 m ρ c (Proc.devRef .tc main_v19))).trans (a3_v19 m ρ c)
theorem a4_arg2 : W4 m ρ c (Proc.devRef .tc main_arg2) = ⟪main_arg2⟫ :=
  ((StableHlo.after_of_forall_not_mem (b := Proc.devRef .tc main_arg2) (hostOps0_3 (F := Ideal)) (W3 m ρ c) (by nw_side) : W4 m ρ c (Proc.devRef .tc main_arg2) = W3 m ρ c (Proc.devRef .tc main_arg2))).trans (((StableHlo.after_of_forall_not_mem (b := Proc.devRef .tc main_arg2) (hostOps0_2 (F := Ideal)) (W2 m ρ c) (by nw_side) : W3 m ρ c (Proc.devRef .tc main_arg2) = W2 m ρ c (Proc.devRef .tc main_arg2))).trans (((StableHlo.after_of_forall_not_mem (b := Proc.devRef .tc main_arg2) (hostOps0_1 (F := Ideal)) (W1 m ρ c) (by nw_side) : W2 m ρ c (Proc.devRef .tc main_arg2) = W1 m ρ c (Proc.devRef .tc main_arg2))).trans (((StableHlo.after_of_forall_not_mem (b := Proc.devRef .tc main_arg2) (hostOps0 (F := Ideal)) (W0 m ρ c) (by nw_side) : W1 m ρ c (Proc.devRef .tc main_arg2) = W0 m ρ c (Proc.devRef .tc main_arg2))).trans ((rfl : W0 m ρ c (Proc.devRef .tc main_arg2) = ⟪main_arg2⟫)))))
theorem a4_arg3 : W4 m ρ c (Proc.devRef .tc main_arg3) = ⟪main_arg3⟫ :=
  ((StableHlo.after_of_forall_not_mem (b := Proc.devRef .tc main_arg3) (hostOps0_3 (F := Ideal)) (W3 m ρ c) (by nw_side) : W4 m ρ c (Proc.devRef .tc main_arg3) = W3 m ρ c (Proc.devRef .tc main_arg3))).trans (((StableHlo.after_of_forall_not_mem (b := Proc.devRef .tc main_arg3) (hostOps0_2 (F := Ideal)) (W2 m ρ c) (by nw_side) : W3 m ρ c (Proc.devRef .tc main_arg3) = W2 m ρ c (Proc.devRef .tc main_arg3))).trans (((StableHlo.after_of_forall_not_mem (b := Proc.devRef .tc main_arg3) (hostOps0_1 (F := Ideal)) (W1 m ρ c) (by nw_side) : W2 m ρ c (Proc.devRef .tc main_arg3) = W1 m ρ c (Proc.devRef .tc main_arg3))).trans (((StableHlo.after_of_forall_not_mem (b := Proc.devRef .tc main_arg3) (hostOps0 (F := Ideal)) (W0 m ρ c) (by nw_side) : W1 m ρ c (Proc.devRef .tc main_arg3) = W0 m ρ c (Proc.devRef .tc main_arg3))).trans ((rfl : W0 m ρ c (Proc.devRef .tc main_arg3) = ⟪main_arg3⟫)))))
theorem a4_arg4 : W4 m ρ c (Proc.devRef .tc main_arg4) = ⟪main_arg4⟫ :=
  ((StableHlo.after_of_forall_not_mem (b := Proc.devRef .tc main_arg4) (hostOps0_3 (F := Ideal)) (W3 m ρ c) (by nw_side) : W4 m ρ c (Proc.devRef .tc main_arg4) = W3 m ρ c (Proc.devRef .tc main_arg4))).trans (((StableHlo.after_of_forall_not_mem (b := Proc.devRef .tc main_arg4) (hostOps0_2 (F := Ideal)) (W2 m ρ c) (by nw_side) : W3 m ρ c (Proc.devRef .tc main_arg4) = W2 m ρ c (Proc.devRef .tc main_arg4))).trans (((StableHlo.after_of_forall_not_mem (b := Proc.devRef .tc main_arg4) (hostOps0_1 (F := Ideal)) (W1 m ρ c) (by nw_side) : W2 m ρ c (Proc.devRef .tc main_arg4) = W1 m ρ c (Proc.devRef .tc main_arg4))).trans (((StableHlo.after_of_forall_not_mem (b := Proc.devRef .tc main_arg4) (hostOps0 (F := Ideal)) (W0 m ρ c) (by nw_side) : W1 m ρ c (Proc.devRef .tc main_arg4) = W0 m ρ c (Proc.devRef .tc main_arg4))).trans ((rfl : W0 m ρ c (Proc.devRef .tc main_arg4) = ⟪main_arg4⟫)))))
theorem a4_arg5 : W4 m ρ c (Proc.devRef .tc main_arg5) = ⟪main_arg5⟫ :=
  ((StableHlo.after_of_forall_not_mem (b := Proc.devRef .tc main_arg5) (hostOps0_3 (F := Ideal)) (W3 m ρ c) (by nw_side) : W4 m ρ c (Proc.devRef .tc main_arg5) = W3 m ρ c (Proc.devRef .tc main_arg5))).trans (((StableHlo.after_of_forall_not_mem (b := Proc.devRef .tc main_arg5) (hostOps0_2 (F := Ideal)) (W2 m ρ c) (by nw_side) : W3 m ρ c (Proc.devRef .tc main_arg5) = W2 m ρ c (Proc.devRef .tc main_arg5))).trans (((StableHlo.after_of_forall_not_mem (b := Proc.devRef .tc main_arg5) (hostOps0_1 (F := Ideal)) (W1 m ρ c) (by nw_side) : W2 m ρ c (Proc.devRef .tc main_arg5) = W1 m ρ c (Proc.devRef .tc main_arg5))).trans (((StableHlo.after_of_forall_not_mem (b := Proc.devRef .tc main_arg5) (hostOps0 (F := Ideal)) (W0 m ρ c) (by nw_side) : W1 m ρ c (Proc.devRef .tc main_arg5) = W0 m ρ c (Proc.devRef .tc main_arg5))).trans ((rfl : W0 m ρ c (Proc.devRef .tc main_arg5) = ⟪main_arg5⟫)))))

theorem e0_0 : V5 m ρ c main_v32 = flatK (aggK' (featK ⟪main_arg0⟫) (srcK ⟪main_arg1⟫) (dstK ⟪main_arg1⟫) (degInvK (dstK ⟪main_arg1⟫))) := by
  show after (hostOps0_4 (F := Ideal)) (W4 m ρ c) (Proc.devRef .tc main_v32) = _
  rw [p0_0, a4_v20, a4_v4, a4_v18]; all_goals rfl
theorem e0_1 : V5 m ρ c main_v33 = flatK (featK ⟪main_arg0⟫) := by
  show after (hostOps0_4 (F := Ideal)) (W4 m ρ c) (Proc.devRef .tc main_v33) = _
  rw [p0_1, a4_v19]
theorem e0_2 : V5 m ρ c main_v34 = wTK ⟪main_arg2⟫ := by
  show after (hostOps0_4 (F := Ideal)) (W4 m ρ c) (Proc.devRef .tc main_v34) = _
  rw [p0_2, a4_arg2]
theorem e0_3 : V5 m ρ c main_v35 = wTK ⟪main_arg4⟫ := by
  show after (hostOps0_4 (F := Ideal)) (W4 m ρ c) (Proc.devRef .tc main_v35) = _
  rw [p0_3, a4_arg4]
theorem e0_4 : V5 m ρ c main_v36 = rowK ⟪main_arg3⟫ := by
  show after (hostOps0_4 (F := Ideal)) (W4 m ρ c) (Proc.devRef .tc main_v36) = _
  rw [p0_4, a4_arg3]
theorem e0_5 : V5 m ρ c main_v37 = cellK ⟪main_arg5⟫ := by
  show after (hostOps0_4 (F := Ideal)) (W4 m ρ c) (Proc.devRef .tc main_v37) = _
  rw [p0_5, a4_arg5]

/-- The node features after the first layer … -/
abbrev h1 : Cv Ideal S4x50000x64 .f32 := stepK (featK ⟪main_arg0⟫) ⟪main_arg1⟫ ⟪main_arg2⟫ ⟪main_arg3⟫ ⟪main_arg4⟫ ⟪main_arg5⟫
/-- … after the second … -/
abbrev h2 : Cv Ideal S4x50000x64 .f32 := stepK (h1 m c) ⟪main_arg1⟫ ⟪main_arg6⟫ ⟪main_arg7⟫ ⟪main_arg8⟫ ⟪main_arg9⟫
/-- … and after the third. -/
abbrev h3 : Cv Ideal S4x50000x64 .f32 := stepK (h2 m c) ⟪main_arg1⟫ ⟪main_arg10⟫ ⟪main_arg11⟫ ⟪main_arg12⟫ ⟪main_arg13⟫

/-! ## The first launch, and up to the second -/

theorem a6_v38 : W6 m ρ c (Proc.devRef .tc main_v38) = launchK (featK ⟪main_arg0⟫) (srcK ⟪main_arg1⟫) (dstK ⟪main_arg1⟫) (degInvK (dstK ⟪main_arg1⟫)) ⟪main_arg2⟫ ⟪main_arg3⟫ ⟪main_arg4⟫ ⟪main_arg5⟫ := by
  refine (W6_arr m ρ c 6).trans ?_
  rw [final0]
  show layerMat (R := 200000) (V5 m ρ c main_v32) (V5 m ρ c main_v33) (V5 m ρ c main_v34) (V5 m ρ c main_v35) (V5 m ρ c main_v36) (V5 m ρ c main_v37) = _
  rw [e0_0, e0_1, e0_2, e0_3, e0_4, e0_5]
  rfl
theorem a7_v39 : W7 m ρ c (Proc.devRef .tc main_v39) = h1 m c := by
  show after (hostOps1 (F := Ideal)) (W6 m ρ c) (Proc.devRef .tc main_v39) = _
  rw [r1, a6_v38]; all_goals rfl
theorem a7_v2 : W7 m ρ c (Proc.devRef .tc main_v2) = srcK ⟪main_arg1⟫ :=
  ((StableHlo.after_of_forall_not_mem (b := Proc.devRef .tc main_v2) (hostOps1 (F := Ideal)) (W6 m ρ c) (by nw_side) : W7 m ρ c (Proc.devRef .tc main_v2) = W6 m ρ c (Proc.devRef .tc main_v2))).trans (((W6_of_ne m ρ c main_v2 (by decide))).trans (((StableHlo.after_of_forall_not_mem (b := Proc.devRef .tc main_v2) (hostOps0_4 (F := Ideal)) (W4 m ρ c) (by nw_side) : W5 m ρ c (Proc.devRef .tc main_v2) = W4 m ρ c (Proc.devRef .tc main_v2))).trans (((StableHlo.after_of_forall_not_mem (b := Proc.devRef .tc main_v2) (hostOps0_3 (F := Ideal)) (W3 m ρ c) (by nw_side) : W4 m ρ c (Proc.devRef .tc main_v2) = W3 m ρ c (Proc.devRef .tc main_v2))).trans (((StableHlo.after_of_forall_not_mem (b := Proc.devRef .tc main_v2) (hostOps0_2 (F := Ideal)) (W2 m ρ c) (by nw_side) : W3 m ρ c (Proc.devRef .tc main_v2) = W2 m ρ c (Proc.devRef .tc main_v2))).trans (((StableHlo.after_of_forall_not_mem (b := Proc.devRef .tc main_v2) (hostOps0_1 (F := Ideal)) (W1 m ρ c) (by nw_side) : W2 m ρ c (Proc.devRef .tc main_v2) = W1 m ρ c (Proc.devRef .tc main_v2))).trans (a1_v2 m ρ c))))))
theorem a8_v40 : W8 m ρ c (Proc.devRef .tc main_v40) = takeK (h1 m c) (srcK ⟪main_arg1⟫) := by
  show after (hostOps1_1 (F := Ideal)) (W7 m ρ c) (Proc.devRef .tc main_v40) = _
  rw [t1, a7_v39, a7_v2]
theorem a8_v4 : W8 m ρ c (Proc.devRef .tc main_v4) = dstK ⟪main_arg1⟫ :=
  ((StableHlo.after_of_forall_not_mem (b := Proc.devRef .tc main_v4) (hostOps1_1 (F := Ideal)) (W7 m ρ c) (by nw_side) : W8 m ρ c (Proc.devRef .tc main_v4) = W7 m ρ c (Proc.devRef .tc main_v4))).trans (((StableHlo.after_of_forall_not_mem (b := Proc.devRef .tc main_v4) (hostOps1 (F := Ideal)) (W6 m ρ c) (by nw_side) : W7 m ρ c (Proc.devRef .tc main_v4) = W6 m ρ c (Proc.devRef .tc main_v4))).trans (((W6_of_ne m ρ c main_v4 (by decide))).trans (((StableHlo.after_of_forall_not_mem (b := Proc.devRef .tc main_v4) (hostOps0_4 (F := Ideal)) (W4 m ρ c) (by nw_side) : W5 m ρ c (Proc.devRef .tc main_v4) = W4 m ρ c (Proc.devRef .tc main_v4))).trans (((StableHlo.after_of_forall_not_mem (b := Proc.devRef .tc main_v4) (hostOps0_3 (F := Ideal)) (W3 m ρ c) (by nw_side) : W4 m ρ c (Proc.devRef .tc main_v4) = W3 m ρ c (Proc.devRef .tc main_v4))).trans (((StableHlo.after_of_forall_not_mem (b := Proc.devRef .tc main_v4) (hostOps0_2 (F := Ideal)) (W2 m ρ c) (by nw_side) : W3 m ρ c (Proc.devRef .tc main_v4) = W2 m ρ c (Proc.devRef .tc main_v4))).trans (((StableHlo.after_of_forall_not_mem (b := Proc.devRef .tc main_v4) (hostOps0_1 (F := Ideal)) (W1 m ρ c) (by nw_side) : W2 m ρ c (Proc.devRef .tc main_v4) = W1 m ρ c (Proc.devRef .tc main_v4))).trans (a1_v4 m ρ c)))))))
theorem a8_v18 : W8 m ρ c (Proc.devRef .tc main_v18) = degInvK (dstK ⟪main_arg1⟫) :=
  ((StableHlo.after_of_forall_not_mem (b := Proc.devRef .tc main_v18) (hostOps1_1 (F := Ideal)) (W7 m ρ c) (by nw_side) : W8 m ρ c (Proc.devRef .tc main_v18) = W7 m ρ c (Proc.devRef .tc main_v18))).trans (((StableHlo.after_of_forall_not_mem (b := Proc.devRef .tc main_v18) (hostOps1 (F := Ideal)) (W6 m ρ c) (by nw_side) : W7 m ρ c (Proc.devRef .tc main_v18) = W6 m ρ c (Proc.devRef .tc main_v18))).trans (((W6_of_ne m ρ c main_v18 (by decide))).trans (((StableHlo.after_of_forall_not_mem (b := Proc.devRef .tc main_v18) (hostOps0_4 (F := Ideal)) (W4 m ρ c) (by nw_side) : W5 m ρ c (Proc.devRef .tc main_v18) = W4 m ρ c (Proc.devRef .tc main_v18))).trans (((StableHlo.after_of_forall_not_mem (b := Proc.devRef .tc main_v18) (hostOps0_3 (F := Ideal)) (W3 m ρ c) (by nw_side) : W4 m ρ c (Proc.devRef .tc main_v18) = W3 m ρ c (Proc.devRef .tc main_v18))).trans (((StableHlo.after_of_forall_not_mem (b := Proc.devRef .tc main_v18) (hostOps0_2 (F := Ideal)) (W2 m ρ c) (by nw_side) : W3 m ρ c (Proc.devRef .tc main_v18) = W2 m ρ c (Proc.devRef .tc main_v18))).trans (a2_v18 m ρ c))))))
theorem a8_v39 : W8 m ρ c (Proc.devRef .tc main_v39) = h1 m c :=
  ((StableHlo.after_of_forall_not_mem (b := Proc.devRef .tc main_v39) (hostOps1_1 (F := Ideal)) (W7 m ρ c) (by nw_side) : W8 m ρ c (Proc.devRef .tc main_v39) = W7 m ρ c (Proc.devRef .tc main_v39))).trans (a7_v39 m ρ c)
theorem a8_arg6 : W8 m ρ c (Proc.devRef .tc main_arg6) = ⟪main_arg6⟫ :=
  ((StableHlo.after_of_forall_not_mem (b := Proc.devRef .tc main_arg6) (hostOps1_1 (F := Ideal)) (W7 m ρ c) (by nw_side) : W8 m ρ c (Proc.devRef .tc main_arg6) = W7 m ρ c (Proc.devRef .tc main_arg6))).trans (((StableHlo.after_of_forall_not_mem (b := Proc.devRef .tc main_arg6) (hostOps1 (F := Ideal)) (W6 m ρ c) (by nw_side) : W7 m ρ c (Proc.devRef .tc main_arg6) = W6 m ρ c (Proc.devRef .tc main_arg6))).trans (((W6_of_ne m ρ c main_arg6 (by decide))).trans (((StableHlo.after_of_forall_not_mem (b := Proc.devRef .tc main_arg6) (hostOps0_4 (F := Ideal)) (W4 m ρ c) (by nw_side) : W5 m ρ c (Proc.devRef .tc main_arg6) = W4 m ρ c (Proc.devRef .tc main_arg6))).trans (((StableHlo.after_of_forall_not_mem (b := Proc.devRef .tc main_arg6) (hostOps0_3 (F := Ideal)) (W3 m ρ c) (by nw_side) : W4 m ρ c (Proc.devRef .tc main_arg6) = W3 m ρ c (Proc.devRef .tc main_arg6))).trans (((StableHlo.after_of_forall_not_mem (b := Proc.devRef .tc main_arg6) (hostOps0_2 (F := Ideal)) (W2 m ρ c) (by nw_side) : W3 m ρ c (Proc.devRef .tc main_arg6) = W2 m ρ c (Proc.devRef .tc main_arg6))).trans (((StableHlo.after_of_forall_not_mem (b := Proc.devRef .tc main_arg6) (hostOps0_1 (F := Ideal)) (W1 m ρ c) (by nw_side) : W2 m ρ c (Proc.devRef .tc main_arg6) = W1 m ρ c (Proc.devRef .tc main_arg6))).trans (((StableHlo.after_of_forall_not_mem (b := Proc.devRef .tc main_arg6) (hostOps0 (F := Ideal)) (W0 m ρ c) (by nw_side) : W1 m ρ c (Proc.devRef .tc main_arg6) = W0 m ρ c (Proc.devRef .tc main_arg6))).trans ((rfl : W0 m ρ c (Proc.devRef .tc main_arg6) = ⟪main_arg6⟫)))))))))
theorem a8_arg7 : W8 m ρ c (Proc.devRef .tc main_arg7) = ⟪main_arg7⟫ :=
  ((StableHlo.after_of_forall_not_mem (b := Proc.devRef .tc main_arg7) (hostOps1_1 (F := Ideal)) (W7 m ρ c) (by nw_side) : W8 m ρ c (Proc.devRef .tc main_arg7) = W7 m ρ c (Proc.devRef .tc main_arg7))).trans (((StableHlo.after_of_forall_not_mem (b := Proc.devRef .tc main_arg7) (hostOps1 (F := Ideal)) (W6 m ρ c) (by nw_side) : W7 m ρ c (Proc.devRef .tc main_arg7) = W6 m ρ c (Proc.devRef .tc main_arg7))).trans (((W6_of_ne m ρ c main_arg7 (by decide))).trans (((StableHlo.after_of_forall_not_mem (b := Proc.devRef .tc main_arg7) (hostOps0_4 (F := Ideal)) (W4 m ρ c) (by nw_side) : W5 m ρ c (Proc.devRef .tc main_arg7) = W4 m ρ c (Proc.devRef .tc main_arg7))).trans (((StableHlo.after_of_forall_not_mem (b := Proc.devRef .tc main_arg7) (hostOps0_3 (F := Ideal)) (W3 m ρ c) (by nw_side) : W4 m ρ c (Proc.devRef .tc main_arg7) = W3 m ρ c (Proc.devRef .tc main_arg7))).trans (((StableHlo.after_of_forall_not_mem (b := Proc.devRef .tc main_arg7) (hostOps0_2 (F := Ideal)) (W2 m ρ c) (by nw_side) : W3 m ρ c (Proc.devRef .tc main_arg7) = W2 m ρ c (Proc.devRef .tc main_arg7))).trans (((StableHlo.after_of_forall_not_mem (b := Proc.devRef .tc main_arg7) (hostOps0_1 (F := Ideal)) (W1 m ρ c) (by nw_side) : W2 m ρ c (Proc.devRef .tc main_arg7) = W1 m ρ c (Proc.devRef .tc main_arg7))).trans (((StableHlo.after_of_forall_not_mem (b := Proc.devRef .tc main_arg7) (hostOps0 (F := Ideal)) (W0 m ρ c) (by nw_side) : W1 m ρ c (Proc.devRef .tc main_arg7) = W0 m ρ c (Proc.devRef .tc main_arg7))).trans ((rfl : W0 m ρ c (Proc.devRef .tc main_arg7) = ⟪main_arg7⟫)))))))))
theorem a8_arg8 : W8 m ρ c (Proc.devRef .tc main_arg8) = ⟪main_arg8⟫ :=
  ((StableHlo.after_of_forall_not_mem (b := Proc.devRef .tc main_arg8) (hostOps1_1 (F := Ideal)) (W7 m ρ c) (by nw_side) : W8 m ρ c (Proc.devRef .tc main_arg8) = W7 m ρ c (Proc.devRef .tc main_arg8))).trans (((StableHlo.after_of_forall_not_mem (b := Proc.devRef .tc main_arg8) (hostOps1 (F := Ideal)) (W6 m ρ c) (by nw_side) : W7 m ρ c (Proc.devRef .tc main_arg8) = W6 m ρ c (Proc.devRef .tc main_arg8))).trans (((W6_of_ne m ρ c main_arg8 (by decide))).trans (((StableHlo.after_of_forall_not_mem (b := Proc.devRef .tc main_arg8) (hostOps0_4 (F := Ideal)) (W4 m ρ c) (by nw_side) : W5 m ρ c (Proc.devRef .tc main_arg8) = W4 m ρ c (Proc.devRef .tc main_arg8))).trans (((StableHlo.after_of_forall_not_mem (b := Proc.devRef .tc main_arg8) (hostOps0_3 (F := Ideal)) (W3 m ρ c) (by nw_side) : W4 m ρ c (Proc.devRef .tc main_arg8) = W3 m ρ c (Proc.devRef .tc main_arg8))).trans (((StableHlo.after_of_forall_not_mem (b := Proc.devRef .tc main_arg8) (hostOps0_2 (F := Ideal)) (W2 m ρ c) (by nw_side) : W3 m ρ c (Proc.devRef .tc main_arg8) = W2 m ρ c (Proc.devRef .tc main_arg8))).trans (((StableHlo.after_of_forall_not_mem (b := Proc.devRef .tc main_arg8) (hostOps0_1 (F := Ideal)) (W1 m ρ c) (by nw_side) : W2 m ρ c (Proc.devRef .tc main_arg8) = W1 m ρ c (Proc.devRef .tc main_arg8))).trans (((StableHlo.after_of_forall_not_mem (b := Proc.devRef .tc main_arg8) (hostOps0 (F := Ideal)) (W0 m ρ c) (by nw_side) : W1 m ρ c (Proc.devRef .tc main_arg8) = W0 m ρ c (Proc.devRef .tc main_arg8))).trans ((rfl : W0 m ρ c (Proc.devRef .tc main_arg8) = ⟪main_arg8⟫)))))))))
theorem a8_arg9 : W8 m ρ c (Proc.devRef .tc main_arg9) = ⟪main_arg9⟫ :=
  ((StableHlo.after_of_forall_not_mem (b := Proc.devRef .tc main_arg9) (hostOps1_1 (F := Ideal)) (W7 m ρ c) (by nw_side) : W8 m ρ c (Proc.devRef .tc main_arg9) = W7 m ρ c (Proc.devRef .tc main_arg9))).trans (((StableHlo.after_of_forall_not_mem (b := Proc.devRef .tc main_arg9) (hostOps1 (F := Ideal)) (W6 m ρ c) (by nw_side) : W7 m ρ c (Proc.devRef .tc main_arg9) = W6 m ρ c (Proc.devRef .tc main_arg9))).trans (((W6_of_ne m ρ c main_arg9 (by decide))).trans (((StableHlo.after_of_forall_not_mem (b := Proc.devRef .tc main_arg9) (hostOps0_4 (F := Ideal)) (W4 m ρ c) (by nw_side) : W5 m ρ c (Proc.devRef .tc main_arg9) = W4 m ρ c (Proc.devRef .tc main_arg9))).trans (((StableHlo.after_of_forall_not_mem (b := Proc.devRef .tc main_arg9) (hostOps0_3 (F := Ideal)) (W3 m ρ c) (by nw_side) : W4 m ρ c (Proc.devRef .tc main_arg9) = W3 m ρ c (Proc.devRef .tc main_arg9))).trans (((StableHlo.after_of_forall_not_mem (b := Proc.devRef .tc main_arg9) (hostOps0_2 (F := Ideal)) (W2 m ρ c) (by nw_side) : W3 m ρ c (Proc.devRef .tc main_arg9) = W2 m ρ c (Proc.devRef .tc main_arg9))).trans (((StableHlo.after_of_forall_not_mem (b := Proc.devRef .tc main_arg9) (hostOps0_1 (F := Ideal)) (W1 m ρ c) (by nw_side) : W2 m ρ c (Proc.devRef .tc main_arg9) = W1 m ρ c (Proc.devRef .tc main_arg9))).trans (((StableHlo.after_of_forall_not_mem (b := Proc.devRef .tc main_arg9) (hostOps0 (F := Ideal)) (W0 m ρ c) (by nw_side) : W1 m ρ c (Proc.devRef .tc main_arg9) = W0 m ρ c (Proc.devRef .tc main_arg9))).trans ((rfl : W0 m ρ c (Proc.devRef .tc main_arg9) = ⟪main_arg9⟫)))))))))

theorem e1_0 : V9 m ρ c main_v52 = flatK (aggK' (h1 m c) (srcK ⟪main_arg1⟫) (dstK ⟪main_arg1⟫) (degInvK (dstK ⟪main_arg1⟫))) := by
  show after (hostOps1_2 (F := Ideal)) (W8 m ρ c) (Proc.devRef .tc main_v52) = _
  rw [p1_0, a8_v40, a8_v4, a8_v18]; all_goals rfl
theorem e1_1 : V9 m ρ c main_v53 = flatK (h1 m c) := by
  show after (hostOps1_2 (F := Ideal)) (W8 m ρ c) (Proc.devRef .tc main_v53) = _
  rw [p1_1, a8_v39]
theorem e1_2 : V9 m ρ c main_v54 = wTK ⟪main_arg6⟫ := by
  show after (hostOps1_2 (F := Ideal)) (W8 m ρ c) (Proc.devRef .tc main_v54) = _
  rw [p1_2, a8_arg6]
theorem e1_3 : V9 m ρ c main_v55 = wTK ⟪main_arg8⟫ := by
  show after (hostOps1_2 (F := Ideal)) (W8 m ρ c) (Proc.devRef .tc main_v55) = _
  rw [p1_3, a8_arg8]
theorem e1_4 : V9 m ρ c main_v56 = rowK ⟪main_arg7⟫ := by
  show after (hostOps1_2 (F := Ideal)) (W8 m ρ c) (Proc.devRef .tc main_v56) = _
  rw [p1_4, a8_arg7]
theorem e1_5 : V9 m ρ c main_v57 = cellK ⟪main_arg9⟫ := by
  show after (hostOps1_2 (F := Ideal)) (W8 m ρ c) (Proc.devRef .tc main_v57) = _
  rw [p1_5, a8_arg9]

/-! ## The second launch, and up to the third -/

theorem a10_v58 : W10 m ρ c (Proc.devRef .tc main_v58) = launchK (h1 m c) (srcK ⟪main_arg1⟫) (dstK ⟪main_arg1⟫) (degInvK (dstK ⟪main_arg1⟫)) ⟪main_arg6⟫ ⟪main_arg7⟫ ⟪main_arg8⟫ ⟪main_arg9⟫ := by
  refine (W10_arr m ρ c 6).trans ?_
  rw [final1]
  show layerMat (R := 200000) (V9 m ρ c main_v52) (V9 m ρ c main_v53) (V9 m ρ c main_v54) (V9 m ρ c main_v55) (V9 m ρ c main_v56) (V9 m ρ c main_v57) = _
  rw [e1_0, e1_1, e1_2, e1_3, e1_4, e1_5]
  rfl
theorem a11_v59 : W11 m ρ c (Proc.devRef .tc main_v59) = h2 m c := by
  show after (hostOps2 (F := Ideal)) (W10 m ρ c) (Proc.devRef .tc main_v59) = _
  rw [r2, a10_v58]; all_goals rfl
theorem a11_v2 : W11 m ρ c (Proc.devRef .tc main_v2) = srcK ⟪main_arg1⟫ :=
  ((StableHlo.after_of_forall_not_mem (b := Proc.devRef .tc main_v2) (hostOps2 (F := Ideal)) (W10 m ρ c) (by nw_side) : W11 m ρ c (Proc.devRef .tc main_v2) = W10 m ρ c (Proc.devRef .tc main_v2))).trans (((W10_of_ne m ρ c main_v2 (by decide))).trans (((StableHlo.after_of_forall_not_mem (b := Proc.devRef .tc main_v2) (hostOps1_2 (F := Ideal)) (W8 m ρ c) (by nw_side) : W9 m ρ c (Proc.devRef .tc main_v2) = W8 m ρ c (Proc.devRef .tc main_v2))).trans (((StableHlo.after_of_forall_not_mem (b := Proc.devRef .tc main_v2) (hostOps1_1 (F := Ideal)) (W7 m ρ c) (by nw_side) : W8 m ρ c (Proc.devRef .tc main_v2) = W7 m ρ c (Proc.devRef .tc main_v2))).trans (((StableHlo.after_of_forall_not_mem (b := Proc.devRef .tc main_v2) (hostOps1 (F := Ideal)) (W6 m ρ c) (by nw_side) : W7 m ρ c (Proc.devRef .tc main_v2) = W6 m ρ c (Proc.devRef .tc main_v2))).trans (((W6_of_ne m ρ c main_v2 (by decide))).trans (((StableHlo.after_of_forall_not_mem (b := Proc.devRef .tc main_v2) (hostOps0_4 (F := Ideal)) (W4 m ρ c) (by nw_side) : W5 m ρ c (Proc.devRef .tc main_v2) = W4 m ρ c (Proc.devRef .tc main_v2))).trans (((StableHlo.after_of_forall_not_mem (b := Proc.devRef .tc main_v2) (hostOps0_3 (F := Ideal)) (W3 m ρ c) (by nw_side) : W4 m ρ c (Proc.devRef .tc main_v2) = W3 m ρ c (Proc.devRef .tc main_v2))).trans (((StableHlo.after_of_forall_not_mem (b := Proc.devRef .tc main_v2) (hostOps0_2 (F := Ideal)) (W2 m ρ c) (by nw_side) : W3 m ρ c (Proc.devRef .tc main_v2) = W2 m ρ c (Proc.devRef .tc main_v2))).trans (((StableHlo.after_of_forall_not_mem (b := Proc.devRef .tc main_v2) (hostOps0_1 (F := Ideal)) (W1 m ρ c) (by nw_side) : W2 m ρ c (Proc.devRef .tc main_v2) = W1 m ρ c (Proc.devRef .tc main_v2))).trans (a1_v2 m ρ c))))))))))
theorem a12_v60 : W12 m ρ c (Proc.devRef .tc main_v60) = takeK (h2 m c) (srcK ⟪main_arg1⟫) := by
  show after (hostOps2_1 (F := Ideal)) (W11 m ρ c) (Proc.devRef .tc main_v60) = _
  rw [t2, a11_v59, a11_v2]
theorem a12_v4 : W12 m ρ c (Proc.devRef .tc main_v4) = dstK ⟪main_arg1⟫ :=
  ((StableHlo.after_of_forall_not_mem (b := Proc.devRef .tc main_v4) (hostOps2_1 (F := Ideal)) (W11 m ρ c) (by nw_side) : W12 m ρ c (Proc.devRef .tc main_v4) = W11 m ρ c (Proc.devRef .tc main_v4))).trans (((StableHlo.after_of_forall_not_mem (b := Proc.devRef .tc main_v4) (hostOps2 (F := Ideal)) (W10 m ρ c) (by nw_side) : W11 m ρ c (Proc.devRef .tc main_v4) = W10 m ρ c (Proc.devRef .tc main_v4))).trans (((W10_of_ne m ρ c main_v4 (by decide))).trans (((StableHlo.after_of_forall_not_mem (b := Proc.devRef .tc main_v4) (hostOps1_2 (F := Ideal)) (W8 m ρ c) (by nw_side) : W9 m ρ c (Proc.devRef .tc main_v4) = W8 m ρ c (Proc.devRef .tc main_v4))).trans (((StableHlo.after_of_forall_not_mem (b := Proc.devRef .tc main_v4) (hostOps1_1 (F := Ideal)) (W7 m ρ c) (by nw_side) : W8 m ρ c (Proc.devRef .tc main_v4) = W7 m ρ c (Proc.devRef .tc main_v4))).trans (((StableHlo.after_of_forall_not_mem (b := Proc.devRef .tc main_v4) (hostOps1 (F := Ideal)) (W6 m ρ c) (by nw_side) : W7 m ρ c (Proc.devRef .tc main_v4) = W6 m ρ c (Proc.devRef .tc main_v4))).trans (((W6_of_ne m ρ c main_v4 (by decide))).trans (((StableHlo.after_of_forall_not_mem (b := Proc.devRef .tc main_v4) (hostOps0_4 (F := Ideal)) (W4 m ρ c) (by nw_side) : W5 m ρ c (Proc.devRef .tc main_v4) = W4 m ρ c (Proc.devRef .tc main_v4))).trans (((StableHlo.after_of_forall_not_mem (b := Proc.devRef .tc main_v4) (hostOps0_3 (F := Ideal)) (W3 m ρ c) (by nw_side) : W4 m ρ c (Proc.devRef .tc main_v4) = W3 m ρ c (Proc.devRef .tc main_v4))).trans (((StableHlo.after_of_forall_not_mem (b := Proc.devRef .tc main_v4) (hostOps0_2 (F := Ideal)) (W2 m ρ c) (by nw_side) : W3 m ρ c (Proc.devRef .tc main_v4) = W2 m ρ c (Proc.devRef .tc main_v4))).trans (((StableHlo.after_of_forall_not_mem (b := Proc.devRef .tc main_v4) (hostOps0_1 (F := Ideal)) (W1 m ρ c) (by nw_side) : W2 m ρ c (Proc.devRef .tc main_v4) = W1 m ρ c (Proc.devRef .tc main_v4))).trans (a1_v4 m ρ c)))))))))))
theorem a12_v18 : W12 m ρ c (Proc.devRef .tc main_v18) = degInvK (dstK ⟪main_arg1⟫) :=
  ((StableHlo.after_of_forall_not_mem (b := Proc.devRef .tc main_v18) (hostOps2_1 (F := Ideal)) (W11 m ρ c) (by nw_side) : W12 m ρ c (Proc.devRef .tc main_v18) = W11 m ρ c (Proc.devRef .tc main_v18))).trans (((StableHlo.after_of_forall_not_mem (b := Proc.devRef .tc main_v18) (hostOps2 (F := Ideal)) (W10 m ρ c) (by nw_side) : W11 m ρ c (Proc.devRef .tc main_v18) = W10 m ρ c (Proc.devRef .tc main_v18))).trans (((W10_of_ne m ρ c main_v18 (by decide))).trans (((StableHlo.after_of_forall_not_mem (b := Proc.devRef .tc main_v18) (hostOps1_2 (F := Ideal)) (W8 m ρ c) (by nw_side) : W9 m ρ c (Proc.devRef .tc main_v18) = W8 m ρ c (Proc.devRef .tc main_v18))).trans (((StableHlo.after_of_forall_not_mem (b := Proc.devRef .tc main_v18) (hostOps1_1 (F := Ideal)) (W7 m ρ c) (by nw_side) : W8 m ρ c (Proc.devRef .tc main_v18) = W7 m ρ c (Proc.devRef .tc main_v18))).trans (((StableHlo.after_of_forall_not_mem (b := Proc.devRef .tc main_v18) (hostOps1 (F := Ideal)) (W6 m ρ c) (by nw_side) : W7 m ρ c (Proc.devRef .tc main_v18) = W6 m ρ c (Proc.devRef .tc main_v18))).trans (((W6_of_ne m ρ c main_v18 (by decide))).trans (((StableHlo.after_of_forall_not_mem (b := Proc.devRef .tc main_v18) (hostOps0_4 (F := Ideal)) (W4 m ρ c) (by nw_side) : W5 m ρ c (Proc.devRef .tc main_v18) = W4 m ρ c (Proc.devRef .tc main_v18))).trans (((StableHlo.after_of_forall_not_mem (b := Proc.devRef .tc main_v18) (hostOps0_3 (F := Ideal)) (W3 m ρ c) (by nw_side) : W4 m ρ c (Proc.devRef .tc main_v18) = W3 m ρ c (Proc.devRef .tc main_v18))).trans (((StableHlo.after_of_forall_not_mem (b := Proc.devRef .tc main_v18) (hostOps0_2 (F := Ideal)) (W2 m ρ c) (by nw_side) : W3 m ρ c (Proc.devRef .tc main_v18) = W2 m ρ c (Proc.devRef .tc main_v18))).trans (a2_v18 m ρ c))))))))))
theorem a12_v59 : W12 m ρ c (Proc.devRef .tc main_v59) = h2 m c :=
  ((StableHlo.after_of_forall_not_mem (b := Proc.devRef .tc main_v59) (hostOps2_1 (F := Ideal)) (W11 m ρ c) (by nw_side) : W12 m ρ c (Proc.devRef .tc main_v59) = W11 m ρ c (Proc.devRef .tc main_v59))).trans (a11_v59 m ρ c)
theorem a12_arg10 : W12 m ρ c (Proc.devRef .tc main_arg10) = ⟪main_arg10⟫ :=
  ((StableHlo.after_of_forall_not_mem (b := Proc.devRef .tc main_arg10) (hostOps2_1 (F := Ideal)) (W11 m ρ c) (by nw_side) : W12 m ρ c (Proc.devRef .tc main_arg10) = W11 m ρ c (Proc.devRef .tc main_arg10))).trans (((StableHlo.after_of_forall_not_mem (b := Proc.devRef .tc main_arg10) (hostOps2 (F := Ideal)) (W10 m ρ c) (by nw_side) : W11 m ρ c (Proc.devRef .tc main_arg10) = W10 m ρ c (Proc.devRef .tc main_arg10))).trans (((W10_of_ne m ρ c main_arg10 (by decide))).trans (((StableHlo.after_of_forall_not_mem (b := Proc.devRef .tc main_arg10) (hostOps1_2 (F := Ideal)) (W8 m ρ c) (by nw_side) : W9 m ρ c (Proc.devRef .tc main_arg10) = W8 m ρ c (Proc.devRef .tc main_arg10))).trans (((StableHlo.after_of_forall_not_mem (b := Proc.devRef .tc main_arg10) (hostOps1_1 (F := Ideal)) (W7 m ρ c) (by nw_side) : W8 m ρ c (Proc.devRef .tc main_arg10) = W7 m ρ c (Proc.devRef .tc main_arg10))).trans (((StableHlo.after_of_forall_not_mem (b := Proc.devRef .tc main_arg10) (hostOps1 (F := Ideal)) (W6 m ρ c) (by nw_side) : W7 m ρ c (Proc.devRef .tc main_arg10) = W6 m ρ c (Proc.devRef .tc main_arg10))).trans (((W6_of_ne m ρ c main_arg10 (by decide))).trans (((StableHlo.after_of_forall_not_mem (b := Proc.devRef .tc main_arg10) (hostOps0_4 (F := Ideal)) (W4 m ρ c) (by nw_side) : W5 m ρ c (Proc.devRef .tc main_arg10) = W4 m ρ c (Proc.devRef .tc main_arg10))).trans (((StableHlo.after_of_forall_not_mem (b := Proc.devRef .tc main_arg10) (hostOps0_3 (F := Ideal)) (W3 m ρ c) (by nw_side) : W4 m ρ c (Proc.devRef .tc main_arg10) = W3 m ρ c (Proc.devRef .tc main_arg10))).trans (((StableHlo.after_of_forall_not_mem (b := Proc.devRef .tc main_arg10) (hostOps0_2 (F := Ideal)) (W2 m ρ c) (by nw_side) : W3 m ρ c (Proc.devRef .tc main_arg10) = W2 m ρ c (Proc.devRef .tc main_arg10))).trans (((StableHlo.after_of_forall_not_mem (b := Proc.devRef .tc main_arg10) (hostOps0_1 (F := Ideal)) (W1 m ρ c) (by nw_side) : W2 m ρ c (Proc.devRef .tc main_arg10) = W1 m ρ c (Proc.devRef .tc main_arg10))).trans (((StableHlo.after_of_forall_not_mem (b := Proc.devRef .tc main_arg10) (hostOps0 (F := Ideal)) (W0 m ρ c) (by nw_side) : W1 m ρ c (Proc.devRef .tc main_arg10) = W0 m ρ c (Proc.devRef .tc main_arg10))).trans ((rfl : W0 m ρ c (Proc.devRef .tc main_arg10) = ⟪main_arg10⟫)))))))))))))
theorem a12_arg11 : W12 m ρ c (Proc.devRef .tc main_arg11) = ⟪main_arg11⟫ :=
  ((StableHlo.after_of_forall_not_mem (b := Proc.devRef .tc main_arg11) (hostOps2_1 (F := Ideal)) (W11 m ρ c) (by nw_side) : W12 m ρ c (Proc.devRef .tc main_arg11) = W11 m ρ c (Proc.devRef .tc main_arg11))).trans (((StableHlo.after_of_forall_not_mem (b := Proc.devRef .tc main_arg11) (hostOps2 (F := Ideal)) (W10 m ρ c) (by nw_side) : W11 m ρ c (Proc.devRef .tc main_arg11) = W10 m ρ c (Proc.devRef .tc main_arg11))).trans (((W10_of_ne m ρ c main_arg11 (by decide))).trans (((StableHlo.after_of_forall_not_mem (b := Proc.devRef .tc main_arg11) (hostOps1_2 (F := Ideal)) (W8 m ρ c) (by nw_side) : W9 m ρ c (Proc.devRef .tc main_arg11) = W8 m ρ c (Proc.devRef .tc main_arg11))).trans (((StableHlo.after_of_forall_not_mem (b := Proc.devRef .tc main_arg11) (hostOps1_1 (F := Ideal)) (W7 m ρ c) (by nw_side) : W8 m ρ c (Proc.devRef .tc main_arg11) = W7 m ρ c (Proc.devRef .tc main_arg11))).trans (((StableHlo.after_of_forall_not_mem (b := Proc.devRef .tc main_arg11) (hostOps1 (F := Ideal)) (W6 m ρ c) (by nw_side) : W7 m ρ c (Proc.devRef .tc main_arg11) = W6 m ρ c (Proc.devRef .tc main_arg11))).trans (((W6_of_ne m ρ c main_arg11 (by decide))).trans (((StableHlo.after_of_forall_not_mem (b := Proc.devRef .tc main_arg11) (hostOps0_4 (F := Ideal)) (W4 m ρ c) (by nw_side) : W5 m ρ c (Proc.devRef .tc main_arg11) = W4 m ρ c (Proc.devRef .tc main_arg11))).trans (((StableHlo.after_of_forall_not_mem (b := Proc.devRef .tc main_arg11) (hostOps0_3 (F := Ideal)) (W3 m ρ c) (by nw_side) : W4 m ρ c (Proc.devRef .tc main_arg11) = W3 m ρ c (Proc.devRef .tc main_arg11))).trans (((StableHlo.after_of_forall_not_mem (b := Proc.devRef .tc main_arg11) (hostOps0_2 (F := Ideal)) (W2 m ρ c) (by nw_side) : W3 m ρ c (Proc.devRef .tc main_arg11) = W2 m ρ c (Proc.devRef .tc main_arg11))).trans (((StableHlo.after_of_forall_not_mem (b := Proc.devRef .tc main_arg11) (hostOps0_1 (F := Ideal)) (W1 m ρ c) (by nw_side) : W2 m ρ c (Proc.devRef .tc main_arg11) = W1 m ρ c (Proc.devRef .tc main_arg11))).trans (((StableHlo.after_of_forall_not_mem (b := Proc.devRef .tc main_arg11) (hostOps0 (F := Ideal)) (W0 m ρ c) (by nw_side) : W1 m ρ c (Proc.devRef .tc main_arg11) = W0 m ρ c (Proc.devRef .tc main_arg11))).trans ((rfl : W0 m ρ c (Proc.devRef .tc main_arg11) = ⟪main_arg11⟫)))))))))))))
theorem a12_arg12 : W12 m ρ c (Proc.devRef .tc main_arg12) = ⟪main_arg12⟫ :=
  ((StableHlo.after_of_forall_not_mem (b := Proc.devRef .tc main_arg12) (hostOps2_1 (F := Ideal)) (W11 m ρ c) (by nw_side) : W12 m ρ c (Proc.devRef .tc main_arg12) = W11 m ρ c (Proc.devRef .tc main_arg12))).trans (((StableHlo.after_of_forall_not_mem (b := Proc.devRef .tc main_arg12) (hostOps2 (F := Ideal)) (W10 m ρ c) (by nw_side) : W11 m ρ c (Proc.devRef .tc main_arg12) = W10 m ρ c (Proc.devRef .tc main_arg12))).trans (((W10_of_ne m ρ c main_arg12 (by decide))).trans (((StableHlo.after_of_forall_not_mem (b := Proc.devRef .tc main_arg12) (hostOps1_2 (F := Ideal)) (W8 m ρ c) (by nw_side) : W9 m ρ c (Proc.devRef .tc main_arg12) = W8 m ρ c (Proc.devRef .tc main_arg12))).trans (((StableHlo.after_of_forall_not_mem (b := Proc.devRef .tc main_arg12) (hostOps1_1 (F := Ideal)) (W7 m ρ c) (by nw_side) : W8 m ρ c (Proc.devRef .tc main_arg12) = W7 m ρ c (Proc.devRef .tc main_arg12))).trans (((StableHlo.after_of_forall_not_mem (b := Proc.devRef .tc main_arg12) (hostOps1 (F := Ideal)) (W6 m ρ c) (by nw_side) : W7 m ρ c (Proc.devRef .tc main_arg12) = W6 m ρ c (Proc.devRef .tc main_arg12))).trans (((W6_of_ne m ρ c main_arg12 (by decide))).trans (((StableHlo.after_of_forall_not_mem (b := Proc.devRef .tc main_arg12) (hostOps0_4 (F := Ideal)) (W4 m ρ c) (by nw_side) : W5 m ρ c (Proc.devRef .tc main_arg12) = W4 m ρ c (Proc.devRef .tc main_arg12))).trans (((StableHlo.after_of_forall_not_mem (b := Proc.devRef .tc main_arg12) (hostOps0_3 (F := Ideal)) (W3 m ρ c) (by nw_side) : W4 m ρ c (Proc.devRef .tc main_arg12) = W3 m ρ c (Proc.devRef .tc main_arg12))).trans (((StableHlo.after_of_forall_not_mem (b := Proc.devRef .tc main_arg12) (hostOps0_2 (F := Ideal)) (W2 m ρ c) (by nw_side) : W3 m ρ c (Proc.devRef .tc main_arg12) = W2 m ρ c (Proc.devRef .tc main_arg12))).trans (((StableHlo.after_of_forall_not_mem (b := Proc.devRef .tc main_arg12) (hostOps0_1 (F := Ideal)) (W1 m ρ c) (by nw_side) : W2 m ρ c (Proc.devRef .tc main_arg12) = W1 m ρ c (Proc.devRef .tc main_arg12))).trans (((StableHlo.after_of_forall_not_mem (b := Proc.devRef .tc main_arg12) (hostOps0 (F := Ideal)) (W0 m ρ c) (by nw_side) : W1 m ρ c (Proc.devRef .tc main_arg12) = W0 m ρ c (Proc.devRef .tc main_arg12))).trans ((rfl : W0 m ρ c (Proc.devRef .tc main_arg12) = ⟪main_arg12⟫)))))))))))))
theorem a12_arg13 : W12 m ρ c (Proc.devRef .tc main_arg13) = ⟪main_arg13⟫ :=
  ((StableHlo.after_of_forall_not_mem (b := Proc.devRef .tc main_arg13) (hostOps2_1 (F := Ideal)) (W11 m ρ c) (by nw_side) : W12 m ρ c (Proc.devRef .tc main_arg13) = W11 m ρ c (Proc.devRef .tc main_arg13))).trans (((StableHlo.after_of_forall_not_mem (b := Proc.devRef .tc main_arg13) (hostOps2 (F := Ideal)) (W10 m ρ c) (by nw_side) : W11 m ρ c (Proc.devRef .tc main_arg13) = W10 m ρ c (Proc.devRef .tc main_arg13))).trans (((W10_of_ne m ρ c main_arg13 (by decide))).trans (((StableHlo.after_of_forall_not_mem (b := Proc.devRef .tc main_arg13) (hostOps1_2 (F := Ideal)) (W8 m ρ c) (by nw_side) : W9 m ρ c (Proc.devRef .tc main_arg13) = W8 m ρ c (Proc.devRef .tc main_arg13))).trans (((StableHlo.after_of_forall_not_mem (b := Proc.devRef .tc main_arg13) (hostOps1_1 (F := Ideal)) (W7 m ρ c) (by nw_side) : W8 m ρ c (Proc.devRef .tc main_arg13) = W7 m ρ c (Proc.devRef .tc main_arg13))).trans (((StableHlo.after_of_forall_not_mem (b := Proc.devRef .tc main_arg13) (hostOps1 (F := Ideal)) (W6 m ρ c) (by nw_side) : W7 m ρ c (Proc.devRef .tc main_arg13) = W6 m ρ c (Proc.devRef .tc main_arg13))).trans (((W6_of_ne m ρ c main_arg13 (by decide))).trans (((StableHlo.after_of_forall_not_mem (b := Proc.devRef .tc main_arg13) (hostOps0_4 (F := Ideal)) (W4 m ρ c) (by nw_side) : W5 m ρ c (Proc.devRef .tc main_arg13) = W4 m ρ c (Proc.devRef .tc main_arg13))).trans (((StableHlo.after_of_forall_not_mem (b := Proc.devRef .tc main_arg13) (hostOps0_3 (F := Ideal)) (W3 m ρ c) (by nw_side) : W4 m ρ c (Proc.devRef .tc main_arg13) = W3 m ρ c (Proc.devRef .tc main_arg13))).trans (((StableHlo.after_of_forall_not_mem (b := Proc.devRef .tc main_arg13) (hostOps0_2 (F := Ideal)) (W2 m ρ c) (by nw_side) : W3 m ρ c (Proc.devRef .tc main_arg13) = W2 m ρ c (Proc.devRef .tc main_arg13))).trans (((StableHlo.after_of_forall_not_mem (b := Proc.devRef .tc main_arg13) (hostOps0_1 (F := Ideal)) (W1 m ρ c) (by nw_side) : W2 m ρ c (Proc.devRef .tc main_arg13) = W1 m ρ c (Proc.devRef .tc main_arg13))).trans (((StableHlo.after_of_forall_not_mem (b := Proc.devRef .tc main_arg13) (hostOps0 (F := Ideal)) (W0 m ρ c) (by nw_side) : W1 m ρ c (Proc.devRef .tc main_arg13) = W0 m ρ c (Proc.devRef .tc main_arg13))).trans ((rfl : W0 m ρ c (Proc.devRef .tc main_arg13) = ⟪main_arg13⟫)))))))))))))

theorem e2_0 : V13 m ρ c main_v72 = flatK (aggK' (h2 m c) (srcK ⟪main_arg1⟫) (dstK ⟪main_arg1⟫) (degInvK (dstK ⟪main_arg1⟫))) := by
  show after (hostOps2_2 (F := Ideal)) (W12 m ρ c) (Proc.devRef .tc main_v72) = _
  rw [p2_0, a12_v60, a12_v4, a12_v18]; all_goals rfl
theorem e2_1 : V13 m ρ c main_v73 = flatK (h2 m c) := by
  show after (hostOps2_2 (F := Ideal)) (W12 m ρ c) (Proc.devRef .tc main_v73) = _
  rw [p2_1, a12_v59]
theorem e2_2 : V13 m ρ c main_v74 = wTK ⟪main_arg10⟫ := by
  show after (hostOps2_2 (F := Ideal)) (W12 m ρ c) (Proc.devRef .tc main_v74) = _
  rw [p2_2, a12_arg10]
theorem e2_3 : V13 m ρ c main_v75 = wTK ⟪main_arg12⟫ := by
  show after (hostOps2_2 (F := Ideal)) (W12 m ρ c) (Proc.devRef .tc main_v75) = _
  rw [p2_3, a12_arg12]
theorem e2_4 : V13 m ρ c main_v76 = rowK ⟪main_arg11⟫ := by
  show after (hostOps2_2 (F := Ideal)) (W12 m ρ c) (Proc.devRef .tc main_v76) = _
  rw [p2_4, a12_arg11]
theorem e2_5 : V13 m ρ c main_v77 = cellK ⟪main_arg13⟫ := by
  show after (hostOps2_2 (F := Ideal)) (W12 m ρ c) (Proc.devRef .tc main_v77) = _
  rw [p2_5, a12_arg13]

/-! ## The third launch, and the result -/

theorem a14_v78 : W14 m ρ c (Proc.devRef .tc main_v78) = launchK (h2 m c) (srcK ⟪main_arg1⟫) (dstK ⟪main_arg1⟫) (degInvK (dstK ⟪main_arg1⟫)) ⟪main_arg10⟫ ⟪main_arg11⟫ ⟪main_arg12⟫ ⟪main_arg13⟫ := by
  refine (W14_arr m ρ c 6).trans ?_
  rw [final2]
  show layerMat (R := 200000) (V13 m ρ c main_v72) (V13 m ρ c main_v73) (V13 m ρ c main_v74) (V13 m ρ c main_v75) (V13 m ρ c main_v76) (V13 m ρ c main_v77) = _
  rw [e2_0, e2_1, e2_2, e2_3, e2_4, e2_5]
  rfl

/-- THE VALUE: the result buffer at the last boundary is the three layers of the launch memory's arguments. -/
theorem value : W15 m ρ c (Proc.devRef .tc main_v80)
    = netK ⟪main_arg0⟫ ⟪main_arg1⟫ ⟪main_arg2⟫ ⟪main_arg3⟫ ⟪main_arg4⟫ ⟪main_arg5⟫ ⟪main_arg6⟫ ⟪main_arg7⟫ ⟪main_arg8⟫ ⟪main_arg9⟫
        ⟪main_arg10⟫ ⟪main_arg11⟫ ⟪main_arg12⟫ ⟪main_arg13⟫ := by
  show after (hostOps3 (F := Ideal)) (W14 m ρ c) (Proc.devRef .tc main_v80) = _
  rw [r3, a14_v78]; all_goals rfl

end Cert.KernelIdeal.Hand

end
-- ==== Proof.KernelStep.lean ====
/-
  One layer of the idealized kernel at an index.  Node `n` of batch `b` is row `50000·b + n` of the flattened
  features, so the launch's row `50000·b + n` read back as node features is the layer's entry at `(b, n)`: the mean
  aggregation of node `(b, n)` against row `o` of the first weight matrix (the transposed matrix's column `o`), plus
  the bias at `o`, plus the node's own features against row `o` of the second weight matrix, then the rectifier with
  the slope.
-/
import proofs.«162317_j38147899523429_1_alg».proof.Proof.KernelAgg
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.Spec

/-- Rows read back as node features: entry `(b, n, o)` is entry `(50000·b + n, o)` of the rows. -/
theorem unflatK_apply (g : Cv Ideal S200000x64 .f32) (b : Fin 4) (n : Fin 50000) (o : Fin 64) (hr : b.val * 50000 + n.val < 200000) :
    unflatK g (ix3 b n o) = g (ix2 ⟨b.val * 50000 + n.val, hr⟩ o) := by
  unfold unflatK
  exact shapeCast_apply g _ (ix3 b n o) (ix2 ⟨b.val * 50000 + n.val, hr⟩ o) (by
    rw [Shape.rowMajor_val_two, Shape.rowMajor_val_three]
    rfl)

/-- Node features flattened to rows: entry `(50000·b + n, f)` of the rows is entry `(b, n, f)`. -/
theorem flatK_apply (h : Cv Ideal S4x50000x64 .f32) (b : Fin 4) (n : Fin 50000) (f : Fin 64) (hr : b.val * 50000 + n.val < 200000) :
    flatK h (ix2 ⟨b.val * 50000 + n.val, hr⟩ f) = h (ix3 b n f) := by
  unfold flatK
  exact shapeCast_apply h _ (ix2 ⟨b.val * 50000 + n.val, hr⟩ f) (ix3 b n f) (by
    rw [Shape.rowMajor_val_three, Shape.rowMajor_val_two]
    rfl)

/-- The transposed weight matrix at `(f, o)` is the matrix at `(o, f)`. -/
theorem wTK_apply (W : Cv Ideal S64x64 .f32) (f o : Fin 64) : wTK W (ix2 f o) = W (ix2 o f) := by
  unfold wTK
  exact transpose_apply _ W _ (ix2 f o) (ix2 o f) fun c => match c with | ⟨0, _⟩ => rfl | ⟨1, _⟩ => rfl

/-- The bias row at `(0, o)` is the bias at `o`. -/
theorem rowK_apply (bl : Cv Ideal S64 .f32) (o : Fin 64) : rowK bl (ix2 (0 : Fin 1) o) = bl (ix1 o) := by
  unfold rowK
  exact shapeCast_a_1a_apply bl _ 0 o

/-- The slope cell is the slope. -/
theorem cellK_apply (a : Cv Ideal S_ .f32) : cellK a (ix2 (0 : Fin 1) (0 : Fin 1)) = a ix0 := by
  unfold cellK shapeCast
  exact congrArg a (eq_ix0 _)

/-- ONE LAYER AT `(b, n, o)`. -/
theorem stepK_apply (h : Cv Ideal S4x50000x64 .f32) (ei : Cv Ideal S1x2x800000 .i32) (Wl : Cv Ideal S64x64 .f32)
    (bl : Cv Ideal S64 .f32) (Wr : Cv Ideal S64x64 .f32) (a : Cv Ideal S_ .f32) (b : Fin 4) (n : Fin 50000) (o : Fin 64) :
    stepK h ei Wl bl Wr a (ix3 b n o)
      = preluI (a ix0) (((∑ f : Fin 64, aggK h ei (ix3 b n f) * Wl (ix2 o f)) + bl (ix1 o)) + ∑ f : Fin 64, h (ix3 b n f) * Wr (ix2 o f)) := by
  have hr : b.val * 50000 + n.val < 200000 := by have := b.isLt; have := n.isLt; omega
  unfold stepK
  rw [unflatK_apply _ b n o hr]
  unfold launchK
  rw [layerMat_apply]
  unfold layerAt
  simp only [flatK_apply _ b n _ hr, wTK_apply, rowK_apply, cellK_apply]
  rfl

end Cert.KernelIdeal.Hand

end
-- ==== Proof.RefRun.lean ====
/-
  The run of the reference program, written out: @main's straight line of host operations (the bodies of the
  module-local functions it calls standing at their call sites, over each call's buffer record), cut into five
  consecutive stretches; that @main is that line; that every operation touches TensorCore buffers only; the run
  itself (every weakly fair execution terminates with each buffer at the operations' fold over the launch
  contents); and that no operation writes an argument buffer, so the arguments end as they started.
-/
import proofs.«162317_j38147899523429_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The edge list split into its source and destination rows, the in-degree (a scatter-add of ones), its reciprocal selected against zero, and the input reshaped to nodes by features. -/
abbrev c0 : List (HloOp τ sig (Elt F)) :=
  [ StableHlo.reshape main_arg1 main_v0 rfl shapeCasts_S1x2x800000_S2x800000,
    StableHlo.unary main_v0 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.unary main_v0 main_v3 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v3 main_v4 rfl shapeCasts_S1x800000_S800000,
    StableHlo.nullary main_cst (constant S_ .f32 0x00000000#32),
    StableHlo.unary main_cst main_v5 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v6 (broadcastInDim S800000 ![] bcast_S_S800000 : (⟨S_, .i32⟩ : BufTy).Contents (Elt F) → (⟨S800000, .i32⟩ : BufTy).Contents (Elt F)),
    StableHlo.binary main_v4 main_v6 main_v7 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v8 (broadcastInDim S800000 ![] bcast_S_S800000 : (⟨S_, .i32⟩ : BufTy).Contents (Elt F) → (⟨S800000, .i32⟩ : BufTy).Contents (Elt F)),
    StableHlo.binary main_v4 main_v8 main_v9 (addi : (⟨S800000, .i32⟩ : BufTy).Contents (Elt F) → (⟨S800000, .i32⟩ : BufTy).Contents (Elt F) → (⟨S800000, .i32⟩ : BufTy).Contents (Elt F)),
    StableHlo.ternary main_v7 main_v9 main_v4 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v10 main_v11 (broadcastInDim S800000x1 ![0] bcast_S800000_S800000x1_0 : (⟨S800000, .i32⟩ : BufTy).Contents (Elt F) → (⟨S800000x1, .i32⟩ : BufTy).Contents (Elt F)),
    StableHlo.nullary main_cst_1 (constant S_ .f32 0x3F800000#32),
    StableHlo.unary main_cst_1 main_v12 (broadcastInDim S800000 ![] bcast_S_S800000 : (⟨S_, .f32⟩ : BufTy).Contents (Elt F) → (⟨S800000, .f32⟩ : BufTy).Contents (Elt F)),
    StableHlo.ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x00000000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v13 main_v14 main_v15 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v16 main_v13 main_v17 (Host.divf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x00000000#32),
    StableHlo.TRef.unary (StableHlo.TRef.of main_cst_4 : StableHlo.TRef sig ⟨S_, .f32⟩) main_call0.v0 id,
    StableHlo.TRef.unary main_call0.v0 main_call0.v1 (broadcastInDim S50000 ![] bcast_S_S50000),
    StableHlo.TRef.ternary (StableHlo.TRef.of main_v15 : StableHlo.TRef sig ⟨S50000, .i1⟩) (StableHlo.TRef.of main_v17 : StableHlo.TRef sig ⟨S50000, .f32⟩) main_call0.v1 main_call0.v2 select,
    StableHlo.reshape main_arg0 main_v19 rfl shapeCasts_S4x3200000_S4x50000x64 ]

/-- The first layer: the gathered rows, their scatter-add, the mean, the two products with the weights, the bias, and the leaky selection. -/
abbrev c1 : List (HloOp τ sig (Elt F)) :=
  [ StableHlo.TRef.nullary main_call1.c (constantI S_ 32 0#32),
    StableHlo.TRef.unary main_call1.c main_call1.v0 (broadcastInDim S800000 ![] bcast_S_S800000),
    StableHlo.TRef.binary (StableHlo.TRef.of main_v2 : StableHlo.TRef sig ⟨S800000, .i32⟩) main_call1.v0 main_call1.v1 (cmpi .slt),
    StableHlo.TRef.nullary main_call1.c_0 (constantI S_ 32 50000#32),
    StableHlo.TRef.unary main_call1.c_0 main_call1.v2 (broadcastInDim S800000 ![] bcast_S_S800000),
    StableHlo.TRef.binary (StableHlo.TRef.of main_v2 : StableHlo.TRef sig ⟨S800000, .i32⟩) main_call1.v2 main_call1.v3 addi,
    StableHlo.TRef.ternary main_call1.v1 main_call1.v3 (StableHlo.TRef.of main_v2 : StableHlo.TRef sig ⟨S800000, .i32⟩) main_call1.call0.v0 select,
    StableHlo.TRef.unary main_call1.call0.v0 main_call1.v5 (broadcastInDim S800000x1 ![0] bcast_S800000_S800000x1_0),
    StableHlo.TRef.nullary main_call1.c_1 (constantI S1 32 49999#32),
    StableHlo.TRef.nullary main_call1.c_2 (constantI S_ 32 0#32),
    StableHlo.TRef.unary main_call1.c_2 main_call1.v6 (broadcastInDim S800000x1 ![] bcast_S_S800000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S800000x1 ![0, 1] bcast_S1x1_S800000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S800000x1_S800000_d1 h_S_),
    StableHlo.TRef.binary (StableHlo.TRef.of main_v19 : StableHlo.TRef sig ⟨S4x50000x64, .f32⟩) main_call1.v5 main_call1.v13 (fun x i => Host.gather gather_S4x50000x64_S800000x1_S4x800000x64_02_1_n_n_1_1_4164 x i),
    StableHlo.TRef.unary main_call1.v12 main_call1.v14 (broadcastInDim S4x800000x64 ![1] bcast_S800000_S4x800000x64_1),
    StableHlo.TRef.nullary main_call1.cst (constant S_ .f32 0x7FC00000#32),
    StableHlo.TRef.unary main_call1.cst main_call1.v15 (broadcastInDim S4x800000x64 ![] bcast_S_S4x800000x64),
    StableHlo.TRef.ternary main_call1.v14 main_call1.v13 main_call1.v15 main_call1.v16 select,
    StableHlo.nullary main_cst_5 (constant S_ .f32 0x00000000#32),
    StableHlo.unary main_cst_5 main_v21 (broadcastInDim S4x50000x64 ![] bcast_S_S4x50000x64 : (⟨S_, .f32⟩ : BufTy).Contents (Elt F) → (⟨S4x50000x64, .f32⟩ : BufTy).Contents (Elt F)),
    StableHlo.nullary main_c_6 (constantI S_ 32 0#32),
    StableHlo.unary main_c_6 main_v22 (broadcastInDim S800000 ![] bcast_S_S800000 : (⟨S_, .i32⟩ : BufTy).Contents (Elt F) → (⟨S800000, .i32⟩ : BufTy).Contents (Elt F)),
    StableHlo.binary main_v4 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v24 (broadcastInDim S800000 ![] bcast_S_S800000 : (⟨S_, .i32⟩ : BufTy).Contents (Elt F) → (⟨S800000, .i32⟩ : BufTy).Contents (Elt F)),
    StableHlo.binary main_v4 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v4 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.ternary main_v21 main_v27 main_v20 main_v28 ((fun x i u => Host.scatterAdd scatter_S4x50000x64_S800000x1_S4x800000x64_02_1_1_1 x i u) : (⟨S4x50000x64, .f32⟩ : BufTy).Contents (Elt F) → (⟨S800000x1, .i32⟩ : BufTy).Contents (Elt F) → (⟨S4x800000x64, .f32⟩ : BufTy).Contents (Elt F) → (⟨S4x50000x64, .f32⟩ : BufTy).Contents (Elt F)),
    StableHlo.unary main_v18 main_v29 (broadcastInDim S1x50000x1 ![1] bcast_S50000_S1x50000x1_1 : (⟨S50000, .f32⟩ : BufTy).Contents (Elt F) → (⟨S1x50000x1, .f32⟩ : BufTy).Contents (Elt F)),
    StableHlo.unary main_v29 main_v30 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    StableHlo.binary main_v28 main_v30 main_v31 (mulf : (⟨S4x50000x64, .f32⟩ : BufTy).Contents (Elt F) → (⟨S4x50000x64, .f32⟩ : BufTy).Contents (Elt F) → (⟨S4x50000x64, .f32⟩ : BufTy).Contents (Elt F)),
    StableHlo.binary main_v31 main_arg2 main_v32 ((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg3 main_v33 (broadcastInDim S1x1x64 ![2] bcast_S64_S1x1x64_2 : (⟨S64, .f32⟩ : BufTy).Contents (Elt F) → (⟨S1x1x64, .f32⟩ : BufTy).Contents (Elt F)),
    StableHlo.unary main_v33 main_v34 (broadcastInDim S4x50000x64 ![0, 1, 2] bcast_S1x1x64_S4x50000x64_0_1_2 : (⟨S1x1x64, .f32⟩ : BufTy).Contents (Elt F) → (⟨S4x50000x64, .f32⟩ : BufTy).Contents (Elt F)),
    StableHlo.binary main_v32 main_v34 main_v35 (addf : (⟨S4x50000x64, .f32⟩ : BufTy).Contents (Elt F) → (⟨S4x50000x64, .f32⟩ : BufTy).Contents (Elt F) → (⟨S4x50000x64, .f32⟩ : BufTy).Contents (Elt F)),
    StableHlo.binary main_v19 main_arg4 main_v36 ((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)),
    StableHlo.binary main_v35 main_v36 main_v37 (addf : (⟨S4x50000x64, .f32⟩ : BufTy).Contents (Elt F) → (⟨S4x50000x64, .f32⟩ : BufTy).Contents (Elt F) → (⟨S4x50000x64, .f32⟩ : BufTy).Contents (Elt F)),
    StableHlo.nullary main_cst_8 (constant S_ .f32 0x00000000#32),
    StableHlo.unary main_cst_8 main_v38 (broadcastInDim S4x50000x64 ![] bcast_S_S4x50000x64 : (⟨S_, .f32⟩ : BufTy).Contents (Elt F) → (⟨S4x50000x64, .f32⟩ : BufTy).Contents (Elt F)),
    StableHlo.binary main_v37 main_v38 main_v39 (cmpf .oge : (⟨S4x50000x64, .f32⟩ : BufTy).Contents (Elt F) → (⟨S4x50000x64, .f32⟩ : BufTy).Contents (Elt F) → (⟨S4x50000x64, .i1⟩ : BufTy).Contents (Elt F)),
    StableHlo.unary main_arg5 main_v40 (broadcastInDim S4x50000x64 ![] bcast_S_S4x50000x64 : (⟨S_, .f32⟩ : BufTy).Contents (Elt F) → (⟨S4x50000x64, .f32⟩ : BufTy).Contents (Elt F)),
    StableHlo.binary main_v40 main_v37 main_v41 (mulf : (⟨S4x50000x64, .f32⟩ : BufTy).Contents (Elt F) → (⟨S4x50000x64, .f32⟩ : BufTy).Contents (Elt F) → (⟨S4x50000x64, .f32⟩ : BufTy).Contents (Elt F)),
    StableHlo.TRef.ternary (StableHlo.TRef.of main_v39 : StableHlo.TRef sig ⟨S4x50000x64, .i1⟩) (StableHlo.TRef.of main_v37 : StableHlo.TRef sig ⟨S4x50000x64, .f32⟩) (StableHlo.TRef.of main_v41 : StableHlo.TRef sig ⟨S4x50000x64, .f32⟩) main_call2.v0 select ]

/-- The second layer's gather and the start of its index chain. -/
abbrev c2a : List (HloOp τ sig (Elt F)) :=
  [ StableHlo.TRef.nullary main_call3.c (constantI S_ 32 0#32),
    StableHlo.TRef.unary main_call3.c main_call3.v0 (broadcastInDim S800000 ![] bcast_S_S800000),
    StableHlo.TRef.binary (StableHlo.TRef.of main_v2 : StableHlo.TRef sig ⟨S800000, .i32⟩) main_call3.v0 main_call3.v1 (cmpi .slt),
    StableHlo.TRef.nullary main_call3.c_0 (constantI S_ 32 50000#32),
    StableHlo.TRef.unary main_call3.c_0 main_call3.v2 (broadcastInDim S800000 ![] bcast_S_S800000),
    StableHlo.TRef.binary (StableHlo.TRef.of main_v2 : StableHlo.TRef sig ⟨S800000, .i32⟩) main_call3.v2 main_call3.v3 addi,
    StableHlo.TRef.ternary main_call3.v1 main_call3.v3 (StableHlo.TRef.of main_v2 : StableHlo.TRef sig ⟨S800000, .i32⟩) main_call3.call0.v0 select,
    StableHlo.TRef.unary main_call3.call0.v0 main_call3.v5 (broadcastInDim S800000x1 ![0] bcast_S800000_S800000x1_0),
    StableHlo.TRef.nullary main_call3.c_1 (constantI S1 32 49999#32),
    StableHlo.TRef.nullary main_call3.c_2 (constantI S_ 32 0#32),
    StableHlo.TRef.unary main_call3.c_2 main_call3.v6 (broadcastInDim S800000x1 ![] bcast_S_S800000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S800000x1 ![0, 1] bcast_S1x1_S800000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S800000x1_S800000_d1 h_S_),
    StableHlo.TRef.binary (StableHlo.TRef.of main_v42 : StableHlo.TRef sig ⟨S4x50000x64, .f32⟩) main_call3.v5 main_call3.v13 (fun x i => Host.gather gather_S4x50000x64_S800000x1_S4x800000x64_02_1_n_n_1_1_4164 x i),
    StableHlo.TRef.unary main_call3.v12 main_call3.v14 (broadcastInDim S4x800000x64 ![1] bcast_S800000_S4x800000x64_1),
    StableHlo.TRef.nullary main_call3.cst (constant S_ .f32 0x7FC00000#32),
    StableHlo.TRef.unary main_call3.cst main_call3.v15 (broadcastInDim S4x800000x64 ![] bcast_S_S4x800000x64),
    StableHlo.TRef.ternary main_call3.v14 main_call3.v13 main_call3.v15 main_call3.v16 select,
    StableHlo.nullary main_cst_9 (constant S_ .f32 0x00000000#32),
    StableHlo.unary main_cst_9 main_v44 (broadcastInDim S4x50000x64 ![] bcast_S_S4x50000x64 : (⟨S_, .f32⟩ : BufTy).Contents (Elt F) → (⟨S4x50000x64, .f32⟩ : BufTy).Contents (Elt F)),
    StableHlo.nullary main_c_10 (constantI S_ 32 0#32),
    StableHlo.unary main_c_10 main_v45 (broadcastInDim S800000 ![] bcast_S_S800000 : (⟨S_, .i32⟩ : BufTy).Contents (Elt F) → (⟨S800000, .i32⟩ : BufTy).Contents (Elt F)),
    StableHlo.binary main_v4 main_v45 main_v46 (cmpi .slt : (⟨S800000, .i32⟩ : BufTy).Contents (Elt F) → (⟨S800000, .i32⟩ : BufTy).Contents (Elt F) → (⟨S800000, .i1⟩ : BufTy).Contents (Elt F)) ]

/-- The rest of the second layer. -/
abbrev c2b : List (HloOp τ sig (Elt F)) :=
  [ StableHlo.nullary main_c_11 (constantI S_ 32 50000#32),
    StableHlo.unary main_c_11 main_v47 (broadcastInDim S800000 ![] bcast_S_S800000 : (⟨S_, .i32⟩ : BufTy).Contents (Elt F) → (⟨S800000, .i32⟩ : BufTy).Contents (Elt F)),
    StableHlo.binary main_v4 main_v47 main_v48 (addi : (⟨S800000, .i32⟩ : BufTy).Contents (Elt F) → (⟨S800000, .i32⟩ : BufTy).Contents (Elt F) → (⟨S800000, .i32⟩ : BufTy).Contents (Elt F)),
    StableHlo.ternary main_v46 main_v48 main_v4 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v49 main_v50 (broadcastInDim S800000x1 ![0] bcast_S800000_S800000x1_0 : (⟨S800000, .i32⟩ : BufTy).Contents (Elt F) → (⟨S800000x1, .i32⟩ : BufTy).Contents (Elt F)),
    StableHlo.ternary main_v44 main_v50 main_v43 main_v51 ((fun x i u => Host.scatterAdd scatter_S4x50000x64_S800000x1_S4x800000x64_02_1_1_1 x i u) : (⟨S4x50000x64, .f32⟩ : BufTy).Contents (Elt F) → (⟨S800000x1, .i32⟩ : BufTy).Contents (Elt F) → (⟨S4x800000x64, .f32⟩ : BufTy).Contents (Elt F) → (⟨S4x50000x64, .f32⟩ : BufTy).Contents (Elt F)),
    StableHlo.unary main_v18 main_v52 (broadcastInDim S1x50000x1 ![1] bcast_S50000_S1x50000x1_1 : (⟨S50000, .f32⟩ : BufTy).Contents (Elt F) → (⟨S1x50000x1, .f32⟩ : BufTy).Contents (Elt F)),
    StableHlo.unary main_v52 main_v53 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    StableHlo.binary main_v51 main_v53 main_v54 (mulf : (⟨S4x50000x64, .f32⟩ : BufTy).Contents (Elt F) → (⟨S4x50000x64, .f32⟩ : BufTy).Contents (Elt F) → (⟨S4x50000x64, .f32⟩ : BufTy).Contents (Elt F)),
    StableHlo.binary main_v54 main_arg6 main_v55 ((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg7 main_v56 (broadcastInDim S1x1x64 ![2] bcast_S64_S1x1x64_2 : (⟨S64, .f32⟩ : BufTy).Contents (Elt F) → (⟨S1x1x64, .f32⟩ : BufTy).Contents (Elt F)),
    StableHlo.unary main_v56 main_v57 (broadcastInDim S4x50000x64 ![0, 1, 2] bcast_S1x1x64_S4x50000x64_0_1_2 : (⟨S1x1x64, .f32⟩ : BufTy).Contents (Elt F) → (⟨S4x50000x64, .f32⟩ : BufTy).Contents (Elt F)),
    StableHlo.binary main_v55 main_v57 main_v58 (addf : (⟨S4x50000x64, .f32⟩ : BufTy).Contents (Elt F) → (⟨S4x50000x64, .f32⟩ : BufTy).Contents (Elt F) → (⟨S4x50000x64, .f32⟩ : BufTy).Contents (Elt F)),
    StableHlo.binary main_v42 main_arg8 main_v59 ((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)),
    StableHlo.binary main_v58 main_v59 main_v60 (addf : (⟨S4x50000x64, .f32⟩ : BufTy).Contents (Elt F) → (⟨S4x50000x64, .f32⟩ : BufTy).Contents (Elt F) → (⟨S4x50000x64, .f32⟩ : BufTy).Contents (Elt F)),
    StableHlo.nullary main_cst_12 (constant S_ .f32 0x00000000#32),
    StableHlo.unary main_cst_12 main_v61 (broadcastInDim S4x50000x64 ![] bcast_S_S4x50000x64 : (⟨S_, .f32⟩ : BufTy).Contents (Elt F) → (⟨S4x50000x64, .f32⟩ : BufTy).Contents (Elt F)),
    StableHlo.binary main_v60 main_v61 main_v62 (cmpf .oge : (⟨S4x50000x64, .f32⟩ : BufTy).Contents (Elt F) → (⟨S4x50000x64, .f32⟩ : BufTy).Contents (Elt F) → (⟨S4x50000x64, .i1⟩ : BufTy).Contents (Elt F)),
    StableHlo.unary main_arg9 main_v63 (broadcastInDim S4x50000x64 ![] bcast_S_S4x50000x64 : (⟨S_, .f32⟩ : BufTy).Contents (Elt F) → (⟨S4x50000x64, .f32⟩ : BufTy).Contents (Elt F)),
    StableHlo.binary main_v63 main_v60 main_v64 (mulf : (⟨S4x50000x64, .f32⟩ : BufTy).Contents (Elt F) → (⟨S4x50000x64, .f32⟩ : BufTy).Contents (Elt F) → (⟨S4x50000x64, .f32⟩ : BufTy).Contents (Elt F)),
    StableHlo.TRef.ternary (StableHlo.TRef.of main_v62 : StableHlo.TRef sig ⟨S4x50000x64, .i1⟩) (StableHlo.TRef.of main_v60 : StableHlo.TRef sig ⟨S4x50000x64, .f32⟩) (StableHlo.TRef.of main_v64 : StableHlo.TRef sig ⟨S4x50000x64, .f32⟩) main_call4.v0 select ]

/-- The third layer and the final reshape. -/
abbrev c3 : List (HloOp τ sig (Elt F)) :=
  [ StableHlo.TRef.nullary main_call5.c (constantI S_ 32 0#32),
    StableHlo.TRef.unary main_call5.c main_call5.v0 (broadcastInDim S800000 ![] bcast_S_S800000),
    StableHlo.TRef.binary (StableHlo.TRef.of main_v2 : StableHlo.TRef sig ⟨S800000, .i32⟩) main_call5.v0 main_call5.v1 (cmpi .slt),
    StableHlo.TRef.nullary main_call5.c_0 (constantI S_ 32 50000#32),
    StableHlo.TRef.unary main_call5.c_0 main_call5.v2 (broadcastInDim S800000 ![] bcast_S_S800000),
    StableHlo.TRef.binary (StableHlo.TRef.of main_v2 : StableHlo.TRef sig ⟨S800000, .i32⟩) main_call5.v2 main_call5.v3 addi,
    StableHlo.TRef.ternary main_call5.v1 main_call5.v3 (StableHlo.TRef.of main_v2 : StableHlo.TRef sig ⟨S800000, .i32⟩) main_call5.call0.v0 select,
    StableHlo.TRef.unary main_call5.call0.v0 main_call5.v5 (broadcastInDim S800000x1 ![0] bcast_S800000_S800000x1_0),
    StableHlo.TRef.nullary main_call5.c_1 (constantI S1 32 49999#32),
    StableHlo.TRef.nullary main_call5.c_2 (constantI S_ 32 0#32),
    StableHlo.TRef.unary main_call5.c_2 main_call5.v6 (broadcastInDim S800000x1 ![] bcast_S_S800000x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S800000x1 ![0, 1] bcast_S1x1_S800000x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S800000x1_S800000_d1 h_S_),
    StableHlo.TRef.binary (StableHlo.TRef.of main_v65 : StableHlo.TRef sig ⟨S4x50000x64, .f32⟩) main_call5.v5 main_call5.v13 (fun x i => Host.gather gather_S4x50000x64_S800000x1_S4x800000x64_02_1_n_n_1_1_4164 x i),
    StableHlo.TRef.unary main_call5.v12 main_call5.v14 (broadcastInDim S4x800000x64 ![1] bcast_S800000_S4x800000x64_1),
    StableHlo.TRef.nullary main_call5.cst (constant S_ .f32 0x7FC00000#32),
    StableHlo.TRef.unary main_call5.cst main_call5.v15 (broadcastInDim S4x800000x64 ![] bcast_S_S4x800000x64),
    StableHlo.TRef.ternary main_call5.v14 main_call5.v13 main_call5.v15 main_call5.v16 select,
    StableHlo.nullary main_cst_13 (constant S_ .f32 0x00000000#32),
    StableHlo.unary main_cst_13 main_v67 (broadcastInDim S4x50000x64 ![] bcast_S_S4x50000x64 : (⟨S_, .f32⟩ : BufTy).Contents (Elt F) → (⟨S4x50000x64, .f32⟩ : BufTy).Contents (Elt F)),
    StableHlo.nullary main_c_14 (constantI S_ 32 0#32),
    StableHlo.unary main_c_14 main_v68 (broadcastInDim S800000 ![] bcast_S_S800000 : (⟨S_, .i32⟩ : BufTy).Contents (Elt F) → (⟨S800000, .i32⟩ : BufTy).Contents (Elt F)),
    StableHlo.binary main_v4 main_v68 main_v69 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v70 (broadcastInDim S800000 ![] bcast_S_S800000 : (⟨S_, .i32⟩ : BufTy).Contents (Elt F) → (⟨S800000, .i32⟩ : BufTy).Contents (Elt F)),
    StableHlo.binary main_v4 main_v70 main_v71 (addi : (⟨S800000, .i32⟩ : BufTy).Contents (Elt F) → (⟨S800000, .i32⟩ : BufTy).Contents (Elt F) → (⟨S800000, .i32⟩ : BufTy).Contents (Elt F)),
    StableHlo.ternary main_v69 main_v71 main_v4 main_v72 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v72 main_v73 (broadcastInDim S800000x1 ![0] bcast_S800000_S800000x1_0 : (⟨S800000, .i32⟩ : BufTy).Contents (Elt F) → (⟨S800000x1, .i32⟩ : BufTy).Contents (Elt F)),
    StableHlo.ternary main_v67 main_v73 main_v66 main_v74 ((fun x i u => Host.scatterAdd scatter_S4x50000x64_S800000x1_S4x800000x64_02_1_1_1 x i u) : (⟨S4x50000x64, .f32⟩ : BufTy).Contents (Elt F) → (⟨S800000x1, .i32⟩ : BufTy).Contents (Elt F) → (⟨S4x800000x64, .f32⟩ : BufTy).Contents (Elt F) → (⟨S4x50000x64, .f32⟩ : BufTy).Contents (Elt F)),
    StableHlo.unary main_v18 main_v75 (broadcastInDim S1x50000x1 ![1] bcast_S50000_S1x50000x1_1 : (⟨S50000, .f32⟩ : BufTy).Contents (Elt F) → (⟨S1x50000x1, .f32⟩ : BufTy).Contents (Elt F)),
    StableHlo.unary main_v75 main_v76 (broadcastInDim S4x50000x64 ![0, 1, 2] bcast_S1x50000x1_S4x50000x64_0_1_2 : (⟨S1x50000x1, .f32⟩ : BufTy).Contents (Elt F) → (⟨S4x50000x64, .f32⟩ : BufTy).Contents (Elt F)),
    StableHlo.binary main_v74 main_v76 main_v77 (mulf : (⟨S4x50000x64, .f32⟩ : BufTy).Contents (Elt F) → (⟨S4x50000x64, .f32⟩ : BufTy).Contents (Elt F) → (⟨S4x50000x64, .f32⟩ : BufTy).Contents (Elt F)),
    StableHlo.binary main_v77 main_arg10 main_v78 ((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)),
    StableHlo.unary main_arg11 main_v79 (broadcastInDim S1x1x64 ![2] bcast_S64_S1x1x64_2 : (⟨S64, .f32⟩ : BufTy).Contents (Elt F) → (⟨S1x1x64, .f32⟩ : BufTy).Contents (Elt F)),
    StableHlo.unary main_v79 main_v80 (broadcastInDim S4x50000x64 ![0, 1, 2] bcast_S1x1x64_S4x50000x64_0_1_2 : (⟨S1x1x64, .f32⟩ : BufTy).Contents (Elt F) → (⟨S4x50000x64, .f32⟩ : BufTy).Contents (Elt F)),
    StableHlo.binary main_v78 main_v80 main_v81 (addf : (⟨S4x50000x64, .f32⟩ : BufTy).Contents (Elt F) → (⟨S4x50000x64, .f32⟩ : BufTy).Contents (Elt F) → (⟨S4x50000x64, .f32⟩ : BufTy).Contents (Elt F)),
    StableHlo.binary main_v65 main_arg12 main_v82 ((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)),
    StableHlo.binary main_v81 main_v82 main_v83 (addf : (⟨S4x50000x64, .f32⟩ : BufTy).Contents (Elt F) → (⟨S4x50000x64, .f32⟩ : BufTy).Contents (Elt F) → (⟨S4x50000x64, .f32⟩ : BufTy).Contents (Elt F)),
    StableHlo.nullary main_cst_16 (constant S_ .f32 0x00000000#32),
    StableHlo.unary main_cst_16 main_v84 (broadcastInDim S4x50000x64 ![] bcast_S_S4x50000x64 : (⟨S_, .f32⟩ : BufTy).Contents (Elt F) → (⟨S4x50000x64, .f32⟩ : BufTy).Contents (Elt F)),
    StableHlo.binary main_v83 main_v84 main_v85 (cmpf .oge : (⟨S4x50000x64, .f32⟩ : BufTy).Contents (Elt F) → (⟨S4x50000x64, .f32⟩ : BufTy).Contents (Elt F) → (⟨S4x50000x64, .i1⟩ : BufTy).Contents (Elt F)),
    StableHlo.unary main_arg13 main_v86 (broadcastInDim S4x50000x64 ![] bcast_S_S4x50000x64 : (⟨S_, .f32⟩ : BufTy).Contents (Elt F) → (⟨S4x50000x64, .f32⟩ : BufTy).Contents (Elt F)),
    StableHlo.binary main_v86 main_v83 main_v87 (mulf : (⟨S4x50000x64, .f32⟩ : BufTy).Contents (Elt F) → (⟨S4x50000x64, .f32⟩ : BufTy).Contents (Elt F) → (⟨S4x50000x64, .f32⟩ : BufTy).Contents (Elt F)),
    StableHlo.TRef.ternary (StableHlo.TRef.of main_v85 : StableHlo.TRef sig ⟨S4x50000x64, .i1⟩) (StableHlo.TRef.of main_v83 : StableHlo.TRef sig ⟨S4x50000x64, .f32⟩) (StableHlo.TRef.of main_v87 : StableHlo.TRef sig ⟨S4x50000x64, .f32⟩) main_call6.v0 select,
    StableHlo.reshape main_v88 main_v89 rfl shapeCasts_S4x50000x64_S4x3200000 ]

/-- @main's operations, in order. -/
abbrev ops : List (HloOp τ sig (Elt F)) := c0 ++ (c1 ++ (c2a ++ (c2b ++ c3)))

/-! ## @main is that line -/

set_option maxRecDepth 16384 in
set_option maxHeartbeats 4000000 in
/-- The first window of @main is the first three stretches: the called functions' definitions unfold at their
    calls, and both sides are one chain of steps once sequencing is reassociated (the window's last step stands
    in tail position, which is the same step followed by the return). -/
theorem part0_eq (c : Dev nD) : main_part0 (F := F) c = seq (c0 ++ (c1 ++ c2a)) := by
  simp only [main_part0, fn_where.body, fn_where_0.body, fn_take.body, fn_where_1.body, seq_append, seq, bind_assoc, pure_bind]
  rfl

set_option maxRecDepth 16384 in
set_option maxHeartbeats 4000000 in
/-- The second window of @main is the last two stretches. -/
theorem part1_eq (c : Dev nD) : main_part1 (F := F) c = seq (c2b ++ c3) := by
  simp only [main_part1, fn_where.body, fn_where_0.body, fn_take.body, fn_where_1.body, seq_append, seq, bind_assoc, pure_bind]

/-- @main, its two windows in order, is the whole line. -/
theorem main_eq (c : Dev nD) : main (F := F) c = seq ops := by
  show (main_part0 (F := F) c >>= fun _ => main_part1 (F := F) c) = seq ops
  rw [part0_eq, part1_eq, ← seq_append]
  simp only [ops, List.append_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and determines its result -/

set_option maxRecDepth 8192 in
theorem c0_sub : (c0 : List (HloOp τ sig (Elt F))).Forall fun op => op.bufs ⊆ tcRefs τ sig :=
  ⟨reshape_bufs_sub .., unary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., reshape_bufs_sub ..⟩
set_option maxRecDepth 8192 in
theorem c0_fresh : ∀ op ∈ (c0 : List (HloOp τ sig (Elt F))), op.fresh = ∅ := by
  intro _ h; (repeat (cases h with | head => rfl | tail _ h => ?_)); exact nomatch h

set_option maxRecDepth 8192 in
theorem c1_sub : (c1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., binary_bufs_sub .., ternary_bufs_sub ..⟩
set_option maxRecDepth 8192 in
theorem c1_fresh : ∀ op ∈ (c1 : List (HloOp τ sig (Elt F))), op.fresh = ∅ := by
  intro _ h; (repeat (cases h with | head => rfl | tail _ h => ?_)); exact nomatch h

set_option maxRecDepth 8192 in
theorem c2a_sub : (c2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub ..⟩
set_option maxRecDepth 8192 in
theorem c2a_fresh : ∀ op ∈ (c2a : List (HloOp τ sig (Elt F))), op.fresh = ∅ := by
  intro _ h; (repeat (cases h with | head => rfl | tail _ h => ?_)); exact nomatch h

set_option maxRecDepth 8192 in
theorem c2b_sub : (c2b : List (HloOp τ sig (Elt F))).Forall fun op => op.bufs ⊆ tcRefs τ sig :=
  ⟨nullary_bufs_sub .., unary_bufs_sub .., binary_bufs_sub .., ternary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., binary_bufs_sub .., ternary_bufs_sub ..⟩
set_option maxRecDepth 8192 in
theorem c2b_fresh : ∀ op ∈ (c2b : List (HloOp τ sig (Elt F))), op.fresh = ∅ := by
  intro _ h; (repeat (cases h with | head => rfl | tail _ h => ?_)); exact nomatch h

set_option maxRecDepth 8192 in
theorem c3_sub : (c3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., unary_bufs_sub .., binary_bufs_sub .., ternary_bufs_sub .., reshape_bufs_sub ..⟩
set_option maxRecDepth 8192 in
theorem c3_fresh : ∀ op ∈ (c3 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp c0_sub op h, List.forall_iff_forall_mem.mp c1_sub op h, List.forall_iff_forall_mem.mp c2a_sub op h, List.forall_iff_forall_mem.mp c2b_sub op h, List.forall_iff_forall_mem.mp c3_sub op h]

theorem ops_fresh : ∀ op ∈ (ops : List (HloOp τ sig (Elt F))), op.fresh = ∅ := fun op h => by
  simp only [ops, List.mem_append] at h
  rcases h with h | h | h | h | h
  exacts [c0_fresh op h, c1_fresh op h, c2a_fresh op h, c2b_fresh op h, c3_fresh op h]

/-! ## The run -/

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each stretch writes, and that the rest is kept -/

/-- The fold over two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers after the whole line: the five stretches' folds, one after the other. -/
theorem after_ops (V : Valuation τ sig (Elt F)) :
    after ops V = after c3 (after c2b (after c2a (after c1 (after c0 V)))) := by
  simp only [ops, after_app]

/-- The buffers that stretch `c0` writes, one per operation. -/
abbrev c0_W : List (Ref sig .tc) := [main_v0, main_v1, main_v2, main_v3, main_v4, main_cst, main_v5, main_c, main_v6, main_v7, main_c_0, main_v8, main_v9, main_v10, main_v11, main_cst_1, main_v12, main_v13, main_cst_2, main_v14, main_v15, main_cst_3, main_v16, main_v17, main_cst_4, main_call0.v0.ref, main_call0.v1.ref, main_call0.v2.ref, main_v19]
set_option maxRecDepth 8192 in
theorem c0_writes : (c0 : List (HloOp τ sig (Elt F))).Forall fun op => op.writes ⊆ (c0_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that stretch `c0` does not write keeps its contents through it. -/
theorem c0_keep (V : Valuation τ sig (Elt F)) (r : Ref sig .tc) (h : r ∉ c0_W) :
    after c0 V (Proc.devRef .tc r) = V (Proc.devRef .tc r) :=
  after_of_writes_sub c0 V c0_writes h

/-- The buffers that stretch `c1` writes, one per operation. -/
abbrev c1_W : List (Ref sig .tc) := [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref, main_cst_5, main_v21, main_c_6, main_v22, main_v23, main_c_7, main_v24, main_v25, main_v26, main_v27, main_v28, main_v29, main_v30, main_v31, main_v32, main_v33, main_v34, main_v35, main_v36, main_v37, main_cst_8, main_v38, main_v39, main_v40, main_v41, main_call2.v0.ref]
set_option maxRecDepth 8192 in
theorem c1_writes : (c1 : List (HloOp τ sig (Elt F))).Forall fun op => op.writes ⊆ (c1_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that stretch `c1` does not write keeps its contents through it. -/
theorem c1_keep (V : Valuation τ sig (Elt F)) (r : Ref sig .tc) (h : r ∉ c1_W) :
    after c1 V (Proc.devRef .tc r) = V (Proc.devRef .tc r) :=
  after_of_writes_sub c1 V c1_writes h

/-- The buffers that stretch `c2a` writes, one per operation. -/
abbrev c2a_W : List (Ref sig .tc) := [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref, main_cst_9, main_v44, main_c_10, main_v45, main_v46]
set_option maxRecDepth 8192 in
theorem c2a_writes : (c2a : List (HloOp τ sig (Elt F))).Forall fun op => op.writes ⊆ (c2a_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that stretch `c2a` does not write keeps its contents through it. -/
theorem c2a_keep (V : Valuation τ sig (Elt F)) (r : Ref sig .tc) (h : r ∉ c2a_W) :
    after c2a V (Proc.devRef .tc r) = V (Proc.devRef .tc r) :=
  after_of_writes_sub c2a V c2a_writes h

/-- The buffers that stretch `c2b` writes, one per operation. -/
abbrev c2b_W : List (Ref sig .tc) := [main_c_11, main_v47, main_v48, main_v49, main_v50, main_v51, main_v52, main_v53, main_v54, main_v55, main_v56, main_v57, main_v58, main_v59, main_v60, main_cst_12, main_v61, main_v62, main_v63, main_v64, main_call4.v0.ref]
set_option maxRecDepth 8192 in
theorem c2b_writes : (c2b : List (HloOp τ sig (Elt F))).Forall fun op => op.writes ⊆ (c2b_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that stretch `c2b` does not write keeps its contents through it. -/
theorem c2b_keep (V : Valuation τ sig (Elt F)) (r : Ref sig .tc) (h : r ∉ c2b_W) :
    after c2b V (Proc.devRef .tc r) = V (Proc.devRef .tc r) :=
  after_of_writes_sub c2b V c2b_writes h

/-- The buffers that stretch `c3` writes, one per operation. -/
abbrev c3_W : List (Ref sig .tc) := [main_call5.c.ref, main_call5.v0.ref, main_call5.v1.ref, main_call5.c_0.ref, main_call5.v2.ref, main_call5.v3.ref, main_call5.call0.v0.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.v14.ref, main_call5.cst.ref, main_call5.v15.ref, main_call5.v16.ref, main_cst_13, main_v67, main_c_14, main_v68, main_v69, main_c_15, main_v70, main_v71, main_v72, main_v73, main_v74, main_v75, main_v76, main_v77, main_v78, main_v79, main_v80, main_v81, main_v82, main_v83, main_cst_16, main_v84, main_v85, main_v86, main_v87, main_call6.v0.ref, main_v89]
set_option maxRecDepth 8192 in
theorem c3_writes : (c3 : List (HloOp τ sig (Elt F))).Forall fun op => op.writes ⊆ (c3_W.map (Proc.devRef (τ := τ) .tc)).toFinset :=
  ⟨Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide))),
   Finset.singleton_subset_iff.mpr (List.mem_toFinset.mpr (List.mem_map_of_mem (by decide)))⟩
/-- A buffer that stretch `c3` does not write keeps its contents through it. -/
theorem c3_keep (V : Valuation τ sig (Elt F)) (r : Ref sig .tc) (h : r ∉ c3_W) :
    after c3 V (Proc.devRef .tc r) = V (Proc.devRef .tc r) :=
  after_of_writes_sub c3 V c3_writes h

/-! ## The arguments are written by no operation -/

theorem arg0_eq (V : Valuation τ sig (Elt F)) : after ops V (main_arg0 : DevRef τ sig) = V (main_arg0 : DevRef τ sig) := by
  rw [after_ops, c3_keep _ main_arg0 (by decide), c2b_keep _ main_arg0 (by decide), c2a_keep _ main_arg0 (by decide),
    c1_keep _ main_arg0 (by decide), c0_keep _ main_arg0 (by decide)]
theorem arg1_eq (V : Valuation τ sig (Elt F)) : after ops V (main_arg1 : DevRef τ sig) = V (main_arg1 : DevRef τ sig) := by
  rw [after_ops, c3_keep _ main_arg1 (by decide), c2b_keep _ main_arg1 (by decide), c2a_keep _ main_arg1 (by decide),
    c1_keep _ main_arg1 (by decide), c0_keep _ main_arg1 (by decide)]
theorem arg2_eq (V : Valuation τ sig (Elt F)) : after ops V (main_arg2 : DevRef τ sig) = V (main_arg2 : DevRef τ sig) := by
  rw [after_ops, c3_keep _ main_arg2 (by decide), c2b_keep _ main_arg2 (by decide), c2a_keep _ main_arg2 (by decide),
    c1_keep _ main_arg2 (by decide), c0_keep _ main_arg2 (by decide)]
theorem arg3_eq (V : Valuation τ sig (Elt F)) : after ops V (main_arg3 : DevRef τ sig) = V (main_arg3 : DevRef τ sig) := by
  rw [after_ops, c3_keep _ main_arg3 (by decide), c2b_keep _ main_arg3 (by decide), c2a_keep _ main_arg3 (by decide),
    c1_keep _ main_arg3 (by decide), c0_keep _ main_arg3 (by decide)]
theorem arg4_eq (V : Valuation τ sig (Elt F)) : after ops V (main_arg4 : DevRef τ sig) = V (main_arg4 : DevRef τ sig) := by
  rw [after_ops, c3_keep _ main_arg4 (by decide), c2b_keep _ main_arg4 (by decide), c2a_keep _ main_arg4 (by decide),
    c1_keep _ main_arg4 (by decide), c0_keep _ main_arg4 (by decide)]
theorem arg5_eq (V : Valuation τ sig (Elt F)) : after ops V (main_arg5 : DevRef τ sig) = V (main_arg5 : DevRef τ sig) := by
  rw [after_ops, c3_keep _ main_arg5 (by decide), c2b_keep _ main_arg5 (by decide), c2a_keep _ main_arg5 (by decide),
    c1_keep _ main_arg5 (by decide), c0_keep _ main_arg5 (by decide)]
theorem arg6_eq (V : Valuation τ sig (Elt F)) : after ops V (main_arg6 : DevRef τ sig) = V (main_arg6 : DevRef τ sig) := by
  rw [after_ops, c3_keep _ main_arg6 (by decide), c2b_keep _ main_arg6 (by decide), c2a_keep _ main_arg6 (by decide),
    c1_keep _ main_arg6 (by decide), c0_keep _ main_arg6 (by decide)]
theorem arg7_eq (V : Valuation τ sig (Elt F)) : after ops V (main_arg7 : DevRef τ sig) = V (main_arg7 : DevRef τ sig) := by
  rw [after_ops, c3_keep _ main_arg7 (by decide), c2b_keep _ main_arg7 (by decide), c2a_keep _ main_arg7 (by decide),
    c1_keep _ main_arg7 (by decide), c0_keep _ main_arg7 (by decide)]
theorem arg8_eq (V : Valuation τ sig (Elt F)) : after ops V (main_arg8 : DevRef τ sig) = V (main_arg8 : DevRef τ sig) := by
  rw [after_ops, c3_keep _ main_arg8 (by decide), c2b_keep _ main_arg8 (by decide), c2a_keep _ main_arg8 (by decide),
    c1_keep _ main_arg8 (by decide), c0_keep _ main_arg8 (by decide)]
theorem arg9_eq (V : Valuation τ sig (Elt F)) : after ops V (main_arg9 : DevRef τ sig) = V (main_arg9 : DevRef τ sig) := by
  rw [after_ops, c3_keep _ main_arg9 (by decide), c2b_keep _ main_arg9 (by decide), c2a_keep _ main_arg9 (by decide),
    c1_keep _ main_arg9 (by decide), c0_keep _ main_arg9 (by decide)]
theorem arg10_eq (V : Valuation τ sig (Elt F)) : after ops V (main_arg10 : DevRef τ sig) = V (main_arg10 : DevRef τ sig) := by
  rw [after_ops, c3_keep _ main_arg10 (by decide), c2b_keep _ main_arg10 (by decide), c2a_keep _ main_arg10 (by decide),
    c1_keep _ main_arg10 (by decide), c0_keep _ main_arg10 (by decide)]
theorem arg11_eq (V : Valuation τ sig (Elt F)) : after ops V (main_arg11 : DevRef τ sig) = V (main_arg11 : DevRef τ sig) := by
  rw [after_ops, c3_keep _ main_arg11 (by decide), c2b_keep _ main_arg11 (by decide), c2a_keep _ main_arg11 (by decide),
    c1_keep _ main_arg11 (by decide), c0_keep _ main_arg11 (by decide)]
theorem arg12_eq (V : Valuation τ sig (Elt F)) : after ops V (main_arg12 : DevRef τ sig) = V (main_arg12 : DevRef τ sig) := by
  rw [after_ops, c3_keep _ main_arg12 (by decide), c2b_keep _ main_arg12 (by decide), c2a_keep _ main_arg12 (by decide),
    c1_keep _ main_arg12 (by decide), c0_keep _ main_arg12 (by decide)]
theorem arg13_eq (V : Valuation τ sig (Elt F)) : after ops V (main_arg13 : DevRef τ sig) = V (main_arg13 : DevRef τ sig) := by
  rw [after_ops, c3_keep _ main_arg13 (by decide), c2b_keep _ main_arg13 (by decide), c2a_keep _ main_arg13 (by decide),
    c1_keep _ main_arg13 (by decide), c0_keep _ main_arg13 (by decide)]

/-! ## The frame -/

/-- The reference runs — terminates, nothing faulting — and its fourteen argument arrays end unchanged: the run,
    read at each argument buffer, which no operation writes. -/
theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (run_main m g)

end Cert.ReferenceIdeal.Hand

end
-- ==== Proof.RefValue.lean ====
/-
  The reference's result as one composed function of its arguments. The line of operations is read stretch by
  stretch: the edge list gives the source rows, the destination rows and the reciprocal in-degree; each of the
  three layers takes the node features to the leaky selection of (mean of the gathered neighbours) · Wl + bl +
  features · Wr; the last is reshaped to the result. The composed terms are the operations' own functions applied
  in the order the program applies them; nothing here looks inside them.
-/
import proofs.«162317_j38147899523429_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The pieces -/

/-- The edges' source nodes: row 0 of the edge list. -/
def srcR (ei : (⟨S1x2x800000, .i32⟩ : BufTy).Contents (Elt F)) : (⟨S800000, .i32⟩ : BufTy).Contents (Elt F) :=
  (shapeCast S800000 (((extractStridedSlice S1x800000 ![0, 0] · slices_S2x800000_S1x800000_0_0) : (⟨S2x800000, .i32⟩ : BufTy).Contents (Elt F) → (⟨S1x800000, .i32⟩ : BufTy).Contents (Elt F)) (shapeCast S2x800000 ei shapeCasts_S1x2x800000_S2x800000)) shapeCasts_S1x800000_S800000)

/-- The edges' destination nodes: row 1 of the edge list. -/
def dstR (ei : (⟨S1x2x800000, .i32⟩ : BufTy).Contents (Elt F)) : (⟨S800000, .i32⟩ : BufTy).Contents (Elt F) :=
  (shapeCast S800000 (((extractStridedSlice S1x800000 ![1, 0] · slices_S2x800000_S1x800000_1_0) : (⟨S2x800000, .i32⟩ : BufTy).Contents (Elt F) → (⟨S1x800000, .i32⟩ : BufTy).Contents (Elt F)) (shapeCast S2x800000 ei shapeCasts_S1x2x800000_S2x800000)) shapeCasts_S1x800000_S800000)

/-- The reciprocal of each node's in-degree (the scatter-add of ones at the wrapped destinations), zero where the
    degree is zero. -/
def invDegCore (dst : (⟨S800000, .i32⟩ : BufTy).Contents (Elt F)) : (⟨S50000, .f32⟩ : BufTy).Contents (Elt F) :=
  ((select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)) ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) dst ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) dst ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) dst)) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F)))) ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F)))) ((Host.divf : (⟨S50000, .f32⟩ : BufTy).Contents (Elt F) → (⟨S50000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x3F800000#32 : (⟨S_, .f32⟩ : BufTy).Contents (Elt F))) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) dst ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) dst ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) dst)) ((broadcastInDim S800000 ![] bcast_S_S800000 : (⟨S_, .f32⟩ : BufTy).Contents (Elt F) → (⟨S800000, .f32⟩ : BufTy).Contents (Elt F)) (constant S_ .f32 0x3F800000#32 : (⟨S_, .f32⟩ : BufTy).Contents (Elt F))))) (((broadcastInDim S50000 ![] bcast_S_S50000) : (⟨S_, .f32⟩ : BufTy).Contents (Elt F) → (⟨S50000, .f32⟩ : BufTy).Contents (Elt F)) ((id : (⟨S_, .f32⟩ : BufTy).Contents (Elt F) → (⟨S_, .f32⟩ : BufTy).Contents (Elt F)) (constant S_ .f32 0x00000000#32 : (⟨S_, .f32⟩ : BufTy).Contents (Elt F)))))

/-- The same from the edge list. -/
def invDegR (ei : (⟨S1x2x800000, .i32⟩ : BufTy).Contents (Elt F)) : (⟨S50000, .f32⟩ : BufTy).Contents (Elt F) := invDegCore (dstR ei)

/-- The mean aggregation over given source rows, destination rows and reciprocal degrees: the rows of `h` taken at
    the (wrapped, in-range-masked) sources, scatter-added into zeros at the wrapped destinations, times the
    broadcast reciprocal degree. -/
def aggCore (h : (⟨S4x50000x64, .f32⟩ : BufTy).Contents (Elt F)) (src dst : (⟨S800000, .i32⟩ : BufTy).Contents (Elt F)) (inv : (⟨S50000, .f32⟩ : BufTy).Contents (Elt F)) : (⟨S4x50000x64, .f32⟩ : BufTy).Contents (Elt F) :=
  ((mulf : (⟨S4x50000x64, .f32⟩ : BufTy).Contents (Elt F) → (⟨S4x50000x64, .f32⟩ : BufTy).Contents (Elt F) → (⟨S4x50000x64, .f32⟩ : BufTy).Contents (Elt F)) (((fun x i u => Host.scatterAdd scatter_S4x50000x64_S800000x1_S4x800000x64_02_1_1_1 x i u) : (⟨S4x50000x64, .f32⟩ : BufTy).Contents (Elt F) → (⟨S800000x1, .i32⟩ : BufTy).Contents (Elt F) → (⟨S4x800000x64, .f32⟩ : BufTy).Contents (Elt F) → (⟨S4x50000x64, .f32⟩ : BufTy).Contents (Elt F)) ((broadcastInDim S4x50000x64 ![] bcast_S_S4x50000x64 : (⟨S_, .f32⟩ : BufTy).Contents (Elt F) → (⟨S4x50000x64, .f32⟩ : BufTy).Contents (Elt F)) (constant S_ .f32 0x00000000#32 : (⟨S_, .f32⟩ : BufTy).Contents (Elt F))) ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) dst ((broadcastInDim S800000 ![] bcast_S_S800000 : (⟨S_, .i32⟩ : BufTy).Contents (Elt F) → (⟨S800000, .i32⟩ : BufTy).Contents (Elt F)) (constantI S_ 32 0#32 : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) dst ((broadcastInDim S800000 ![] bcast_S_S800000 : (⟨S_, .i32⟩ : BufTy).Contents (Elt F) → (⟨S800000, .i32⟩ : BufTy).Contents (Elt F)) (constantI S_ 32 50000#32 : (⟨S_, .i32⟩ : BufTy).Contents (Elt F)))) dst)) ((select : (⟨S4x800000x64, .i1⟩ : BufTy).Contents (Elt F) → (⟨S4x800000x64, .f32⟩ : BufTy).Contents (Elt F) → (⟨S4x800000x64, .f32⟩ : BufTy).Contents (Elt F) → (⟨S4x800000x64, .f32⟩ : BufTy).Contents (Elt F)) (((broadcastInDim S4x800000x64 ![1] bcast_S800000_S4x800000x64_1) : (⟨S800000, .i1⟩ : BufTy).Contents (Elt F) → (⟨S4x800000x64, .i1⟩ : BufTy).Contents (Elt F)) (((fun x v => Host.reduce IntOp.andi x v reducesTo_S800000x1_S800000_d1 h_S_) : (⟨S800000x1, .i1⟩ : BufTy).Contents (Elt F) → (⟨S_, .i1⟩ : BufTy).Contents (Elt F) → (⟨S800000, .i1⟩ : BufTy).Contents (Elt F)) ((andi : (⟨S800000x1, .i1⟩ : BufTy).Contents (Elt F) → (⟨S800000x1, .i1⟩ : BufTy).Contents (Elt F) → (⟨S800000x1, .i1⟩ : BufTy).Contents (Elt F)) (((cmpi .sge) : (⟨S800000x1, .i32⟩ : BufTy).Contents (Elt F) → (⟨S800000x1, .i32⟩ : BufTy).Contents (Elt F) → (⟨S800000x1, .i1⟩ : BufTy).Contents (Elt F)) (((broadcastInDim S800000x1 ![0] bcast_S800000_S800000x1_0) : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (((cmpi .slt) : (⟨S800000, .i32⟩ : BufTy).Contents (Elt F) → (⟨S800000, .i32⟩ : BufTy).Contents (Elt F) → (⟨S800000, .i1⟩ : BufTy).Contents (Elt F)) src (((broadcastInDim S800000 ![] bcast_S_S800000) : (⟨S_, .i32⟩ : BufTy).Contents (Elt F) → (⟨S800000, .i32⟩ : BufTy).Contents (Elt F)) ((constantI S_ 32 0#32) : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) src (((broadcastInDim S800000 ![] bcast_S_S800000) : (⟨S_, .i32⟩ : BufTy).Contents (Elt F) → (⟨S800000, .i32⟩ : BufTy).Contents (Elt F)) ((constantI S_ 32 50000#32) : (⟨S_, .i32⟩ : BufTy).Contents (Elt F)))) src)) (((broadcastInDim S800000x1 ![] bcast_S_S800000x1) : (⟨S_, .i32⟩ : BufTy).Contents (Elt F) → (⟨S800000x1, .i32⟩ : BufTy).Contents (Elt F)) ((constantI S_ 32 0#32) : (⟨S_, .i32⟩ : BufTy).Contents (Elt F)))) (((cmpi .sle) : (⟨S800000x1, .i32⟩ : BufTy).Contents (Elt F) → (⟨S800000x1, .i32⟩ : BufTy).Contents (Elt F) → (⟨S800000x1, .i1⟩ : BufTy).Contents (Elt F)) (((broadcastInDim S800000x1 ![0] bcast_S800000_S800000x1_0) : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (((cmpi .slt) : (⟨S800000, .i32⟩ : BufTy).Contents (Elt F) → (⟨S800000, .i32⟩ : BufTy).Contents (Elt F) → (⟨S800000, .i1⟩ : BufTy).Contents (Elt F)) src (((broadcastInDim S800000 ![] bcast_S_S800000) : (⟨S_, .i32⟩ : BufTy).Contents (Elt F) → (⟨S800000, .i32⟩ : BufTy).Contents (Elt F)) ((constantI S_ 32 0#32) : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) src (((broadcastInDim S800000 ![] bcast_S_S800000) : (⟨S_, .i32⟩ : BufTy).Contents (Elt F) → (⟨S800000, .i32⟩ : BufTy).Contents (Elt F)) ((constantI S_ 32 50000#32) : (⟨S_, .i32⟩ : BufTy).Contents (Elt F)))) src)) (((broadcastInDim S800000x1 ![0, 1] bcast_S1x1_S800000x1_0_1) : (⟨S1x1, .i32⟩ : BufTy).Contents (Elt F) → (⟨S800000x1, .i32⟩ : BufTy).Contents (Elt F)) (((broadcastInDim S1x1 ![1] bcast_S1_S1x1_1) : (⟨S1, .i32⟩ : BufTy).Contents (Elt F) → (⟨S1x1, .i32⟩ : BufTy).Contents (Elt F)) ((constantI S1 32 49999#32) : (⟨S1, .i32⟩ : BufTy).Contents (Elt F)))))) ((constantI S_ 1 1#1) : (⟨S_, .i1⟩ : BufTy).Contents (Elt F)))) (((fun x i => Host.gather gather_S4x50000x64_S800000x1_S4x800000x64_02_1_n_n_1_1_4164 x i) : (⟨S4x50000x64, .f32⟩ : BufTy).Contents (Elt F) → (⟨S800000x1, .i32⟩ : BufTy).Contents (Elt F) → (⟨S4x800000x64, .f32⟩ : BufTy).Contents (Elt F)) h (((broadcastInDim S800000x1 ![0] bcast_S800000_S800000x1_0) : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (((cmpi .slt) : (⟨S800000, .i32⟩ : BufTy).Contents (Elt F) → (⟨S800000, .i32⟩ : BufTy).Contents (Elt F) → (⟨S800000, .i1⟩ : BufTy).Contents (Elt F)) src (((broadcastInDim S800000 ![] bcast_S_S800000) : (⟨S_, .i32⟩ : BufTy).Contents (Elt F) → (⟨S800000, .i32⟩ : BufTy).Contents (Elt F)) ((constantI S_ 32 0#32) : (⟨S_, .i32⟩ : BufTy).Contents (Elt F)))) ((addi : (⟨S800000, .i32⟩ : BufTy).Contents (Elt F) → (⟨S800000, .i32⟩ : BufTy).Contents (Elt F) → (⟨S800000, .i32⟩ : BufTy).Contents (Elt F)) src (((broadcastInDim S800000 ![] bcast_S_S800000) : (⟨S_, .i32⟩ : BufTy).Contents (Elt F) → (⟨S800000, .i32⟩ : BufTy).Contents (Elt F)) ((constantI S_ 32 50000#32) : (⟨S_, .i32⟩ : BufTy).Contents (Elt F)))) src))) (((broadcastInDim S4x800000x64 ![] bcast_S_S4x800000x64) : (⟨S_, .f32⟩ : BufTy).Contents (Elt F) → (⟨S4x800000x64, .f32⟩ : BufTy).Contents (Elt F)) ((constant S_ .f32 0x7FC00000#32) : (⟨S_, .f32⟩ : BufTy).Contents (Elt F))))) ((broadcastInDim S4x50000x64 ![0, 1, 2] bcast_S1x50000x1_S4x50000x64_0_1_2 : (⟨S1x50000x1, .f32⟩ : BufTy).Contents (Elt F) → (⟨S4x50000x64, .f32⟩ : BufTy).Contents (Elt F)) ((broadcastInDim S1x50000x1 ![1] bcast_S50000_S1x50000x1_1 : (⟨S50000, .f32⟩ : BufTy).Contents (Elt F) → (⟨S1x50000x1, .f32⟩ : BufTy).Contents (Elt F)) inv)))

/-- The mean aggregation of `h` over the edge list `ei`. -/
def aggR (h : (⟨S4x50000x64, .f32⟩ : BufTy).Contents (Elt F)) (ei : (⟨S1x2x800000, .i32⟩ : BufTy).Contents (Elt F)) : (⟨S4x50000x64, .f32⟩ : BufTy).Contents (Elt F) :=
  aggCore h (srcR ei) (dstR ei) (invDegR ei)

/-- A layer before its activation: `mean · Wl + bl + h · Wr`. -/
def preR (mean h : (⟨S4x50000x64, .f32⟩ : BufTy).Contents (Elt F)) (Wl : (⟨S64x64, .f32⟩ : BufTy).Contents (Elt F)) (bl : (⟨S64, .f32⟩ : BufTy).Contents (Elt F)) (Wr : (⟨S64x64, .f32⟩ : BufTy).Contents (Elt F)) : (⟨S4x50000x64, .f32⟩ : BufTy).Contents (Elt F) :=
  ((addf : (⟨S4x50000x64, .f32⟩ : BufTy).Contents (Elt F) → (⟨S4x50000x64, .f32⟩ : BufTy).Contents (Elt F) → (⟨S4x50000x64, .f32⟩ : BufTy).Contents (Elt F)) ((addf : (⟨S4x50000x64, .f32⟩ : BufTy).Contents (Elt F) → (⟨S4x50000x64, .f32⟩ : BufTy).Contents (Elt F) → (⟨S4x50000x64, .f32⟩ : BufTy).Contents (Elt F)) (((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)) mean Wl) ((broadcastInDim S4x50000x64 ![0, 1, 2] bcast_S1x1x64_S4x50000x64_0_1_2 : (⟨S1x1x64, .f32⟩ : BufTy).Contents (Elt F) → (⟨S4x50000x64, .f32⟩ : BufTy).Contents (Elt F)) ((broadcastInDim S1x1x64 ![2] bcast_S64_S1x1x64_2 : (⟨S64, .f32⟩ : BufTy).Contents (Elt F) → (⟨S1x1x64, .f32⟩ : BufTy).Contents (Elt F)) bl))) (((fun l r => Host.dotGeneral dot_S4x50000x64_S64x64_S4x50000x64_2_1_01_0_n_n none l r) : (⟨S4x50000x64, .f32⟩ : BufTy).Contents (Elt F) → (⟨S64x64, .f32⟩ : BufTy).Contents (Elt F) → (⟨S4x50000x64, .f32⟩ : BufTy).Contents (Elt F)) h Wr))

/-- A layer: the pre-activation where it is at least zero, else `a` times it. -/
def layerR (mean h : (⟨S4x50000x64, .f32⟩ : BufTy).Contents (Elt F)) (Wl : (⟨S64x64, .f32⟩ : BufTy).Contents (Elt F)) (bl : (⟨S64, .f32⟩ : BufTy).Contents (Elt F)) (Wr : (⟨S64x64, .f32⟩ : BufTy).Contents (Elt F)) (a : (⟨S_, .f32⟩ : BufTy).Contents (Elt F)) : (⟨S4x50000x64, .f32⟩ : BufTy).Contents (Elt F) :=
  ((select : (⟨S4x50000x64, .i1⟩ : BufTy).Contents (Elt F) → (⟨S4x50000x64, .f32⟩ : BufTy).Contents (Elt F) → (⟨S4x50000x64, .f32⟩ : BufTy).Contents (Elt F) → (⟨S4x50000x64, .f32⟩ : BufTy).Contents (Elt F)) ((cmpf .oge : (⟨S4x50000x64, .f32⟩ : BufTy).Contents (Elt F) → (⟨S4x50000x64, .f32⟩ : BufTy).Contents (Elt F) → (⟨S4x50000x64, .i1⟩ : BufTy).Contents (Elt F)) (preR mean h Wl bl Wr) ((broadcastInDim S4x50000x64 ![] bcast_S_S4x50000x64 : (⟨S_, .f32⟩ : BufTy).Contents (Elt F) → (⟨S4x50000x64, .f32⟩ : BufTy).Contents (Elt F)) (constant S_ .f32 0x00000000#32 : (⟨S_, .f32⟩ : BufTy).Contents (Elt F)))) (preR mean h Wl bl Wr) ((mulf : (⟨S4x50000x64, .f32⟩ : BufTy).Contents (Elt F) → (⟨S4x50000x64, .f32⟩ : BufTy).Contents (Elt F) → (⟨S4x50000x64, .f32⟩ : BufTy).Contents (Elt F)) ((broadcastInDim S4x50000x64 ![] bcast_S_S4x50000x64 : (⟨S_, .f32⟩ : BufTy).Contents (Elt F) → (⟨S4x50000x64, .f32⟩ : BufTy).Contents (Elt F)) a) (preR mean h Wl bl Wr)))

/-- The input as nodes by features. -/
def h0R (x : (⟨S4x3200000, .f32⟩ : BufTy).Contents (Elt F)) : (⟨S4x50000x64, .f32⟩ : BufTy).Contents (Elt F) :=
  shapeCast S4x50000x64 x shapeCasts_S4x3200000_S4x50000x64

/-- One layer from the node features and the edge list: the layer of the mean aggregation and the features. -/
def stepR (h : (⟨S4x50000x64, .f32⟩ : BufTy).Contents (Elt F)) (ei : (⟨S1x2x800000, .i32⟩ : BufTy).Contents (Elt F)) (Wl : (⟨S64x64, .f32⟩ : BufTy).Contents (Elt F)) (bl : (⟨S64, .f32⟩ : BufTy).Contents (Elt F)) (Wr : (⟨S64x64, .f32⟩ : BufTy).Contents (Elt F)) (a : (⟨S_, .f32⟩ : BufTy).Contents (Elt F)) : (⟨S4x50000x64, .f32⟩ : BufTy).Contents (Elt F) :=
  layerR (aggR h ei) h Wl bl Wr a

theorem stepR_def (h : (⟨S4x50000x64, .f32⟩ : BufTy).Contents (Elt F)) (ei : (⟨S1x2x800000, .i32⟩ : BufTy).Contents (Elt F)) (Wl : (⟨S64x64, .f32⟩ : BufTy).Contents (Elt F)) (bl : (⟨S64, .f32⟩ : BufTy).Contents (Elt F)) (Wr : (⟨S64x64, .f32⟩ : BufTy).Contents (Elt F)) (a : (⟨S_, .f32⟩ : BufTy).Contents (Elt F)) :
    stepR h ei Wl bl Wr a = layerR (aggR h ei) h Wl bl Wr a := rfl

/-- The whole network: the input as nodes by features, three layers, the result flattened again. -/
def netR (x : (⟨S4x3200000, .f32⟩ : BufTy).Contents (Elt F)) (ei : (⟨S1x2x800000, .i32⟩ : BufTy).Contents (Elt F))
    (Wl0 : (⟨S64x64, .f32⟩ : BufTy).Contents (Elt F)) (bl0 : (⟨S64, .f32⟩ : BufTy).Contents (Elt F)) (Wr0 : (⟨S64x64, .f32⟩ : BufTy).Contents (Elt F)) (a0 : (⟨S_, .f32⟩ : BufTy).Contents (Elt F))
    (Wl1 : (⟨S64x64, .f32⟩ : BufTy).Contents (Elt F)) (bl1 : (⟨S64, .f32⟩ : BufTy).Contents (Elt F)) (Wr1 : (⟨S64x64, .f32⟩ : BufTy).Contents (Elt F)) (a1 : (⟨S_, .f32⟩ : BufTy).Contents (Elt F))
    (Wl2 : (⟨S64x64, .f32⟩ : BufTy).Contents (Elt F)) (bl2 : (⟨S64, .f32⟩ : BufTy).Contents (Elt F)) (Wr2 : (⟨S64x64, .f32⟩ : BufTy).Contents (Elt F)) (a2 : (⟨S_, .f32⟩ : BufTy).Contents (Elt F)) : (⟨S4x3200000, .f32⟩ : BufTy).Contents (Elt F) :=
  shapeCast S4x3200000
    (stepR (stepR (stepR (h0R x) ei Wl0 bl0 Wr0 a0) ei Wl1 bl1 Wr1 a1) ei Wl2 bl2 Wr2 a2)
    shapeCasts_S4x50000x64_S4x3200000

theorem netR_def (x : (⟨S4x3200000, .f32⟩ : BufTy).Contents (Elt F)) (ei : (⟨S1x2x800000, .i32⟩ : BufTy).Contents (Elt F))
    (Wl0 : (⟨S64x64, .f32⟩ : BufTy).Contents (Elt F)) (bl0 : (⟨S64, .f32⟩ : BufTy).Contents (Elt F)) (Wr0 : (⟨S64x64, .f32⟩ : BufTy).Contents (Elt F)) (a0 : (⟨S_, .f32⟩ : BufTy).Contents (Elt F))
    (Wl1 : (⟨S64x64, .f32⟩ : BufTy).Contents (Elt F)) (bl1 : (⟨S64, .f32⟩ : BufTy).Contents (Elt F)) (Wr1 : (⟨S64x64, .f32⟩ : BufTy).Contents (Elt F)) (a1 : (⟨S_, .f32⟩ : BufTy).Contents (Elt F))
    (Wl2 : (⟨S64x64, .f32⟩ : BufTy).Contents (Elt F)) (bl2 : (⟨S64, .f32⟩ : BufTy).Contents (Elt F)) (Wr2 : (⟨S64x64, .f32⟩ : BufTy).Contents (Elt F)) (a2 : (⟨S_, .f32⟩ : BufTy).Contents (Elt F)) :
    netR x ei Wl0 bl0 Wr0 a0 Wl1 bl1 Wr1 a1 Wl2 bl2 Wr2 a2
      = shapeCast S4x3200000
          (layerR (aggR (layerR (aggR (layerR (aggR (h0R x) ei) (h0R x) Wl0 bl0 Wr0 a0) ei)
                                (layerR (aggR (h0R x) ei) (h0R x) Wl0 bl0 Wr0 a0) Wl1 bl1 Wr1 a1) ei)
                  (layerR (aggR (layerR (aggR (h0R x) ei) (h0R x) Wl0 bl0 Wr0 a0) ei)
                          (layerR (aggR (h0R x) ei) (h0R x) Wl0 bl0 Wr0 a0) Wl1 bl1 Wr1 a1) Wl2 bl2 Wr2 a2)
          shapeCasts_S4x50000x64_S4x3200000 := rfl

/-! ## Each stretch read from any contents -/

set_option maxRecDepth 16384 in
set_option maxHeartbeats 4000000 in
theorem c0_src (X : Valuation τ sig (Elt F)) :
    after c0 X (main_v2 : DevRef τ sig) = srcR (X (main_arg1 : DevRef τ sig)) := by
  simp only [c0]
  after_results_simp
  try simp only [cast_cast, cast_eq]
  rfl

set_option maxRecDepth 16384 in
set_option maxHeartbeats 4000000 in
theorem c0_dst (X : Valuation τ sig (Elt F)) :
    after c0 X (main_v4 : DevRef τ sig) = dstR (X (main_arg1 : DevRef τ sig)) := by
  simp only [c0]
  after_results_simp
  try simp only [cast_cast, cast_eq]
  rfl

set_option maxRecDepth 16384 in
set_option maxHeartbeats 4000000 in
theorem c0_inv (X : Valuation τ sig (Elt F)) :
    after c0 X (main_v18 : DevRef τ sig) = invDegR (X (main_arg1 : DevRef τ sig)) := by
  simp only [c0]
  after_results_simp
  try simp only [cast_cast, cast_eq]
  rfl

set_option maxRecDepth 16384 in
set_option maxHeartbeats 4000000 in
theorem c0_h (X : Valuation τ sig (Elt F)) :
    after c0 X (main_v19 : DevRef τ sig) = h0R (X (main_arg0 : DevRef τ sig)) := by
  simp only [c0]
  after_results_simp
  try simp only [cast_cast, cast_eq]
  rfl

set_option maxRecDepth 16384 in
set_option maxHeartbeats 4000000 in
theorem c1_h (X : Valuation τ sig (Elt F)) :
    after c1 X (main_v42 : DevRef τ sig) = layerR (aggCore (X (main_v19 : DevRef τ sig)) (X (main_v2 : DevRef τ sig)) (X (main_v4 : DevRef τ sig)) (X (main_v18 : DevRef τ sig))) (X (main_v19 : DevRef τ sig)) (X (main_arg2 : DevRef τ sig)) (X (main_arg3 : DevRef τ sig)) (X (main_arg4 : DevRef τ sig)) (X (main_arg5 : DevRef τ sig)) := by
  simp only [c1]
  after_results_simp
  try simp only [cast_cast, cast_eq]
  rfl

set_option maxRecDepth 16384 in
set_option maxHeartbeats 4000000 in
theorem c2_h (X : Valuation τ sig (Elt F)) :
    after c2b (after c2a X) (main_v65 : DevRef τ sig) = layerR (aggCore (X (main_v42 : DevRef τ sig)) (X (main_v2 : DevRef τ sig)) (X (main_v4 : DevRef τ sig)) (X (main_v18 : DevRef τ sig))) (X (main_v42 : DevRef τ sig)) (X (main_arg6 : DevRef τ sig)) (X (main_arg7 : DevRef τ sig)) (X (main_arg8 : DevRef τ sig)) (X (main_arg9 : DevRef τ sig)) := by
  simp only [c2a, c2b]
  after_results_simp
  try simp only [cast_cast, cast_eq]
  rfl

set_option maxRecDepth 16384 in
set_option maxHeartbeats 4000000 in
theorem c3_out (X : Valuation τ sig (Elt F)) :
    after c3 X (main_v89 : DevRef τ sig) = (shapeCast S4x3200000 (layerR (aggCore (X (main_v65 : DevRef τ sig)) (X (main_v2 : DevRef τ sig)) (X (main_v4 : DevRef τ sig)) (X (main_v18 : DevRef τ sig))) (X (main_v65 : DevRef τ sig)) (X (main_arg10 : DevRef τ sig)) (X (main_arg11 : DevRef τ sig)) (X (main_arg12 : DevRef τ sig)) (X (main_arg13 : DevRef τ sig))) shapeCasts_S4x50000x64_S4x3200000 : (⟨S4x3200000, .f32⟩ : BufTy).Contents (Elt F)) := by
  simp only [c3]
  after_results_simp
  try simp only [cast_cast, cast_eq]
  rfl

/-! ## The stretches in a row, from the launch contents -/

theorem s1_h (V : Valuation τ sig (Elt F)) : after c1 (after c0 V) (main_v42 : DevRef τ sig) = (stepR (h0R (V (main_arg0 : DevRef τ sig))) (V (main_arg1 : DevRef τ sig)) (V (main_arg2 : DevRef τ sig)) (V (main_arg3 : DevRef τ sig)) (V (main_arg4 : DevRef τ sig)) (V (main_arg5 : DevRef τ sig))) := by
  rw [c1_h, c0_h, c0_src, c0_dst, c0_inv, c0_keep V main_arg2 (by decide), c0_keep V main_arg3 (by decide), c0_keep V main_arg4 (by decide), c0_keep V main_arg5 (by decide)]
  rfl
theorem s1_src (V : Valuation τ sig (Elt F)) : after c1 (after c0 V) (main_v2 : DevRef τ sig) = srcR (V (main_arg1 : DevRef τ sig)) := by
  rw [c1_keep _ main_v2 (by decide), c0_src]
theorem s1_dst (V : Valuation τ sig (Elt F)) : after c1 (after c0 V) (main_v4 : DevRef τ sig) = dstR (V (main_arg1 : DevRef τ sig)) := by
  rw [c1_keep _ main_v4 (by decide), c0_dst]
theorem s1_inv (V : Valuation τ sig (Elt F)) : after c1 (after c0 V) (main_v18 : DevRef τ sig) = invDegR (V (main_arg1 : DevRef τ sig)) := by
  rw [c1_keep _ main_v18 (by decide), c0_inv]
theorem s1_arg6 (V : Valuation τ sig (Elt F)) : after c1 (after c0 V) (main_arg6 : DevRef τ sig) = (V (main_arg6 : DevRef τ sig)) := by
  rw [c1_keep _ main_arg6 (by decide), c0_keep _ main_arg6 (by decide)]
theorem s1_arg7 (V : Valuation τ sig (Elt F)) : after c1 (after c0 V) (main_arg7 : DevRef τ sig) = (V (main_arg7 : DevRef τ sig)) := by
  rw [c1_keep _ main_arg7 (by decide), c0_keep _ main_arg7 (by decide)]
theorem s1_arg8 (V : Valuation τ sig (Elt F)) : after c1 (after c0 V) (main_arg8 : DevRef τ sig) = (V (main_arg8 : DevRef τ sig)) := by
  rw [c1_keep _ main_arg8 (by decide), c0_keep _ main_arg8 (by decide)]
theorem s1_arg9 (V : Valuation τ sig (Elt F)) : after c1 (after c0 V) (main_arg9 : DevRef τ sig) = (V (main_arg9 : DevRef τ sig)) := by
  rw [c1_keep _ main_arg9 (by decide), c0_keep _ main_arg9 (by decide)]
theorem s1_arg10 (V : Valuation τ sig (Elt F)) : after c1 (after c0 V) (main_arg10 : DevRef τ sig) = (V (main_arg10 : DevRef τ sig)) := by
  rw [c1_keep _ main_arg10 (by decide), c0_keep _ main_arg10 (by decide)]
theorem s1_arg11 (V : Valuation τ sig (Elt F)) : after c1 (after c0 V) (main_arg11 : DevRef τ sig) = (V (main_arg11 : DevRef τ sig)) := by
  rw [c1_keep _ main_arg11 (by decide), c0_keep _ main_arg11 (by decide)]
theorem s1_arg12 (V : Valuation τ sig (Elt F)) : after c1 (after c0 V) (main_arg12 : DevRef τ sig) = (V (main_arg12 : DevRef τ sig)) := by
  rw [c1_keep _ main_arg12 (by decide), c0_keep _ main_arg12 (by decide)]
theorem s1_arg13 (V : Valuation τ sig (Elt F)) : after c1 (after c0 V) (main_arg13 : DevRef τ sig) = (V (main_arg13 : DevRef τ sig)) := by
  rw [c1_keep _ main_arg13 (by decide), c0_keep _ main_arg13 (by decide)]

theorem s2_h (V : Valuation τ sig (Elt F)) : after c2b (after c2a (after c1 (after c0 V))) (main_v65 : DevRef τ sig) = (stepR (stepR (h0R (V (main_arg0 : DevRef τ sig))) (V (main_arg1 : DevRef τ sig)) (V (main_arg2 : DevRef τ sig)) (V (main_arg3 : DevRef τ sig)) (V (main_arg4 : DevRef τ sig)) (V (main_arg5 : DevRef τ sig))) (V (main_arg1 : DevRef τ sig)) (V (main_arg6 : DevRef τ sig)) (V (main_arg7 : DevRef τ sig)) (V (main_arg8 : DevRef τ sig)) (V (main_arg9 : DevRef τ sig))) := by
  rw [c2_h, s1_h, s1_src, s1_dst, s1_inv, s1_arg6, s1_arg7, s1_arg8, s1_arg9]
  rfl
theorem s2_src (V : Valuation τ sig (Elt F)) : after c2b (after c2a (after c1 (after c0 V))) (main_v2 : DevRef τ sig) = srcR (V (main_arg1 : DevRef τ sig)) := by
  rw [c2b_keep _ main_v2 (by decide), c2a_keep _ main_v2 (by decide), s1_src]
theorem s2_dst (V : Valuation τ sig (Elt F)) : after c2b (after c2a (after c1 (after c0 V))) (main_v4 : DevRef τ sig) = dstR (V (main_arg1 : DevRef τ sig)) := by
  rw [c2b_keep _ main_v4 (by decide), c2a_keep _ main_v4 (by decide), s1_dst]
theorem s2_inv (V : Valuation τ sig (Elt F)) : after c2b (after c2a (after c1 (after c0 V))) (main_v18 : DevRef τ sig) = invDegR (V (main_arg1 : DevRef τ sig)) := by
  rw [c2b_keep _ main_v18 (by decide), c2a_keep _ main_v18 (by decide), s1_inv]
theorem s2_arg10 (V : Valuation τ sig (Elt F)) : after c2b (after c2a (after c1 (after c0 V))) (main_arg10 : DevRef τ sig) = (V (main_arg10 : DevRef τ sig)) := by
  rw [c2b_keep _ main_arg10 (by decide), c2a_keep _ main_arg10 (by decide), s1_arg10]
theorem s2_arg11 (V : Valuation τ sig (Elt F)) : after c2b (after c2a (after c1 (after c0 V))) (main_arg11 : DevRef τ sig) = (V (main_arg11 : DevRef τ sig)) := by
  rw [c2b_keep _ main_arg11 (by decide), c2a_keep _ main_arg11 (by decide), s1_arg11]
theorem s2_arg12 (V : Valuation τ sig (Elt F)) : after c2b (after c2a (after c1 (after c0 V))) (main_arg12 : DevRef τ sig) = (V (main_arg12 : DevRef τ sig)) := by
  rw [c2b_keep _ main_arg12 (by decide), c2a_keep _ main_arg12 (by decide), s1_arg12]
theorem s2_arg13 (V : Valuation τ sig (Elt F)) : after c2b (after c2a (after c1 (after c0 V))) (main_arg13 : DevRef τ sig) = (V (main_arg13 : DevRef τ sig)) := by
  rw [c2b_keep _ main_arg13 (by decide), c2a_keep _ main_arg13 (by decide), s1_arg13]

/-! ## The result -/

/-- After the whole line the result buffer holds the network's value at the arguments' launch contents. -/
theorem out_eq (V : Valuation τ sig (Elt F)) :
    after ops V (main_v89 : DevRef τ sig)
      = netR (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  rw [after_ops, c3_out, s2_h, s2_src, s2_dst, s2_inv, s2_arg10, s2_arg11, s2_arg12, s2_arg13]
  rfl

end Cert.ReferenceIdeal.Hand

end
-- ==== Proof.RefLayer.lean ====
/-
  A layer of the reference read at one element, at the ideal values: the product with a weight matrix is the plain
  sum over the 64 input features, the bias broadcast reads the bias at the output feature, the slope broadcast reads
  the slope, and the selection is the rectifier of the pre-activation.
-/
import proofs.«162317_j38147899523429_1_alg».proof.Proof.RefValue
import proofs.«162317_j38147899523429_1_alg».proof.Proof.Prelu
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## A product with a weight matrix, read at an index -/

/-- The dimension numbers of the four products: the features axis of the left operand against the input axis of
    the right. -/
abbrev DD : DotDims S4x50000x64 S64x64 S4x50000x64 := dot_S4x50000x64_S64x64_S4x50000x64_2_1_01_0_n_n

theorem lhs_0 (i : S4x50000x64.Idx) (q : DD.contr.Idx) : (DD.lhsIdx i q 0).val = (i 0).val := by
  unfold DotDims.lhsIdx
  rw [dif_neg (show ¬(0 : Fin S4x50000x64.rank) ∈ DD.lhsBatch by decide), dif_pos (show (0 : Fin S4x50000x64.rank) ∈ DD.lhsNonContracting by decide)]
  rfl
theorem lhs_1 (i : S4x50000x64.Idx) (q : DD.contr.Idx) : (DD.lhsIdx i q 1).val = (i 1).val := by
  unfold DotDims.lhsIdx
  rw [dif_neg (show ¬(1 : Fin S4x50000x64.rank) ∈ DD.lhsBatch by decide), dif_pos (show (1 : Fin S4x50000x64.rank) ∈ DD.lhsNonContracting by decide)]
  rfl
theorem lhs_2 (i : S4x50000x64.Idx) (q : DD.contr.Idx) : (DD.lhsIdx i q 2).val = (q ⟨0, by decide⟩).val :=
  DD.lhsIdx_val_of_single rfl i q
theorem rhs_0 (i : S4x50000x64.Idx) (q : DD.contr.Idx) : (DD.rhsIdx i q 0).val = (i 2).val := by
  unfold DotDims.rhsIdx
  rw [dif_neg (show ¬(0 : Fin S64x64.rank) ∈ DD.rhsBatch by decide), dif_pos (show (0 : Fin S64x64.rank) ∈ DD.rhsNonContracting by decide)]
  rfl
theorem rhs_1 (i : S4x50000x64.Idx) (q : DD.contr.Idx) : (DD.rhsIdx i q 1).val = (q ⟨0, by decide⟩).val :=
  DD.rhsIdx_val_of_single rfl i q

/-- At the ideal values the product `l · rᵀ` read at node `n` of batch `b`, output feature `o`, is the plain sum
    over the 64 input features. -/
theorem dot_apply (l : FVec Ideal S4x50000x64 .f32) (r : FVec Ideal S64x64 .f32) (b : Fin 4) (n : Fin 50000) (o : Fin 64) :
    Host.dotGeneral DD none l r (ValueIdx.ix3 b n o) = ∑ f : Fin 64, l (ValueIdx.ix3 b n f) * r (ValueIdx.ix2 o f) := by
  simp only [Host.dotGeneral]
  rw [Ideal.dotGeneral_apply, ← Equiv.sum_comp (ValueIdx.contrEquiv1 DD 64 rfl rfl).symm]
  refine Finset.sum_congr rfl fun k _ => ?_
  have hk := ValueIdx.contrEquiv1_symm_val DD 64 rfl rfl k
  have el : DD.lhsIdx (ValueIdx.ix3 b n o) ((ValueIdx.contrEquiv1 DD 64 rfl rfl).symm k) = ValueIdx.ix3 b n k :=
    funext fun a => Fin.ext (by
      match a with
      | ⟨0, _⟩ => exact lhs_0 _ _
      | ⟨1, _⟩ => exact lhs_1 _ _
      | ⟨2, _⟩ => exact (lhs_2 _ _).trans hk)
  have er : DD.rhsIdx (ValueIdx.ix3 b n o) ((ValueIdx.contrEquiv1 DD 64 rfl rfl).symm k) = ValueIdx.ix2 o k :=
    funext fun a => Fin.ext (by
      match a with
      | ⟨0, _⟩ => exact rhs_0 _ _
      | ⟨1, _⟩ => exact (rhs_1 _ _).trans hk)
  rw [el, er]

/-! ## The broadcasts, read at an index -/

/-- The bias broadcast along batches and nodes reads the bias at the output feature. -/
theorem bias_apply (bl : FVec Ideal S64 .f32) (b : Fin 4) (n : Fin 50000) (o : Fin 64) :
    broadcastInDim S4x50000x64 ![0, 1, 2] bcast_S1x1x64_S4x50000x64_0_1_2
      (broadcastInDim S1x1x64 ![2] bcast_S64_S1x1x64_2 bl) (ValueIdx.ix3 b n o) = bl (ValueIdx.ix1 o) := by
  unfold broadcastInDim
  refine congrArg bl (funext fun d => Fin.ext ?_)
  match d with
  | ⟨0, _⟩ => rfl

/-- A broadcast scalar reads the scalar everywhere. -/
theorem scalar_apply (a : FVec Ideal S_ .f32) (i : S4x50000x64.Idx) :
    broadcastInDim S4x50000x64 ![] bcast_S_S4x50000x64 a i = a ValueIdx.ix0 :=
  congrArg a (ValueIdx.eq_ix0 _)

/-! ## A layer, read at an index -/

/-- The pre-activation at node `n` of batch `b`, output feature `o`: the mean row times `Wl`, plus the bias, plus
    the node's own row times `Wr`. -/
theorem preR_apply (mean h : FVec Ideal S4x50000x64 .f32) (Wl : FVec Ideal S64x64 .f32) (bl : FVec Ideal S64 .f32) (Wr : FVec Ideal S64x64 .f32)
    (b : Fin 4) (n : Fin 50000) (o : Fin 64) :
    preR (F := Ideal) mean h Wl bl Wr (ValueIdx.ix3 b n o)
      = ((∑ f : Fin 64, mean (ValueIdx.ix3 b n f) * Wl (ValueIdx.ix2 o f)) + bl (ValueIdx.ix1 o))
        + ∑ f : Fin 64, h (ValueIdx.ix3 b n f) * Wr (ValueIdx.ix2 o f) := by
  unfold preR
  show (Host.dotGeneral DD none mean Wl (ValueIdx.ix3 b n o)
        + broadcastInDim S4x50000x64 ![0, 1, 2] bcast_S1x1x64_S4x50000x64_0_1_2
            (broadcastInDim S1x1x64 ![2] bcast_S64_S1x1x64_2 bl) (ValueIdx.ix3 b n o))
      + Host.dotGeneral DD none h Wr (ValueIdx.ix3 b n o) = _
  rw [dot_apply, dot_apply, bias_apply]

/-- A layer at an element is the rectifier, with the broadcast slope, of the pre-activation there. -/
theorem layerR_apply_pre (mean h : FVec Ideal S4x50000x64 .f32) (Wl : FVec Ideal S64x64 .f32) (bl : FVec Ideal S64 .f32) (Wr : FVec Ideal S64x64 .f32) (a : FVec Ideal S_ .f32)
    (i : S4x50000x64.Idx) :
    layerR (F := Ideal) mean h Wl bl Wr a i = Cert.Spec.preluI (a ValueIdx.ix0) (preR (F := Ideal) mean h Wl bl Wr i) := by
  unfold layerR Cert.Spec.preluI
  show Scalar.select (FloatOps.cmpf (F := Ideal) (φ := .f32) .oge (preR (F := Ideal) mean h Wl bl Wr i)
          (FloatOps.ofBits (F := Ideal) .f32 0x00000000#32)) (preR (F := Ideal) mean h Wl bl Wr i)
        (broadcastInDim S4x50000x64 ![] bcast_S_S4x50000x64 a i * preR (F := Ideal) mean h Wl bl Wr i) = _
  rw [scalar_apply]

/-- A layer read at node `n` of batch `b`, output feature `o`. -/
theorem layerR_apply (mean h : FVec Ideal S4x50000x64 .f32) (Wl : FVec Ideal S64x64 .f32) (bl : FVec Ideal S64 .f32) (Wr : FVec Ideal S64x64 .f32) (a : FVec Ideal S_ .f32)
    (b : Fin 4) (n : Fin 50000) (o : Fin 64) :
    layerR (F := Ideal) mean h Wl bl Wr a (ValueIdx.ix3 b n o)
      = Cert.Spec.preluI (a ValueIdx.ix0)
          (((∑ f : Fin 64, mean (ValueIdx.ix3 b n f) * Wl (ValueIdx.ix2 o f)) + bl (ValueIdx.ix1 o))
        + ∑ f : Fin 64, h (ValueIdx.ix3 b n f) * Wr (ValueIdx.ix2 o f)) := by
  rw [layerR_apply_pre, preR_apply]

end Cert.ReferenceIdeal.Hand

end
-- ==== Proof.RefBridge.lean ====
/-
  The reference's aggregation and reshapes are the kernel program's: the same operations with the same dimension
  numbers, each program's own constants equal by unfolding.
-/
import proofs.«162317_j38147899523429_1_alg».proof.Proof.KernelAgg
import proofs.«162317_j38147899523429_1_alg».proof.Proof.RefValue

noncomputable section

namespace Cert.ReferenceIdeal.Hand

open Idealize.ShloMosaic

variable {F : FTy → Type} [FloatOps F]

theorem srcR_eq_srcK (ei : Cert.KernelIdeal.Hand.Cv F Cert.KernelIdeal.S1x2x800000 .i32) :
    srcR (F := F) ei = Cert.KernelIdeal.Hand.srcK ei := rfl

theorem dstR_eq_dstK (ei : Cert.KernelIdeal.Hand.Cv F Cert.KernelIdeal.S1x2x800000 .i32) :
    dstR (F := F) ei = Cert.KernelIdeal.Hand.dstK ei := rfl

theorem invDegCore_eq_degInvK (dst : Cert.KernelIdeal.Hand.Cv F Cert.KernelIdeal.S800000 .i32) :
    invDegCore (F := F) dst = Cert.KernelIdeal.Hand.degInvK dst := rfl

theorem aggCore_eq_aggK' (h : Cert.KernelIdeal.Hand.Cv F Cert.KernelIdeal.S4x50000x64 .f32)
    (src dst : Cert.KernelIdeal.Hand.Cv F Cert.KernelIdeal.S800000 .i32) (dinv : Cert.KernelIdeal.Hand.Cv F Cert.KernelIdeal.S50000 .f32) :
    aggCore (F := F) h src dst dinv = Cert.KernelIdeal.Hand.aggK' h src dst dinv := rfl

/-- The mean aggregation is the same function in both programs. -/
theorem aggR_eq_aggK (h : Cert.KernelIdeal.Hand.Cv F Cert.KernelIdeal.S4x50000x64 .f32)
    (ei : Cert.KernelIdeal.Hand.Cv F Cert.KernelIdeal.S1x2x800000 .i32) :
    aggR (F := F) h ei = Cert.KernelIdeal.Hand.aggK h ei := by
  unfold aggR invDegR Cert.KernelIdeal.Hand.aggK
  rw [aggCore_eq_aggK', srcR_eq_srcK, dstR_eq_dstK, invDegCore_eq_degInvK]

theorem h0R_eq_featK (x : Cert.KernelIdeal.Hand.Cv F Cert.KernelIdeal.S4x3200000 .f32) :
    h0R (F := F) x = Cert.KernelIdeal.Hand.featK x := rfl

/-- The final flattening is the kernel program's. -/
theorem unfeat_eq_unfeatK (h : Cert.KernelIdeal.Hand.Cv F Cert.KernelIdeal.S4x50000x64 .f32) :
    (shapeCast Cert.ReferenceIdeal.S4x3200000 h Cert.ReferenceIdeal.Gen.shapeCasts_S4x50000x64_S4x3200000
      : (⟨Cert.ReferenceIdeal.S4x3200000, .f32⟩ : BufTy).Contents (Elt F)) = Cert.KernelIdeal.Hand.unfeatK h := rfl

end Cert.ReferenceIdeal.Hand

end
-- ==== Proof.Bridge.lean ====
/-
  The two programs compute the same function of the arguments.

  One layer.  The kernel's layer at `(b, n, o)` and the reference's are both
  `prelu a ((∑ f, mean[b,n,f]·Wl[o,f] + bl[o]) + ∑ f, h[b,n,f]·Wr[o,f])` — the kernel's through the rows
  `50000·b + n` of the flattened features and the transposed weights, the reference's through its contraction over the
  last axis — and the mean aggregation is the same chain of host operations in both.  So the layers agree entry by
  entry, and the three layers in a row, between the same two reshapes, agree.
-/
import proofs.«162317_j38147899523429_1_alg».proof.Proof.KernelStep
import proofs.«162317_j38147899523429_1_alg».proof.Proof.RefLayer
import proofs.«162317_j38147899523429_1_alg».proof.Proof.RefBridge

noncomputable section

namespace Cert.Proof.Bridge

open Idealize.ShloMosaic Idealize.ShloMosaic.ValueIdx Cert.Spec
open Cert.KernelIdeal.Hand Cert.ReferenceIdeal.Hand

/-- ONE LAYER: the kernel's (aggregate, launch on the flattened rows, read back) is the reference's. -/
theorem step_eq (h : Cv Ideal Cert.KernelIdeal.S4x50000x64 .f32) (ei : Cv Ideal Cert.KernelIdeal.S1x2x800000 .i32)
    (Wl : Cv Ideal Cert.KernelIdeal.S64x64 .f32) (bl : Cv Ideal Cert.KernelIdeal.S64 .f32)
    (Wr : Cv Ideal Cert.KernelIdeal.S64x64 .f32) (a : Cv Ideal Cert.KernelIdeal.S_ .f32) :
    stepK h ei Wl bl Wr a = stepR (F := Ideal) h ei Wl bl Wr a := by
  funext i
  obtain ⟨b, n, o, rfl⟩ : ∃ (b : Fin 4) (n : Fin 50000) (o : Fin 64), i = ix3 b n o := ⟨i 0, i 1, i 2, eq_ix3 i⟩
  refine (stepK_apply h ei Wl bl Wr a b n o).trans ?_
  rw [stepR_def]
  refine ((layerR_apply (aggR (F := Ideal) h ei) h Wl bl Wr a b n o).trans ?_).symm
  rw [aggR_eq_aggK]

/-- THE WHOLE PROGRAM: three layers between the same two reshapes. -/
theorem net_eq (x : Cv Ideal Cert.KernelIdeal.S4x3200000 .f32) (ei : Cv Ideal Cert.KernelIdeal.S1x2x800000 .i32)
    (Wl0 : Cv Ideal Cert.KernelIdeal.S64x64 .f32) (bl0 : Cv Ideal Cert.KernelIdeal.S64 .f32) (Wr0 : Cv Ideal Cert.KernelIdeal.S64x64 .f32) (a0 : Cv Ideal Cert.KernelIdeal.S_ .f32)
    (Wl1 : Cv Ideal Cert.KernelIdeal.S64x64 .f32) (bl1 : Cv Ideal Cert.KernelIdeal.S64 .f32) (Wr1 : Cv Ideal Cert.KernelIdeal.S64x64 .f32) (a1 : Cv Ideal Cert.KernelIdeal.S_ .f32)
    (Wl2 : Cv Ideal Cert.KernelIdeal.S64x64 .f32) (bl2 : Cv Ideal Cert.KernelIdeal.S64 .f32) (Wr2 : Cv Ideal Cert.KernelIdeal.S64x64 .f32) (a2 : Cv Ideal Cert.KernelIdeal.S_ .f32) :
    netK x ei Wl0 bl0 Wr0 a0 Wl1 bl1 Wr1 a1 Wl2 bl2 Wr2 a2 = netR (F := Ideal) x ei Wl0 bl0 Wr0 a0 Wl1 bl1 Wr1 a1 Wl2 bl2 Wr2 a2 := by
  unfold netK netR
  simp only [step_eq]
  rfl

end Cert.Proof.Bridge

end
-- ==== Proof.lean ====
/-
  The certificate of a three-layer SAGE network: a Pallas kernel for the dense part of each layer against the jnp
  reference, equal on the extended reals.

  Both programs reshape the input to node features `[4, 50000, 64]`, read the edges' source and destination nodes off
  the edge list, and run three layers.  A layer aggregates: it gathers every edge's source features, scatter-adds them
  at the destinations and scales by the inverse degree; both programs do this with the same host operations.  Then
  the reference contracts the mean and the features against the two weight matrices (`[o, f]`, over `f`), adds the bias
  between the two products, and applies the parametric rectifier.  The kernel flattens the mean and the features to
  `[200000, 64]` rows, transposes the weights, and computes the same sum and rectifier 8000 rows at a time, its two
  matrix products into zero accumulators after a narrowing to bf16 that is the identity on extended reals.  Entry
  `(b, n, o)` of a layer is therefore the same number on both sides: the two products are the same sums over `f`, added
  to the bias in the same order, and no law of arithmetic beyond reading each operation at an index is used — in
  particular nothing needs the inputs to be finite.

  The frames of the two kernel programs are the generated ones; the reference's run and its reading are in the
  `Ref…` modules; the kernel's run with its result named is `KernelRun`, its value `KernelValue` over the three
  region modules; `Bridge` joins the two values.
-/
import proofs.«162317_j38147899523429_1_alg».proof.Defs
import proofs.«162317_j38147899523429_1_alg».proof.Proof.Gen.Kernel
import proofs.«162317_j38147899523429_1_alg».proof.Proof.Gen.Kernel.Frame
import proofs.«162317_j38147899523429_1_alg».proof.Proof.Gen.KernelIdeal
import proofs.«162317_j38147899523429_1_alg».proof.Proof.Gen.KernelIdeal.Frame
import proofs.«162317_j38147899523429_1_alg».proof.Proof.Gen.ReferenceIdeal
import proofs.«162317_j38147899523429_1_alg».proof.Proof.Gen.Pre_finite_inputs
import proofs.«162317_j38147899523429_1_alg».proof.Proof.KernelRun
import proofs.«162317_j38147899523429_1_alg».proof.Proof.KernelValue
import proofs.«162317_j38147899523429_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs, faults nothing and leaves its arguments: the generated frame. -/
theorem frame_k : Cert.frame_Kernel := fun m ρ _ => Cert.Kernel.Gen.frame m ρ
/-- The same for the idealized kernel. -/
theorem frame_ki : Cert.frame_KernelIdeal := fun m ρ _ => Cert.KernelIdeal.Gen.frame m ρ
/-- The reference is a line of host operations: its run, with the result dropped. -/
theorem frame_ri : Cert.frame_ReferenceIdeal := fun m g _ => Cert.ReferenceIdeal.Hand.frame (F := Ideal) m g

/-- The idealization rewrote nothing: the idealized kernel is the kernel's own text read on the extended reals. -/
theorem preserves : Cert.preserves_Kernel_KernelIdeal := trivial

/-- From memories that agree on the fourteen arguments, both programs end with the three layers of the arguments in
    their result buffers: the kernel by its run and value, the reference by its run read as a function of the
    arguments, the two functions equal by `Bridge.net_eq`. -/
theorem algebraic : Cert.algebraic_KernelIdeal_ReferenceIdeal := by
  intro m ρ m' ρ' _ hagree
  refine ⟨fun c => Cert.KernelIdeal.Gen.W15 m ρ c (Proc.devRef .tc Cert.KernelIdeal.main_v80), Cert.KernelIdeal.Hand.run_result m ρ, ?_⟩
  refine (θ_run Cert.ReferenceIdeal.defs _ _).mono (fun r h c => ?_) (Cert.ReferenceIdeal.Hand.run_main (F := Ideal) m' ρ')
  obtain ⟨g0, g1, g2, g3, g4, g5, g6, g7, g8, g9, g10, g11, g12, g13⟩ := hagree c
  refine ⟨?_, (h c Cert.ReferenceIdeal.main_arg0).trans (Cert.ReferenceIdeal.Hand.arg0_eq _),
    (h c Cert.ReferenceIdeal.main_arg1).trans (Cert.ReferenceIdeal.Hand.arg1_eq _),
    (h c Cert.ReferenceIdeal.main_arg2).trans (Cert.ReferenceIdeal.Hand.arg2_eq _),
    (h c Cert.ReferenceIdeal.main_arg3).trans (Cert.ReferenceIdeal.Hand.arg3_eq _),
    (h c Cert.ReferenceIdeal.main_arg4).trans (Cert.ReferenceIdeal.Hand.arg4_eq _),
    (h c Cert.ReferenceIdeal.main_arg5).trans (Cert.ReferenceIdeal.Hand.arg5_eq _),
    (h c Cert.ReferenceIdeal.main_arg6).trans (Cert.ReferenceIdeal.Hand.arg6_eq _),
    (h c Cert.ReferenceIdeal.main_arg7).trans (Cert.ReferenceIdeal.Hand.arg7_eq _),
    (h c Cert.ReferenceIdeal.main_arg8).trans (Cert.ReferenceIdeal.Hand.arg8_eq _),
    (h c Cert.ReferenceIdeal.main_arg9).trans (Cert.ReferenceIdeal.Hand.arg9_eq _),
    (h c Cert.ReferenceIdeal.main_arg10).trans (Cert.ReferenceIdeal.Hand.arg10_eq _),
    (h c Cert.ReferenceIdeal.main_arg11).trans (Cert.ReferenceIdeal.Hand.arg11_eq _),
    (h c Cert.ReferenceIdeal.main_arg12).trans (Cert.ReferenceIdeal.Hand.arg12_eq _),
    (h c Cert.ReferenceIdeal.main_arg13).trans (Cert.ReferenceIdeal.Hand.arg13_eq _)⟩
  refine (h c Cert.ReferenceIdeal.main_v89).trans ((Cert.ReferenceIdeal.Hand.out_eq _).trans ?_)
  show Cert.ReferenceIdeal.Hand.netR (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
    = Cert.KernelIdeal.Gen.W15 m ρ c (Proc.devRef .tc Cert.KernelIdeal.main_v80)
  rw [g0, g1, g2, g3, g4, g5, g6, g7, g8, g9, g10, g11, g12, g13, Cert.KernelIdeal.Hand.value m ρ c]
  exact (Cert.Proof.Bridge.net_eq _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
